-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S4096x16 : Shape := ⟨2, ![4096, 16]⟩
abbrev S4096x128 : Shape := ⟨2, ![4096, 128]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part2 {F : FTy → Type} [FloatOps F] (main_arg8 : FVec F S2x256x256 .f32) (main_arg9 : FVec F S2x256 .f32) (main_v33 : IVec S_ 1) : IVec S_ 1 :=
  let main_v34 : FVec F S2x256x256 .f32 := Host.absf main_arg8
  let main_cst_12 : FVec F S_ .f32 := constant S_ .f32 0x7F800000#32
  let main_v35 : FVec F S2x256x256 .f32 := broadcastInDim S2x256x256 ![] bcast_S_S2x256x256 main_cst_12
  let main_v36 : IVec S2x256x256 1 := cmpf .olt main_v34 main_v35
  let main_c_13 : IVec S_ 1 := constantI S_ 1 1#1
  let main_v37 : IVec S_ 1 := (fun x v => Host.reduce IntOp.andi x v reducesTo_S2x256x256_S_d0_1_2 h_S_) main_v36 main_c_13
  let main_v38 : IVec S_ 1 := andi main_v33 main_v37
  let main_v39 : FVec F S2x256 .f32 := Host.absf main_arg9
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  main_v43

def fn_part1 {F : FTy → Type} [FloatOps F] (main_arg5 : FVec F S256x256 .f32) (main_arg6 : FVec F S256 .f32) (main_arg7 : FVec F S2x256x256 .f32) (main_arg8 : FVec F S2x256x256 .f32) (main_arg9 : FVec F S2x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S2x256x256 .f32 := Host.absf main_arg7
  let main_cst_10 : FVec F S_ .f32 := constant S_ .f32 0x7F800000#32
  let main_v30 : FVec F S2x256x256 .f32 := broadcastInDim S2x256x256 ![] bcast_S_S2x256x256 main_cst_10
  let main_v31 : IVec S2x256x256 1 := cmpf .olt main_v29 main_v30
  let main_c_11 : IVec S_ 1 := constantI S_ 1 1#1
  let main_v32 : IVec S_ 1 := (fun x v => Host.reduce IntOp.andi x v reducesTo_S2x256x256_S_d0_1_2 h_S_) main_v31 main_c_11
  let main_v33 : IVec S_ 1 := andi main_v28 main_v32
  fn_part2 (F := F) main_arg8 main_arg9 main_v33

def fn {F : FTy → Type} [FloatOps F] (main_arg0 : FVec F S16384x256 .f32) (main_arg1 : IVec S4096x16 32) (main_arg2 : FVec F S4096x128 .f32) (main_arg3 : FVec F S128x256 .f32) (main_arg4 : FVec F S256 .f32) (main_arg5 : FVec F S256x256 .f32) (main_arg6 : FVec F S256 .f32) (main_arg7 : FVec F S2x256x256 .f32) (main_arg8 : FVec F S2x256x256 .f32) (main_arg9 : FVec F S2x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S16384x256 : Shape := ⟨2, ![16384, 256]⟩
abbrev S4096x16 : Shape := ⟨2, ![4096, 16]⟩
abbrev S4096x128 : Shape := ⟨2, ![4096, 128]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S_ : Shape := ⟨0, ![]⟩
abbrev S4096x16x1 : Shape := ⟨3, ![4096, 16, 1]⟩
abbrev S4096x16x256 : Shape := ⟨3, ![4096, 16, 256]⟩
abbrev S4096x256 : Shape := ⟨2, ![4096, 256]⟩
abbrev S4096 : Shape := ⟨1, ![4096]⟩
abbrev S4096x1 : Shape := ⟨2, ![4096, 1]⟩
abbrev S4096x16384 : Shape := ⟨2, ![4096, 16384]⟩
abbrev S4096x16x2 : Shape := ⟨3, ![4096, 16, 2]⟩
abbrev S4096x4096 : Shape := ⟨2, ![4096, 4096]⟩
abbrev S1024x1024 : Shape := ⟨2, ![1024, 1024]⟩
abbrev S512x256 : Shape := ⟨2, ![512, 256]⟩
abbrev S512x128 : Shape := ⟨2, ![512, 128]⟩
abbrev S1x256 : Shape := ⟨2, ![1, 256]⟩
abbrev S1x256x256 : Shape := ⟨3, ![1, 256, 256]⟩
abbrev S512x4096 : Shape := ⟨2, ![512, 4096]⟩

abbrev nBuf : Space → Nat
  | .hbm => 65
  | .vmem => 37
  | .smem => 0
  | _ => 0

abbrev bufTy : (tb : Table) → Fin (tcTables nBuf tb) → BufTy
  | .hbm, ⟨0, _⟩ => ⟨S16384x256, .f32⟩
  | .hbm, ⟨1, _⟩ => ⟨S4096x16, .i32⟩
  | .hbm, ⟨2, _⟩ => ⟨S4096x128, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2x256x256, .f32⟩
  | .hbm, ⟨8, _⟩ => ⟨S2x256x256, .f32⟩
  | .hbm, ⟨9, _⟩ => ⟨S2x256, .f32⟩
  | .hbm, ⟨10, _⟩ => ⟨S_, .i32⟩
  | .hbm, ⟨11, _⟩ => ⟨S4096x16, .i32⟩
  | .hbm, ⟨12, _⟩ => ⟨S4096x16, .i1⟩
  | .hbm, ⟨13, _⟩ => ⟨S_, .i32⟩
  | .hbm, ⟨14, _⟩ => ⟨S4096x16, .i32⟩
  | .hbm, ⟨15, _⟩ => ⟨S4096x16, .i32⟩
  | .hbm, ⟨16, _⟩ => ⟨S4096x16, .i32⟩
  | .hbm, ⟨17, _⟩ => ⟨S4096x16x1, .i32⟩
  | .hbm, ⟨18, _⟩ => ⟨S4096x16x256, .f32⟩
  | .hbm, ⟨19, _⟩ => ⟨S_, .f32⟩
  | .hbm, ⟨20, _⟩ => ⟨S4096x256, .f32⟩
  | .hbm, ⟨21, _⟩ => ⟨S_, .f32⟩
  | .hbm, ⟨22, _⟩ => ⟨S4096x256, .f32⟩
  | .hbm, ⟨23, _⟩ => ⟨S4096x256, .f32⟩
  | .hbm, ⟨24, _⟩ => ⟨S4096, .i32⟩
  | .hbm, ⟨25, _⟩ => ⟨S4096x1, .i32⟩
  | .hbm, ⟨26, _⟩ => ⟨S_, .bf16⟩
  | .hbm, ⟨27, _⟩ => ⟨S4096x16384, .bf16⟩
  | .hbm, ⟨28, _⟩ => ⟨S_, .i32⟩
  | .hbm, ⟨29, _⟩ => ⟨S4096x1, .i32⟩
  | .hbm, ⟨30, _⟩ => ⟨S4096x1, .i1⟩
  | .hbm, ⟨31, _⟩ => ⟨S_, .i32⟩
  | .hbm, ⟨32, _⟩ => ⟨S4096x1, .i32⟩
  | .hbm, ⟨33, _⟩ => ⟨S4096x1, .i32⟩
  | .hbm, ⟨34, _⟩ => ⟨S4096x1, .i32⟩
  | .hbm, ⟨35, _⟩ => ⟨S_, .i32⟩
  | .hbm, ⟨36, _⟩ => ⟨S4096x16, .i32⟩
  | .hbm, ⟨37, _⟩ => ⟨S4096x16, .i1⟩
  | .hbm, ⟨38, _⟩ => ⟨S_, .i32⟩
  | .hbm, ⟨39, _⟩ => ⟨S4096x16, .i32⟩
  | .hbm, ⟨40, _⟩ => ⟨S4096x16, .i32⟩
  | .hbm, ⟨41, _⟩ => ⟨S4096x16, .i32⟩
  | .hbm, ⟨42, _⟩ => ⟨S4096x16, .i32⟩
  | .hbm, ⟨43, _⟩ => ⟨S4096x16x1, .i32⟩
  | .hbm, ⟨44, _⟩ => ⟨S4096x16x1, .i32⟩
  | .hbm, ⟨45, _⟩ => ⟨S4096x16x2, .i32⟩
  | .hbm, ⟨46, _⟩ => ⟨S_, .bf16⟩
  | .hbm, ⟨47, _⟩ => ⟨S4096x16, .bf16⟩
  | .hbm, ⟨48, _⟩ => ⟨S4096x16384, .bf16⟩
  | .hbm, ⟨49, _⟩ => ⟨S4096x4096, .bf16⟩
  | .hbm, ⟨50, _⟩ => ⟨S4096x256, .bf16⟩
  | .hbm, ⟨51, _⟩ => ⟨S1x256x256, .f32⟩
  | .hbm, ⟨52, _⟩ => ⟨S256x256, .f32⟩
  | .hbm, ⟨53, _⟩ => ⟨S1x256x256, .f32⟩
  | .hbm, ⟨54, _⟩ => ⟨S256x256, .f32⟩
  | .hbm, ⟨55, _⟩ => ⟨S1x256, .f32⟩
  | .hbm, ⟨56, _⟩ => ⟨S256, .f32⟩
  | .hbm, ⟨57, _⟩ => ⟨S4096x256, .bf16⟩
  | .hbm, ⟨58, _⟩ => ⟨S1x256x256, .f32⟩
  | .hbm, ⟨59, _⟩ => ⟨S256x256, .f32⟩
  | .hbm, ⟨60, _⟩ => ⟨S1x256x256, .f32⟩
  | .hbm, ⟨61, _⟩ => ⟨S256x256, .f32⟩
  | .hbm, ⟨62, _⟩ => ⟨S1x256, .f32⟩
  | .hbm, ⟨63, _⟩ => ⟨S256, .f32⟩
  | .hbm, ⟨64, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S512x256, .f32⟩
  | .local _ .vmem, ⟨8, _⟩ => ⟨S512x256, .f32⟩
  | .local _ .vmem, ⟨9, _⟩ => ⟨S512x128, .f32⟩
  | .local _ .vmem, ⟨10, _⟩ => ⟨S512x128, .f32⟩
  | .local _ .vmem, ⟨11, _⟩ => ⟨S256x256, .f32⟩
  | .local _ .vmem, ⟨12, _⟩ => ⟨S256, .f32⟩
  | .local _ .vmem, ⟨13, _⟩ => ⟨S128x256, .f32⟩
  | .local _ .vmem, ⟨14, _⟩ => ⟨S256, .f32⟩
  | .local _ .vmem, ⟨15, _⟩ => ⟨S512x256, .bf16⟩
  | .local _ .vmem, ⟨16, _⟩ => ⟨S512x256, .bf16⟩
  | .local _ .vmem, ⟨17, _⟩ => ⟨S512x4096, .bf16⟩
  | .local _ .vmem, ⟨18, _⟩ => ⟨S512x4096, .bf16⟩
  | .local _ .vmem, ⟨19, _⟩ => ⟨S512x256, .bf16⟩
  | .local _ .vmem, ⟨20, _⟩ => ⟨S512x256, .bf16⟩
  | .local _ .vmem, ⟨21, _⟩ => ⟨S4096x256, .bf16⟩
  | .local _ .vmem, ⟨22, _⟩ => ⟨S256x256, .f32⟩
  | .local _ .vmem, ⟨23, _⟩ => ⟨S256x256, .f32⟩
  | .local _ .vmem, ⟨24, _⟩ => ⟨S256, .f32⟩
  | .local _ .vmem, ⟨25, _⟩ => ⟨S512x256, .bf16⟩
  | .local _ .vmem, ⟨26, _⟩ => ⟨S512x256, .bf16⟩
  | .local _ .vmem, ⟨27, _⟩ => ⟨S512x4096, .bf16⟩
  | .local _ .vmem, ⟨28, _⟩ => ⟨S512x4096, .bf16⟩
  | .local _ .vmem, ⟨29, _⟩ => ⟨S512x256, .bf16⟩
  | .local _ .vmem, ⟨30, _⟩ => ⟨S512x256, .bf16⟩
  | .local _ .vmem, ⟨31, _⟩ => ⟨S4096x256, .bf16⟩
  | .local _ .vmem, ⟨32, _⟩ => ⟨S256x256, .f32⟩
  | .local _ .vmem, ⟨33, _⟩ => ⟨S256x256, .f32⟩
  | .local _ .vmem, ⟨34, _⟩ => ⟨S256, .f32⟩
  | .local _ .vmem, ⟨35, _⟩ => ⟨S512x256, .f32⟩
  | .local _ .vmem, ⟨36, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg6_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  reducesTo_S4096x16x256_S4096x256_d1 : S4096x16x256.ReducesTo [1] S4096x256
  h_S_ : 0 < S_.numel
  bcast_S_S4096x256 : S_.BroadcastsInDim S4096x256 (![] : Fin 0 → Fin S4096x256.rank)
  bcast_S4096_S4096x1_0 : S4096.BroadcastsInDim S4096x1 (![0] : Fin 1 → Fin S4096x1.rank)
  bcast_S_S4096x16384 : S_.BroadcastsInDim S4096x16384 (![] : Fin 0 → Fin S4096x16384.rank)
  bcast_S_S4096x1 : S_.BroadcastsInDim S4096x1 (![] : Fin 0 → Fin S4096x1.rank)
  bcast_S4096x1_S4096x16_0_1 : S4096x1.BroadcastsInDim S4096x16 (![0, 1] : Fin 2 → Fin S4096x16.rank)
  concatenates_S4096x16x1_S4096x16x1_S4096x16x2_d2 : Shape.Concatenates [S4096x16x1, S4096x16x1] S4096x16x2 2
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1024x1024_d0_w32 : S1024x1024.Iotas .tc 32 [0]
  iota_S1024x1024_d1_w32 : S1024x1024.Iotas .tc 32 [1]
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x128_S512x128_0_0 : ∀ a, (![0, 0] : Fin 2 → Nat) a + S512x128.size a ≤ S512x128.size a
  h_S512x128 : 0 < S512x128.numel
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  packedbf16_S512x256_S512x256_0_0 : (Rect.unit (s := S512x256) ![0, 0] S512x256.size inb_S512x256_S512x256_0_0).PackedRows (EltTy.packing .bf16)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S256x256_S256x256 : S256x256.ShapeCasts S256x256
  shapeCasts_S256_S256 : S256.ShapeCasts S256
  slices_S2x256x256_S1x256x256_1_0_0 : S2x256x256.Slices ![1, 0, 0] S1x256x256
  slices_S2x256_S1x256_1_0 : S2x256.Slices ![1, 0] S1x256
  gather_S16384x256_S4096x16x1_S4096x16x256_2_0_n_n_0_2_1256_wf : GatherDims.WF S16384x256 S4096x16x1 S4096x16x256 [2] [0] [] [0] [] 2 ![1, 256]
  scatter_S4096x16384_S4096x16x2_S4096x16_n_01_01_2_wf : ScatterDims.WF S4096x16384 S4096x16x2 S4096x16 [] [0, 1] [0, 1] 2
  dot_S1024x1024_S1024x1024_S1024x1024_1_1_0_0_n_n_wf : DotDims.WF S1024x1024 S1024x1024 S1024x1024 [1] [1] [0] [0] [] []
  dot_S512x256_S256x256_S512x256_1_0_0_1_n_n_wf : DotDims.WF S512x256 S256x256 S512x256 [1] [0] [0] [1] [] []
  dot_S512x128_S128x256_S512x256_1_0_0_1_n_n_wf : DotDims.WF S512x128 S128x256 S512x256 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x16384.size a
  hwx0_0 : ∀ i : grid0.Coords, EltTy.bits .bf16 = 32 ∨ (Rect.block (s := S4096x16384) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x16384.size a
  hwx0_1 : ∀ i : grid0.Coords, EltTy.bits .bf16 = 32 ∨ (Rect.block (s := S4096x16384) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .f32 = 32 ∨ (Rect.block (s := S4096x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S4096x128.size a
  hwx1_1 : ∀ i : grid1.Coords, EltTy.bits .f32 = 32 ∨ (Rect.block (s := S4096x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S4096x256.size a
  hwx1_6 : ∀ i : grid1.Coords, EltTy.bits .bf16 = 32 ∨ (Rect.block (s := S4096x256) S512x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S4096x256.size a
  hwx2_1 : ∀ i : grid2.Coords, EltTy.bits .bf16 = 32 ∨ (Rect.block (s := S4096x256) S512x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S4096x256.size a
  hwx2_2 : ∀ i : grid2.Coords, EltTy.bits .bf16 = 32 ∨ (Rect.block (s := S4096x256) S4096x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x256.size a ≤ S4096x256.size a
  hwx2_6 : ∀ i : grid2.Coords, EltTy.bits .bf16 = 32 ∨ (Rect.block (s := S4096x256) S512x256.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .bf16 = 32 ∨ (Rect.block (s := S4096x4096) S512x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S4096x256.size a
  hwx3_1 : ∀ i : grid3.Coords, EltTy.bits .bf16 = 32 ∨ (Rect.block (s := S4096x256) S512x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x256.size a ≤ S4096x256.size a
  hwx3_2 : ∀ i : grid3.Coords, EltTy.bits .bf16 = 32 ∨ (Rect.block (s := S4096x256) S4096x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S512x256.size a ≤ S4096x256.size a
  hwx3_6 : ∀ i : grid3.Coords, EltTy.bits .f32 = 32 ∨ (Rect.block (s := S4096x256) S512x256.size (cc3_transform_6 i) (hinb3_6 i)).WholeWords (EltTy.packing .f32)

variable [Facts₀]

def gather_S16384x256_S4096x16x1_S4096x16x256_2_0_n_n_0_2_1256 : GatherDims S16384x256 S4096x16x1 S4096x16x256 where
  offsetDims := [2]
  collapsedSliceDims := [0]
  operandBatchingDims := []
  startIndicesBatchingDims := []
  startIndexMap := [0]
  indexVectorDim := 2
  sliceSizes := ![1, 256]
  wf := gather_S16384x256_S4096x16x1_S4096x16x256_2_0_n_n_0_2_1256_wf
def scatter_S4096x16384_S4096x16x2_S4096x16_n_01_01_2 : ScatterDims S4096x16384 S4096x16x2 S4096x16 where
  updateWindowDims := []
  insertedWindowDims := [0, 1]
  scatterDimsToOperandDims := [0, 1]
  indexVectorDim := 2
  wf := scatter_S4096x16384_S4096x16x2_S4096x16_n_01_01_2_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_v28) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S4096x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S512x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v29) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S4096x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44) S512x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S16384x256 : Shape := ⟨2, ![16384, 256]⟩
abbrev S4096x16 : Shape := ⟨2, ![4096, 16]⟩
abbrev S4096x128 : Shape := ⟨2, ![4096, 128]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S_ : Shape := ⟨0, ![]⟩
abbrev S4096x16x1 : Shape := ⟨3, ![4096, 16, 1]⟩
abbrev S4096x16x256 : Shape := ⟨3, ![4096, 16, 256]⟩
abbrev S4096x256 : Shape := ⟨2, ![4096, 256]⟩
abbrev S1x256 : Shape := ⟨2, ![1, 256]⟩
abbrev S4096 : Shape := ⟨1, ![4096]⟩
abbrev S4096x1 : Shape := ⟨2, ![4096, 1]⟩
abbrev S4096x16384 : Shape := ⟨2, ![4096, 16384]⟩
abbrev S4096x16x2 : Shape := ⟨3, ![4096, 16, 2]⟩
abbrev S16384x4096 : Shape := ⟨2, ![16384, 4096]⟩
abbrev S4096x4096 : Shape := ⟨2, ![4096, 4096]⟩
abbrev S1x256x256 : Shape := ⟨3, ![1, 256, 256]⟩

abbrev nBuf : Space → Nat
  | .hbm => 107
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S4096x16, .i32⟩
  | .hbm, ⟨2, _⟩ => ⟨S4096x128, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2x256x256, .f32⟩
  | .hbm, ⟨8, _⟩ => ⟨S2x256x256, .f32⟩
  | .hbm, ⟨9, _⟩ => ⟨S2x256, .f32⟩
  | .hbm, ⟨10, _⟩ => ⟨S_, .i32⟩
  | .hbm, ⟨11, _⟩ => ⟨S4096x16, .i32⟩
  | .hbm, ⟨12, _⟩ => ⟨S4096x16, .i1⟩
  | .hbm, ⟨13, _⟩ => ⟨S_, .i32⟩
  | .hbm, ⟨14, _⟩ => ⟨S4096x16, .i32⟩
  | .hbm, ⟨15, _⟩ => ⟨S4096x16, .i32⟩
  | .hbm, ⟨16, _⟩ => ⟨S4096x16, .i32⟩
  | .hbm, ⟨17, _⟩ => ⟨S4096x16x1, .i32⟩
  | .hbm, ⟨18, _⟩ => ⟨S4096x16x256, .f32⟩
  | .hbm, ⟨19, _⟩ => ⟨S_, .f32⟩
  | .hbm, ⟨20, _⟩ => ⟨S4096x256, .f32⟩
  | .hbm, ⟨21, _⟩ => ⟨S_, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S1x256, .f32⟩
  | .hbm, ⟨31, _⟩ => ⟨S4096x256, .f32⟩
  | .hbm, ⟨32, _⟩ => ⟨S4096x256, .f32⟩
  | .hbm, ⟨33, _⟩ => ⟨S4096, .i32⟩
  | .hbm, ⟨34, _⟩ => ⟨S4096x1, .i32⟩
  | .hbm, ⟨35, _⟩ => ⟨S_, .f32⟩
  | .hbm, ⟨36, _⟩ => ⟨S4096x16384, .f32⟩
  | .hbm, ⟨37, _⟩ => ⟨S_, .i32⟩
  | .hbm, ⟨38, _⟩ => ⟨S4096x1, .i32⟩
  | .hbm, ⟨39, _⟩ => ⟨S4096x1, .i1⟩
  | .hbm, ⟨40, _⟩ => ⟨S_, .i32⟩
  | .hbm, ⟨41, _⟩ => ⟨S4096x1, .i32⟩
  | .hbm, ⟨42, _⟩ => ⟨S4096x1, .i32⟩
  | .hbm, ⟨43, _⟩ => ⟨S4096x1, .i32⟩
  | .hbm, ⟨44, _⟩ => ⟨S_, .i32⟩
  | .hbm, ⟨45, _⟩ => ⟨S4096x16, .i32⟩
  | .hbm, ⟨46, _⟩ => ⟨S4096x16, .i1⟩
  | .hbm, ⟨47, _⟩ => ⟨S_, .i32⟩
  | .hbm, ⟨48, _⟩ => ⟨S4096x16, .i32⟩
  | .hbm, ⟨49, _⟩ => ⟨S4096x16, .i32⟩
  | .hbm, ⟨50, _⟩ => ⟨S4096x16, .i32⟩
  | .hbm, ⟨51, _⟩ => ⟨S4096x16, .i32⟩
  | .hbm, ⟨52, _⟩ => ⟨S4096x16x1, .i32⟩
  | .hbm, ⟨53, _⟩ => ⟨S4096x16x1, .i32⟩
  | .hbm, ⟨54, _⟩ => ⟨S4096x16x2, .i32⟩
  | .hbm, ⟨55, _⟩ => ⟨S_, .f32⟩
  | .hbm, ⟨56, _⟩ => ⟨S4096x16, .f32⟩
  | .hbm, ⟨57, _⟩ => ⟨S4096x16384, .f32⟩
  | .hbm, ⟨58, _⟩ => ⟨S16384x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .i1⟩
  | .hbm, ⟨63, _⟩ => ⟨S4096x4096, .f32⟩
  | .hbm, ⟨64, _⟩ => ⟨S4096x4096, .i32⟩
  | .hbm, ⟨65, _⟩ => ⟨S4096x4096, .i32⟩
  | .hbm, ⟨66, _⟩ => ⟨S_, .i32⟩
  | .hbm, ⟨67, _⟩ => ⟨S4096x4096, .i32⟩
  | .hbm, ⟨68, _⟩ => ⟨S4096x4096, .i32⟩
  | .hbm, ⟨69, _⟩ => ⟨S4096x4096, .i1⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S4096x256, .f32⟩
  | .hbm, ⟨76, _⟩ => ⟨S1x256x256, .f32⟩
  | .hbm, ⟨77, _⟩ => ⟨S256x256, .f32⟩
  | .hbm, ⟨78, _⟩ => ⟨S4096x256, .f32⟩
  | .hbm, ⟨79, _⟩ => ⟨S1x256x256, .f32⟩
  | .hbm, ⟨80, _⟩ => ⟨S256x256, .f32⟩
  | .hbm, ⟨81, _⟩ => ⟨S4096x256, .f32⟩
  | .hbm, ⟨82, _⟩ => ⟨S4096x256, .f32⟩
  | .hbm, ⟨83, _⟩ => ⟨S1x256, .f32⟩
  | .hbm, ⟨84, _⟩ => ⟨S256, .f32⟩
  | .hbm, ⟨85, _⟩ => ⟨S1x256, .f32⟩
  | .hbm, ⟨86, _⟩ => ⟨S4096x256, .f32⟩
  | .hbm, ⟨87, _⟩ => ⟨S4096x256, .f32⟩
  | .hbm, ⟨88, _⟩ => ⟨S_, .f32⟩
  | .hbm, ⟨89, _⟩ => ⟨S4096x256, .f32⟩
  | .hbm, ⟨90, _⟩ => ⟨S4096x256, .f32⟩
  | .hbm, ⟨91, _⟩ => ⟨S4096x256, .f32⟩
  | .hbm, ⟨92, _⟩ => ⟨S1x256x256, .f32⟩
  | .hbm, ⟨93, _⟩ => ⟨S256x256, .f32⟩
  | .hbm, ⟨94, _⟩ => ⟨S4096x256, .f32⟩
  | .hbm, ⟨95, _⟩ => ⟨S1x256x256, .f32⟩
  | .hbm, ⟨96, _⟩ => ⟨S256x256, .f32⟩
  | .hbm, ⟨97, _⟩ => ⟨S4096x256, .f32⟩
  | .hbm, ⟨98, _⟩ => ⟨S4096x256, .f32⟩
  | .hbm, ⟨99, _⟩ => ⟨S1x256, .f32⟩
  | .hbm, ⟨100, _⟩ => ⟨S256, .f32⟩
  | .hbm, ⟨101, _⟩ => ⟨S1x256, .f32⟩
  | .hbm, ⟨102, _⟩ => ⟨S4096x256, .f32⟩
  | .hbm, ⟨103, _⟩ => ⟨S4096x256, .f32⟩
  | .hbm, ⟨104, _⟩ => ⟨S_, .f32⟩
  | .hbm, ⟨105, _⟩ => ⟨S4096x256, .f32⟩
  | .hbm, ⟨106, _⟩ => ⟨S4096x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call0_cst : Ref sig .tc := ⟨.hbm, 88, rfl⟩
abbrev main_call0_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_call1_cst : Ref sig .tc := ⟨.hbm, 104, rfl⟩
abbrev main_call1_v0 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  reducesTo_S4096x16x256_S4096x256_d1 : S4096x16x256.ReducesTo [1] S4096x256
  h_S_ : 0 < S_.numel
  bcast_S_S4096x256 : S_.BroadcastsInDim S4096x256 (![] : Fin 0 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S4096_S4096x1_0 : S4096.BroadcastsInDim S4096x1 (![0] : Fin 1 → Fin S4096x1.rank)
  bcast_S_S4096x16384 : S_.BroadcastsInDim S4096x16384 (![] : Fin 0 → Fin S4096x16384.rank)
  bcast_S_S4096x1 : S_.BroadcastsInDim S4096x1 (![] : Fin 0 → Fin S4096x1.rank)
  bcast_S4096x1_S4096x16_0_1 : S4096x1.BroadcastsInDim S4096x16 (![0, 1] : Fin 2 → Fin S4096x16.rank)
  concatenates_S4096x16x1_S4096x16x1_S4096x16x2_d2 : Shape.Concatenates [S4096x16x1, S4096x16x1] S4096x16x2 2
  transposes_S4096x16384_S16384x4096_1_0 : S4096x16384.Transposes [1, 0] S16384x4096
  bcast_S_S4096x4096 : S_.BroadcastsInDim S4096x4096 (![] : Fin 0 → Fin S4096x4096.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2x256x256_S1x256x256_1_0_0 : S2x256x256.Slices ![1, 0, 0] S1x256x256
  slices_S2x256_S1x256_1_0 : S2x256.Slices ![1, 0] S1x256
  gather_S16384x256_S4096x16x1_S4096x16x256_2_0_n_n_0_2_1256_wf : GatherDims.WF S16384x256 S4096x16x1 S4096x16x256 [2] [0] [] [0] [] 2 ![1, 256]
  dot_S4096x256_S256x256_S4096x256_1_0_0_1_n_n_wf : DotDims.WF S4096x256 S256x256 S4096x256 [1] [0] [0] [1] [] []
  dot_S4096x128_S128x256_S4096x256_1_0_0_1_n_n_wf : DotDims.WF S4096x128 S128x256 S4096x256 [1] [0] [0] [1] [] []
  scatter_S4096x16384_S4096x16x2_S4096x16_n_01_01_2_wf : ScatterDims.WF S4096x16384 S4096x16x2 S4096x16 [] [0, 1] [0, 1] 2
  dot_S4096x16384_S16384x4096_S4096x4096_1_0_0_1_n_n_wf : DotDims.WF S4096x16384 S16384x4096 S4096x4096 [1] [0] [0] [1] [] []
  dot_S4096x4096_S4096x256_S4096x256_1_0_0_1_n_n_wf : DotDims.WF S4096x4096 S4096x256 S4096x256 [1] [0] [0] [1] [] []

variable [Facts₀]

def gather_S16384x256_S4096x16x1_S4096x16x256_2_0_n_n_0_2_1256 : GatherDims S16384x256 S4096x16x1 S4096x16x256 where
  offsetDims := [2]
  collapsedSliceDims := [0]
  operandBatchingDims := []
  startIndicesBatchingDims := []
  startIndexMap := [0]
  indexVectorDim := 2
  sliceSizes := ![1, 256]
  wf := gather_S16384x256_S4096x16x1_S4096x16x256_2_0_n_n_0_2_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def scatter_S4096x16384_S4096x16x2_S4096x16_n_01_01_2 : ScatterDims S4096x16384 S4096x16x2 S4096x16 where
  updateWindowDims := []
  insertedWindowDims := [0, 1]
  scatterDimsToOperandDims := [0, 1]
  indexVectorDim := 2
  wf := scatter_S4096x16384_S4096x16x2_S4096x16_n_01_01_2_wf
def dot_S4096x16384_S16384x4096_S4096x4096_1_0_0_1_n_n : DotDims S4096x16384 S16384x4096 S4096x4096 where
  lhsContracting := [1]
  rhsContracting := [0]
  lhsNonContracting := [0]
  rhsNonContracting := [1]
  lhsBatch := []
  rhsBatch := []
  wf := dot_S4096x16384_S16384x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.K.R0Base.lean ====
import proofs.«137111_j70342974374329_2_alg».proof.Proof.Gen.Kernel.Launch
import proofs.«137111_j70342974374329_2_alg».proof.Proof.Gen.Kernel.Skeleton
import proofs.«137111_j70342974374329_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The adjacency region: what its runs share

The region accumulates a 1024 × 1024 tile of `M Mᵀ` in a scratch buffer over the sixteen points of the innermost grid axis:
the first of them (n = 0) zeroes the scratch, every point adds the product of its two blocks of `M`, the last (n = 15)
thresholds the accumulated tile, zeroes its diagonal and stores it into the output block. Here: the blocks the windows hold,
the two branch conditions in closed form over the grid, where the output window is idle, and the memrefs the body is called with.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- "This is the first point of the contraction" (n = 0), as the body computes it from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last point of the contraction" (n = 15). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point of a contraction the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point of a contraction the output window is live. -/
theorem liveAt0_2 : ∀ t : Fin cfg0.N, cond0_1 (grid0.coords t) → cfg0.idle 2 (grid0.coords t) = false := by decide +kernel

/-! ## The memrefs the body is called with -/

abbrev VO0_2 : View sig .tc .vmem S1024x1024 .bf16 := (Memref.whole cc0_stg2_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The scoped buffers the region does not stage, with the accumulator split off and owned as a memref. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Hand

end
-- ==== Proof.K.R0RunA.lean ====
import proofs.«137111_j70342974374329_2_alg».proof.Proof.K.R0Base

/-!
# The adjacency body at the first point of a contraction (n = 0)

The accumulator is zeroed, then holds the product of the point's two blocks added to those zeros; the output buffer is not touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with n = 0: the inputs and the output buffer are handed back as found; the accumulator, found at
    anything, ends with the listed stores written (last first). -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .bf16) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__adj_kernel i arg3 harg3 arg4 harg4 arg5 harg5 arg6 harg6) K } := by
  refine ⟨?_, fun xi2 E K => ?run⟩
  case run =>
    simp only [cc0__adj_kernel_eq_skeleton]; unfold cc0__adj_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R0RunB.lean ====
import proofs.«137111_j70342974374329_2_alg».proof.Proof.K.R0RunA

/-!
# The adjacency body at an inner point of a contraction (0 < n < 15)

The accumulator, found at what the point before left, has the product of the point's two blocks added; the output buffer is not touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with 0 < n < 15. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .bf16) (xs0 : Vec F S1024x1024 .f32) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__adj_kernel i arg3 harg3 arg4 harg4 arg5 harg5 arg6 harg6) K } := by
  refine ⟨?_, fun xi2 E K => ?run⟩
  case run =>
    simp only [cc0__adj_kernel_eq_skeleton]; unfold cc0__adj_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R0RunC.lean ====
import proofs.«137111_j70342974374329_2_alg».proof.Proof.K.R0RunB

/-!
# The adjacency body at the last point of a contraction (n = 15)

The accumulator has the last product added; then the accumulated tile is thresholded, its diagonal entries zeroed, and the
result stored whole into the output buffer.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with n = 15. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__adj_kernel i arg3 harg3 arg4 harg4 arg5 harg5 arg6 harg6) K } := by
  refine ⟨?_, ?_, fun E K => ?run⟩
  case run =>
    simp only [cc0__adj_kernel_eq_skeleton]; unfold cc0__adj_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.K.R0Frame.lean ====
import proofs.«137111_j70342974374329_2_alg».proof.Proof.K.R0RunC

/-!
# The adjacency region: its proof data and body obligation

What the accumulator holds after each point is defined by recursion on the point: at the first point of a contraction the
body's stores over a zeroed buffer, at the others its stores over what the point before left. The output block is stored at
the last point of a contraction from the accumulated tile, and the window is idle elsewhere. The invariant carries the
accumulator at these contents from point to point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The stores of a first point cover the accumulator. -/
theorem scover0_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (x0 x1 : Vec F S1024x1024 .bf16) (y : S1024x1024.Idx) :
    ∃ pc ∈ (kernelRun0_A c i a3 h3 a4 h4 a5 h5 a6 h6 hc0 hc1 x0 x1).1, y ∈ pc.1.set :=
  View.cover_of_tiledL (kernelRun0_A c i a3 h3 a4 h4 a5 h5 a6 h6 hc0 hc1 x0 x1).1 S1024x1024.size (by sl_kernel_rfl) y
/-- What a first point leaves in the accumulator. -/
def sout0_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (x0 x1 : Vec F S1024x1024 .bf16) : Vec F S1024x1024 .f32 :=
  VS0_0.read (Elt F) (VS0_0.writes (Elt F) VS0_0.junk (kernelRun0_A c i a3 h3 a4 h4 a5 h5 a6 h6 hc0 hc1 x0 x1).1)

/-- The stores of an inner point cover the accumulator. -/
theorem scover0_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (x0 x1 : Vec F S1024x1024 .bf16) (xs0 : Vec F S1024x1024 .f32) (y : S1024x1024.Idx) :
    ∃ pc ∈ (kernelRun0_B c i a3 h3 a4 h4 a5 h5 a6 h6 hc0 hc1 x0 x1 xs0).1, y ∈ pc.1.set :=
  View.cover_of_tiledL (kernelRun0_B c i a3 h3 a4 h4 a5 h5 a6 h6 hc0 hc1 x0 x1 xs0).1 S1024x1024.size (by sl_kernel_rfl) y
/-- What an inner point leaves in the accumulator. -/
def sout0_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (x0 x1 : Vec F S1024x1024 .bf16) (xs0 : Vec F S1024x1024 .f32) : Vec F S1024x1024 .f32 :=
  VS0_0.read (Elt F) (VS0_0.writes (Elt F) VS0_0.junk (kernelRun0_B c i a3 h3 a4 h4 a5 h5 a6 h6 hc0 hc1 x0 x1 xs0).1)

/-- The store of a last point covers the output buffer. -/
theorem cover0_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) (y : S1024x1024.Idx) :
    ∃ pc ∈ (kernelRun0_C c i a3 h3 a4 h4 a5 h5 a6 h6 hc0 hc1 x0 x1 xs0).1, y ∈ pc.1.set :=
  View.cover_of_tiledL (kernelRun0_C c i a3 h3 a4 h4 a5 h5 a6 h6 hc0 hc1 x0 x1 xs0).1 S1024x1024.size (by sl_kernel_rfl) y
/-- What a last point leaves in the output buffer. -/
def out0_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) : Vec F S1024x1024 .bf16 :=
  VO0_2.read (Elt F) (VO0_2.writes (Elt F) VO0_2.junk (kernelRun0_C c i a3 h3 a4 h4 a5 h5 a6 h6 hc0 hc1 x0 x1 xs0).1)
/-- The stores of a last point cover the accumulator. -/
theorem scover0_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) (y : S1024x1024.Idx) :
    ∃ pc ∈ (kernelRun0_C c i a3 h3 a4 h4 a5 h5 a6 h6 hc0 hc1 x0 x1 xs0).2.1, y ∈ pc.1.set :=
  View.cover_of_tiledL (kernelRun0_C c i a3 h3 a4 h4 a5 h5 a6 h6 hc0 hc1 x0 x1 xs0).2.1 S1024x1024.size (by sl_kernel_rfl) y
/-- What a last point leaves in the accumulator. -/
def sout0_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) : Vec F S1024x1024 .f32 :=
  VS0_0.read (Elt F) (VS0_0.writes (Elt F) VS0_0.junk (kernelRun0_C c i a3 h3 a4 h4 a5 h5 a6 h6 hc0 hc1 x0 x1 xs0).2.1)

/-- The output buffer's contents where the window is idle: never consulted. -/
def idleOut0 : Vec F S1024x1024 .bf16 := VO0_2.read (Elt F) VO0_2.junk

/-! ## Point by point -/

/-- What the output buffer (first component) and the accumulator (second) hold after point `n`. -/
def outsAt0 (c : Dev nD) : (n : ℕ) → (hn : n < cfg0.N) → Vec F S1024x1024 .bf16 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (show ¬ (0 % 16 = 15) by decide)) (iblk0 V c 0 ⟨0, hn⟩) (iblk0 V c 1 ⟨0, hn⟩))
  | n + 1, hn =>
    if h0 : (n + 1) % 16 = 0 then
      (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => by have := (hcond0_1 ⟨n + 1, hn⟩).mp h; simp only at this; omega) (iblk0 V c 0 ⟨n + 1, hn⟩) (iblk0 V c 1 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a first point of a contraction. -/
theorem outsAt0_A (c : Dev nD) (t : Fin cfg0.N) (h0 : t.val % 16 = 0) (h1 : ¬t.val % 16 = 15) :
    outsAt0 V c t.val t.isLt = (idleOut0, sout0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

/-- `outsAt0` at an inner point: over what the point before left. -/
theorem outsAt0_B (c : Dev nD) (t : Fin cfg0.N) (h0 : ¬t.val % 16 = 0) (h1 : ¬t.val % 16 = 15) :
    outsAt0 V c t.val t.isLt = (idleOut0, sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last point: over what the point before left. -/
theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The scoped buffers the region does not stage, apart from the accumulator. -/
abbrev rest0 (c : Dev nD) : sProp 𝕄 :=
  Pipeline.scopedRestBut (Ix := Unit) (Name := ℕ) (U := UR sig nD τ) (Lvl := ℕ) (Val := Elt F) spec0 c [cc0_scratch0]

/-- The invariant before position `n`: before the first point every scoped buffer the region does not stage at anything;
    afterwards the accumulator at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The two input windows read ONE array, so each holds half of it; the output window holds its array whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem q0_0 (c : Dev nD) : (dat0 V c).q 0 = fullShare.left := by dsimp only [dat0]
theorem q0_1 (c : Dev nD) : (dat0 V c).q 1 = fullShare.right := by dsimp only [dat0]
theorem owed0 (c : Dev nD) (t) : (dat0 V c).owed t = 0 := rfl
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms say which case the point is in; the invariant hands the body the accumulator at
    what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C sout0_C; (try dsimp only)
    rw [PhiS_castSucc V c t, PhiS_pos V c _ _ hz]
    iintro ⟨⟨⟨HS0, Hrest⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_C c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [outsAt0_A V c t h0 h1]
      unfold sout0_A; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexists _; iexact H2
    · have hz : t.val ≠ 0 := by omega
      rw [outsAt0_B V c t h0 h1]
      unfold sout0_B; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Cert.Kernel.Hand

end
-- ==== Proof.LibWholeStore.lean ====
/-
  Whole-buffer stores read back. A kernel body that writes a staging or scratch buffer through the rectangle
  spanning the whole buffer (zero offsets, the buffer's own sizes) leaves that write's payload in it, whatever was
  written before; a load through the same rectangle right after reads the payload. Both facts are stated over an
  ABSTRACT shape, so that applying them to a buffer of production extents (1024 × 256, say) never makes the
  rectangle's index set be computed: the covering argument is made here once, symbolically.
-/
import Idealize.ShloMosaic.Lib.Pipeline.FrameBody
import Idealize.ShloMosaic.Lib.Pipeline.Value

noncomputable section

namespace Cert

open Idealize.ShloMosaic

/-- The offsets `![0, 0]` of a rectangle that spans a whole rank-2 buffer are the zero function. -/
theorem hz2 : (![0, 0] : Fin 2 → Nat) = fun _ => 0 := by
  funext a; fin_cases a <;> rfl

/-- A buffer read back after a list of writes whose LAST write covers it whole (the unit rectangle at zero offsets
    of the buffer's own sizes) holds that write's payload, whatever came before. -/
theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩), View.canon_cons_unit_zero h]

/-- A load through the last write's own whole-buffer rectangle reads that write's payload. -/
theorem readCov_cons_whole {sig' : RefSig} {κ : Kind} {sp : Space} {S : Shape} {e : EltTy} {Val : EltTy → Type} [∀ e, Nonempty (Val e)]
    (v : View sig' κ sp S e) {off : Fin S.rank → Nat} (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  View.readCov_cons_toLoadRect v (Rect.unit off S.size inb) w L

end Cert

end
-- ==== Proof.K.Region1.lean ====
import proofs.«137111_j70342974374329_2_alg».proof.Proof.Gen.Kernel.Launch
import proofs.«137111_j70342974374329_2_alg».proof.Proof.Gen.Kernel.Skeleton
import proofs.«137111_j70342974374329_2_alg».proof.Proof.Gen.Kernel.Points
import proofs.«137111_j70342974374329_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the body of `cc1__proj_kernel` at a grid point

The kernel reads six staged blocks — a 512-row block of the pooled features and of the input features, and the
two weight matrices and two bias vectors whole — and stores one 512 × 256 block: the pooled rows times the first
weights plus the first bias, plus the feature rows times the second weights, plus the second bias.
Nothing is carried from point to point: what the body leaves in the output buffer is one function of the six
input blocks, and each input buffer is left as found. Stated for any float instance.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there
    (a block whose index did not move is still in the buffer). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it was fetched there
    (a block whose index did not move is still in the buffer). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it was fetched there
    (a block whose index did not move is still in the buffer). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not it was fetched there
    (a block whose index did not move is still in the buffer). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not it was fetched there
    (a block whose index did not move is still in the buffer). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not it was fetched there
    (a block whose index did not move is still in the buffer). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x256 := Rect.unit (s := S512x256) ![0, 0] S512x256.size inb_S512x256_S512x256_0_0
abbrev r1_1 : Rect S512x128 := Rect.unit (s := S512x128) ![0, 0] S512x128.size inb_S512x128_S512x128_0_0
abbrev r1_2 : Rect S256x256 := Rect.unit (s := S256x256) ![0, 0] S256x256.size inb_S256x256_S256x256_0_0
abbrev r1_3 : Rect S256 := Rect.unit (s := S256) ![0] S256.size inb_S256_S256_0
abbrev r1_4 : Rect S128x256 := Rect.unit (s := S128x256) ![0, 0] S128x256.size inb_S128x256_S128x256_0_0
abbrev r1_5 : Rect S256 := Rect.unit (s := S256) ![0] S256.size inb_S256_S256_0
abbrev r1_6 : Rect S512x256 := Rect.unit (s := S512x256) ![0, 0] S512x256.size inb_S512x256_S512x256_0_0

/-! ## What the body leaves in the output window's buffer -/

/-- Window 6's staging buffer after the body, from the six input blocks: its one store, through the whole buffer,
    of the kernel's arithmetic on what the loads read. -/
def out1_6 (x0 : Vec F S512x256 .f32) (x1 : Vec F S512x128 .f32) (x2 : Vec F S256x256 .f32) (x3 : Vec F S256 .f32) (x4 : Vec F S128x256 .f32) (x5 : Vec F S256 .f32) : Vec F S512x256 .bf16 :=
  View.canon [⟨r1_6, k1_pay1 (View.ld x0 r1_0) (View.ld x1 r1_1) (View.ld x2 r1_2) (View.ld x4 r1_4) (View.ld x3 r1_3) (View.ld x5 r1_5)⟩]

/-! ## The body's triple -/

set_option maxHeartbeats 1000000 in
/-- The kernel body on whole staging memrefs, the inputs' at read contents `x0 … x5` and the output's at anything, runs
    to the continuation holding the inputs' as they were and the output's at `out1_6` of the inputs'. The output
    buffer is loaded before it is stored; the loaded value is unused, and the store through the whole buffer leaves
    its payload whatever was there. -/
theorem sound_kernel1 (c : Dev nD) (E : Set ℕ) (i : grid1.Coords) (arg1 : Memref sig .tc .vmem S512x256 .f32) (harg1 : arg1.IsWhole) (arg2 : Memref sig .tc .vmem S512x128 .f32) (harg2 : arg2.IsWhole) (arg3 : Memref sig .tc .vmem S256x256 .f32) (harg3 : arg3.IsWhole) (arg4 : Memref sig .tc .vmem S256 .f32) (harg4 : arg4.IsWhole) (arg5 : Memref sig .tc .vmem S128x256 .f32) (harg5 : arg5.IsWhole) (arg6 : Memref sig .tc .vmem S256 .f32) (harg6 : arg6.IsWhole) (arg7 : Memref sig .tc .vmem S512x256 .bf16) (harg7 : arg7.IsWhole)
    (x0 : Vec F S512x256 .f32) (x1 : Vec F S512x128 .f32) (x2 : Vec F S256x256 .f32) (x3 : Vec F S256 .f32) (x4 : Vec F S128x256 .f32) (x5 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__proj_kernel i arg1 harg1 arg2 harg2 arg3 harg3 arg4 harg4 arg5 harg5 arg6 harg6 arg7 harg7) K := by
  simp only [cc1__proj_kernel_eq_skeleton]; unfold cc1__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold out1_6
  rw [View.canon_unit_zero (S := S512x256) hz2]
  exact read_writes_whole (S := S512x256) _ _ hz2 _ _ []

/-! ## The pipeline's proof data -/

/-- The proof data of pipeline 1 on core `c`: the arrays as the region finds them; after the body at point `t`
    each input's buffer at its block and the output's at `out1_6` of the input blocks; the invariant holds the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The shares: every array whole. -/
theorem q1 (c : Dev nD) (w : Fin cfg1.W) : (dat1 V c).q w = fullShare := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' memrefs hold their blocks, so the kernel's triple applies; the invariant and
    the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
import proofs.«137111_j70342974374329_2_alg».proof.Proof.Gen.Kernel.Launch
import proofs.«137111_j70342974374329_2_alg».proof.Proof.Gen.Kernel.Skeleton
import proofs.«137111_j70342974374329_2_alg».proof.Proof.Gen.Kernel.Points
import proofs.«137111_j70342974374329_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the body of `cc2__mp_kernel` at a grid point

The kernel reads six staged blocks — a 512-row block of the adjacency, the same 512 rows of the node features,
the node features whole, and two weight matrices and a bias vector whole — and stores one 512 × 256 block: the
block's rows times the self weights, plus (adjacency rows times all the features) times the neighbour weights, plus
the bias, clamped below at zero. The rows block and the whole feature array are two windows on ONE array, so the
array is held at two half shares.
Nothing is carried from point to point: what the body leaves in the output buffer is one function of the six
input blocks, and each input buffer is left as found. Stated for any float instance.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there
    (a block whose index did not move is still in the buffer). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it was fetched there
    (a block whose index did not move is still in the buffer). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it was fetched there
    (a block whose index did not move is still in the buffer). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it was fetched there
    (a block whose index did not move is still in the buffer). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether or not it was fetched there
    (a block whose index did not move is still in the buffer). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether or not it was fetched there
    (a block whose index did not move is still in the buffer). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x4096 := Rect.unit (s := S512x4096) ![0, 0] S512x4096.size inb_S512x4096_S512x4096_0_0
abbrev r2_1 : Rect S512x256 := Rect.unit (s := S512x256) ![0, 0] S512x256.size inb_S512x256_S512x256_0_0
abbrev r2_2 : Rect S4096x256 := Rect.unit (s := S4096x256) ![0, 0] S4096x256.size inb_S4096x256_S4096x256_0_0
abbrev r2_3 : Rect S256x256 := Rect.unit (s := S256x256) ![0, 0] S256x256.size inb_S256x256_S256x256_0_0
abbrev r2_4 : Rect S256x256 := Rect.unit (s := S256x256) ![0, 0] S256x256.size inb_S256x256_S256x256_0_0
abbrev r2_5 : Rect S256 := Rect.unit (s := S256) ![0] S256.size inb_S256_S256_0
abbrev r2_6 : Rect S512x256 := Rect.unit (s := S512x256) ![0, 0] S512x256.size inb_S512x256_S512x256_0_0

/-! ## What the body leaves in the output window's buffer -/

/-- Window 6's staging buffer after the body, from the six input blocks: its one store, through the whole buffer,
    of the kernel's arithmetic on what the loads read. -/
def out2_6 (x0 : Vec F S512x4096 .bf16) (x1 : Vec F S512x256 .bf16) (x2 : Vec F S4096x256 .bf16) (x3 : Vec F S256x256 .f32) (x4 : Vec F S256x256 .f32) (x5 : Vec F S256 .f32) : Vec F S512x256 .bf16 :=
  View.canon [⟨r2_6, k2_pay1 (View.ld x0 r2_0) (View.ld x2 r2_2) (View.ld x1 r2_1) (View.ld x3 r2_3) (View.ld x4 r2_4) (View.ld x5 r2_5)⟩]

/-! ## The body's triple -/

set_option maxHeartbeats 1000000 in
/-- The kernel body on whole staging memrefs, the inputs' at read contents `x0 … x5` and the output's at anything, runs
    to the continuation holding the inputs' as they were and the output's at `out2_6` of the inputs'. The output
    buffer is loaded before it is stored; the loaded value is unused, and the store through the whole buffer leaves
    its payload whatever was there. -/
theorem sound_kernel2 (c : Dev nD) (E : Set ℕ) (i : grid2.Coords) (arg1 : Memref sig .tc .vmem S512x4096 .bf16) (harg1 : arg1.IsWhole) (arg2 : Memref sig .tc .vmem S512x256 .bf16) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S512x256 .bf16) (harg7 : arg7.IsWhole)
    (x0 : Vec F S512x4096 .bf16) (x1 : Vec F S512x256 .bf16) (x2 : Vec F S4096x256 .bf16) (x3 : Vec F S256x256 .f32) (x4 : Vec F S256x256 .f32) (x5 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__mp_kernel i arg1 harg1 arg2 harg2 arg3 harg3 arg4 harg4 arg5 harg5 arg6 harg6 arg7 harg7) K := by
  simp only [cc2__mp_kernel_eq_skeleton]; unfold cc2__mp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold out2_6
  rw [View.canon_unit_zero (S := S512x256) hz2]
  exact read_writes_whole (S := S512x256) _ _ hz2 _ _ []

/-! ## The pipeline's proof data -/

/-- The proof data of pipeline 2 on core `c`: the arrays as the region finds them; after the body at point `t`
    each input's buffer at its block and the output's at `out2_6` of the input blocks; the invariant holds the
    scoped rest and the generator register, untouched; nothing owed; the array staged by two windows split in halves. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

/-- The proof data's arrays are the region-entry contents. -/
theorem A_eq2 (c : Dev nD) (w : Fin cfg2.W) : (dat2 V c).A w = V c (Pipeline.arrRef spec2 w) := by
  dsimp only [dat2]

/-- The shares: the array that windows 1 and 2 both stage is held at its two halves, every other array whole. -/
theorem q2_0 (c : Dev nD) : (dat2 V c).q 0 = fullShare := by dsimp only [dat2]
theorem q2_1 (c : Dev nD) : (dat2 V c).q 1 = fullShare.left := by dsimp only [dat2]
theorem q2_2 (c : Dev nD) : (dat2 V c).q 2 = fullShare.right := by dsimp only [dat2]
theorem q2_3 (c : Dev nD) : (dat2 V c).q 3 = fullShare := by dsimp only [dat2]
theorem q2_4 (c : Dev nD) : (dat2 V c).q 4 = fullShare := by dsimp only [dat2]
theorem q2_5 (c : Dev nD) : (dat2 V c).q 5 = fullShare := by dsimp only [dat2]
theorem q2_6 (c : Dev nD) : (dat2 V c).q 6 = fullShare := by dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' memrefs hold their blocks, so the kernel's triple applies; the invariant and
    the core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
import proofs.«137111_j70342974374329_2_alg».proof.Proof.Gen.Kernel.Launch
import proofs.«137111_j70342974374329_2_alg».proof.Proof.Gen.Kernel.Skeleton
import proofs.«137111_j70342974374329_2_alg».proof.Proof.Gen.Kernel.Points
import proofs.«137111_j70342974374329_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the body of `cc3__mp_kernel` at a grid point

The kernel reads six staged blocks — a 512-row block of the adjacency, the same 512 rows of the node features,
the node features whole, and two weight matrices and a bias vector whole — and stores one 512 × 256 block: the
block's rows times the self weights, plus (adjacency rows times all the features) times the neighbour weights, plus
the bias, clamped below at zero. The rows block and the whole feature array are two windows on ONE array, so the
array is held at two half shares.
Nothing is carried from point to point: what the body leaves in the output buffer is one function of the six
input blocks, and each input buffer is left as found. Stated for any float instance.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it was fetched there
    (a block whose index did not move is still in the buffer). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not it was fetched there
    (a block whose index did not move is still in the buffer). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not it was fetched there
    (a block whose index did not move is still in the buffer). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not it was fetched there
    (a block whose index did not move is still in the buffer). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether or not it was fetched there
    (a block whose index did not move is still in the buffer). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether or not it was fetched there
    (a block whose index did not move is still in the buffer). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x4096 := Rect.unit (s := S512x4096) ![0, 0] S512x4096.size inb_S512x4096_S512x4096_0_0
abbrev r3_1 : Rect S512x256 := Rect.unit (s := S512x256) ![0, 0] S512x256.size inb_S512x256_S512x256_0_0
abbrev r3_2 : Rect S4096x256 := Rect.unit (s := S4096x256) ![0, 0] S4096x256.size inb_S4096x256_S4096x256_0_0
abbrev r3_3 : Rect S256x256 := Rect.unit (s := S256x256) ![0, 0] S256x256.size inb_S256x256_S256x256_0_0
abbrev r3_4 : Rect S256x256 := Rect.unit (s := S256x256) ![0, 0] S256x256.size inb_S256x256_S256x256_0_0
abbrev r3_5 : Rect S256 := Rect.unit (s := S256) ![0] S256.size inb_S256_S256_0
abbrev r3_6 : Rect S512x256 := Rect.unit (s := S512x256) ![0, 0] S512x256.size inb_S512x256_S512x256_0_0

/-! ## What the body leaves in the output window's buffer -/

/-- Window 6's staging buffer after the body, from the six input blocks: its one store, through the whole buffer,
    of the kernel's arithmetic on what the loads read. -/
def out3_6 (x0 : Vec F S512x4096 .bf16) (x1 : Vec F S512x256 .bf16) (x2 : Vec F S4096x256 .bf16) (x3 : Vec F S256x256 .f32) (x4 : Vec F S256x256 .f32) (x5 : Vec F S256 .f32) : Vec F S512x256 .f32 :=
  View.canon [⟨r3_6, k3_pay1 (View.ld x0 r3_0) (View.ld x2 r3_2) (View.ld x1 r3_1) (View.ld x3 r3_3) (View.ld x4 r3_4) (View.ld x5 r3_5)⟩]

/-! ## The body's triple -/

set_option maxHeartbeats 1000000 in
/-- The kernel body on whole staging memrefs, the inputs' at read contents `x0 … x5` and the output's at anything, runs
    to the continuation holding the inputs' as they were and the output's at `out3_6` of the inputs'. The output
    buffer is loaded before it is stored; the loaded value is unused, and the store through the whole buffer leaves
    its payload whatever was there. -/
theorem sound_kernel3 (c : Dev nD) (E : Set ℕ) (i : grid3.Coords) (arg1 : Memref sig .tc .vmem S512x4096 .bf16) (harg1 : arg1.IsWhole) (arg2 : Memref sig .tc .vmem S512x256 .bf16) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S512x256 .f32) (harg7 : arg7.IsWhole)
    (x0 : Vec F S512x4096 .bf16) (x1 : Vec F S512x256 .bf16) (x2 : Vec F S4096x256 .bf16) (x3 : Vec F S256x256 .f32) (x4 : Vec F S256x256 .f32) (x5 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__mp_kernel i arg1 harg1 arg2 harg2 arg3 harg3 arg4 harg4 arg5 harg5 arg6 harg6 arg7 harg7) K := by
  simp only [cc3__mp_kernel_eq_skeleton]; unfold cc3__mp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold out3_6
  rw [View.canon_unit_zero (S := S512x256) hz2]
  exact read_writes_whole (S := S512x256) _ _ hz2 _ _ []

/-! ## The pipeline's proof data -/

/-- The proof data of pipeline 3 on core `c`: the arrays as the region finds them; after the body at point `t`
    each input's buffer at its block and the output's at `out3_6` of the input blocks; the invariant holds the
    scoped rest and the generator register, untouched; nothing owed; the array staged by two windows split in halves. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

/-- The proof data's arrays are the region-entry contents. -/
theorem A_eq3 (c : Dev nD) (w : Fin cfg3.W) : (dat3 V c).A w = V c (Pipeline.arrRef spec3 w) := by
  dsimp only [dat3]

/-- The shares: the array that windows 1 and 2 both stage is held at its two halves, every other array whole. -/
theorem q3_0 (c : Dev nD) : (dat3 V c).q 0 = fullShare := by dsimp only [dat3]
theorem q3_1 (c : Dev nD) : (dat3 V c).q 1 = fullShare.left := by dsimp only [dat3]
theorem q3_2 (c : Dev nD) : (dat3 V c).q 2 = fullShare.right := by dsimp only [dat3]
theorem q3_3 (c : Dev nD) : (dat3 V c).q 3 = fullShare := by dsimp only [dat3]
theorem q3_4 (c : Dev nD) : (dat3 V c).q 4 = fullShare := by dsimp only [dat3]
theorem q3_5 (c : Dev nD) : (dat3 V c).q 5 = fullShare := by dsimp only [dat3]
theorem q3_6 (c : Dev nD) : (dat3 V c).q 6 = fullShare := by dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' memrefs hold their blocks, so the kernel's triple applies; the invariant and
    the core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Fold.lean ====
import proofs.«137111_j70342974374329_2_alg».proof.Proof.Gen.Kernel.Regions
import proofs.«137111_j70342974374329_2_alg».proof.Proof.K.R0Frame
import proofs.«137111_j70342974374329_2_alg».proof.Proof.K.Region1
import proofs.«137111_j70342974374329_2_alg».proof.Proof.K.Region2
import proofs.«137111_j70342974374329_2_alg».proof.Proof.K.Region3

/-!
# The contents of every buffer at each boundary between two items of @main

A fold from the launch memory: a stretch of host operations applies them; a region changes its output's array alone, to
what its write-backs leave. Every region's proof data is stated at the contents its region is entered with.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

/-! ## The contents at each boundary -/

/-- After the first stretch of host operations: what region 0 finds. -/
abbrev W1 (c : Dev nD) : Valuation τ sig (Elt F) := Gen.V1 m c
abbrev B1 (c : Dev nD) (b : Ref sig .tc) : Buf (Elt F) ((c : Thread nD τ).loc b) := W1 m c b
/-- What region 0 leaves in its output's array (the adjacency). -/
def o0 (c : Dev nD) : Buf (Elt F) ((c : Thread nD τ).loc main_v29) := (dat0 (B1 m) c).arrAt 2 cfg0.N
/-- After region 0: what region 1 finds. -/
abbrev W2 (c : Dev nD) : Valuation τ sig (Elt F) := Function.update (W1 m c) (Proc.devRef .tc main_v29) (o0 m c)
abbrev B2 (c : Dev nD) (b : Ref sig .tc) : Buf (Elt F) ((c : Thread nD τ).loc b) := W2 m c b
/-- What region 1 leaves in its output's array (the projected features). -/
def o1 (c : Dev nD) : Buf (Elt F) ((c : Thread nD τ).loc main_v30) := (dat1 (B2 m) c).arrAt 6 cfg1.N
abbrev W3 (c : Dev nD) : Valuation τ sig (Elt F) := Function.update (W2 m c) (Proc.devRef .tc main_v30) (o1 m c)
/-- After the layer-0 slices: what region 2 finds. -/
abbrev W4 (c : Dev nD) : Valuation τ sig (Elt F) := StableHlo.after hostOps2 (W3 m c)
abbrev B4 (c : Dev nD) (b : Ref sig .tc) : Buf (Elt F) ((c : Thread nD τ).loc b) := W4 m c b
/-- What region 2 leaves in its output's array (the first layer's features). -/
def o2 (c : Dev nD) : Buf (Elt F) ((c : Thread nD τ).loc main_v37) := (dat2 (B4 m) c).arrAt 6 cfg2.N
abbrev W5 (c : Dev nD) : Valuation τ sig (Elt F) := Function.update (W4 m c) (Proc.devRef .tc main_v37) (o2 m c)
/-- After the layer-1 slices: what region 3 finds. -/
abbrev W6 (c : Dev nD) : Valuation τ sig (Elt F) := StableHlo.after hostOps3 (W5 m c)
abbrev B6 (c : Dev nD) (b : Ref sig .tc) : Buf (Elt F) ((c : Thread nD τ).loc b) := W6 m c b
/-- What region 3 leaves in its output's array: the program's result. -/
def o3 (c : Dev nD) : Buf (Elt F) ((c : Thread nD τ).loc main_v44) := (dat3 (B6 m) c).arrAt 6 cfg3.N
abbrev W7 (c : Dev nD) : Valuation τ sig (Elt F) := Function.update (W6 m c) (Proc.devRef .tc main_v44) (o3 m c)

/-- What the regions leave, as one family indexed by the boundary and the buffer. -/
def outs : Gen.Outs (F := F) := fun _ r c =>
  if h : r = main_v29 then h ▸ o0 m c else if h : r = main_v30 then h ▸ o1 m c
  else if h : r = main_v37 then h ▸ o2 m c else if h : r = main_v44 then h ▸ o3 m c else m ((c : Thread nD τ).loc r)

theorem outs_v29 (J : ℕ) (c : Dev nD) : outs m J main_v29 c = o0 m c := by unfold outs; rw [dif_pos rfl]
theorem outs_v30 (J : ℕ) (c : Dev nD) : outs m J main_v30 c = o1 m c := by unfold outs; rw [dif_neg (by decide), dif_pos rfl]
theorem outs_v37 (J : ℕ) (c : Dev nD) : outs m J main_v37 c = o2 m c := by unfold outs; rw [dif_neg (by decide), dif_neg (by decide), dif_pos rfl]
theorem outs_v44 (J : ℕ) (c : Dev nD) : outs m J main_v44 c = o3 m c := by unfold outs; rw [dif_neg (by decide), dif_neg (by decide), dif_neg (by decide), dif_pos rfl]

theorem V2_eq (c : Dev nD) : Gen.V2 m (outs m) c = W2 m c := by
  show Function.update (Gen.V1 m c) _ (outs m 2 main_v29 c) = _; rw [outs_v29]
theorem V3_eq (c : Dev nD) : Gen.V3 m (outs m) c = W3 m c := by
  show Function.update (Gen.V2 m (outs m) c) _ (outs m 3 main_v30 c) = _; rw [outs_v30, V2_eq]
theorem V4_eq (c : Dev nD) : Gen.V4 m (outs m) c = W4 m c := by
  show StableHlo.after hostOps2 (Gen.V3 m (outs m) c) = _; rw [V3_eq]
theorem V5_eq (c : Dev nD) : Gen.V5 m (outs m) c = W5 m c := by
  show Function.update (Gen.V4 m (outs m) c) _ (outs m 5 main_v37 c) = _; rw [outs_v37, V4_eq]
theorem V6_eq (c : Dev nD) : Gen.V6 m (outs m) c = W6 m c := by
  show StableHlo.after hostOps3 (Gen.V5 m (outs m) c) = _; rw [V5_eq]
theorem V7_eq (c : Dev nD) : Gen.V7 m (outs m) c = W7 m c := by
  show Function.update (Gen.V6 m (outs m) c) _ (outs m 7 main_v44 c) = _; rw [outs_v44, V6_eq]

/-! ## The proof data family and the thread state -/

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (B1 m) c
  | ⟨1, _⟩ => fun c => dat1 (B2 m) c
  | ⟨2, _⟩ => fun c => dat2 (B4 m) c
  | ⟨3, _⟩ => fun c => dat3 (B6 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- The contents region 0 leaves agree with the contents it found away from its output's array. -/
theorem W2_of_ne (c : Dev nD) (b : Ref sig .tc) (hb : b ≠ main_v29) : W2 m c b = W1 m c b :=
  Function.update_of_ne (StableHlo.devRef_ne_of_ne hb) _ _
theorem W2_out (c : Dev nD) : W2 m c main_v29 = o0 m c := Function.update_self _ _ _

/-- At region 0's exit every window's array holds what the boundary's contents say. -/
theorem hF0 (c : Dev nD) (w : Fin cfg0.W) : (dat0 (B1 m) c).arrAt w cfg0.N = W2 m c (Pipeline.arrRef spec0 w) := by
  match w with
    | ⟨0, _⟩ => exact ((dat0 (B1 m) c).arrAt_in 0 rfl _).trans ((A_eq0 (B1 m) c 0).trans (Function.update_of_ne (StableHlo.devRef_ne_of_ne (by decide)) _ _).symm)
    | ⟨1, _⟩ => exact ((dat0 (B1 m) c).arrAt_in 1 rfl _).trans ((A_eq0 (B1 m) c 1).trans (Function.update_of_ne (StableHlo.devRef_ne_of_ne (by decide)) _ _).symm)
    | ⟨2, _⟩ => exact (W2_out m c).symm

/-- The contents region 1 leaves agree with the contents it found away from its output's array. -/
theorem W3_of_ne (c : Dev nD) (b : Ref sig .tc) (hb : b ≠ main_v30) : W3 m c b = W2 m c b :=
  Function.update_of_ne (StableHlo.devRef_ne_of_ne hb) _ _
theorem W3_out (c : Dev nD) : W3 m c main_v30 = o1 m c := Function.update_self _ _ _

/-- At region 1's exit every window's array holds what the boundary's contents say. -/
theorem hF1 (c : Dev nD) (w : Fin cfg1.W) : (dat1 (B2 m) c).arrAt w cfg1.N = W3 m c (Pipeline.arrRef spec1 w) := by
  match w with
    | ⟨0, _⟩ => exact ((dat1 (B2 m) c).arrAt_in 0 rfl _).trans ((A_eq1 (B2 m) c 0).trans (Function.update_of_ne (StableHlo.devRef_ne_of_ne (by decide)) _ _).symm)
    | ⟨1, _⟩ => exact ((dat1 (B2 m) c).arrAt_in 1 rfl _).trans ((A_eq1 (B2 m) c 1).trans (Function.update_of_ne (StableHlo.devRef_ne_of_ne (by decide)) _ _).symm)
    | ⟨2, _⟩ => exact ((dat1 (B2 m) c).arrAt_in 2 rfl _).trans ((A_eq1 (B2 m) c 2).trans (Function.update_of_ne (StableHlo.devRef_ne_of_ne (by decide)) _ _).symm)
    | ⟨3, _⟩ => exact ((dat1 (B2 m) c).arrAt_in 3 rfl _).trans ((A_eq1 (B2 m) c 3).trans (Function.update_of_ne (StableHlo.devRef_ne_of_ne (by decide)) _ _).symm)
    | ⟨4, _⟩ => exact ((dat1 (B2 m) c).arrAt_in 4 rfl _).trans ((A_eq1 (B2 m) c 4).trans (Function.update_of_ne (StableHlo.devRef_ne_of_ne (by decide)) _ _).symm)
    | ⟨5, _⟩ => exact ((dat1 (B2 m) c).arrAt_in 5 rfl _).trans ((A_eq1 (B2 m) c 5).trans (Function.update_of_ne (StableHlo.devRef_ne_of_ne (by decide)) _ _).symm)
    | ⟨6, _⟩ => exact (W3_out m c).symm

/-- The contents region 2 leaves agree with the contents it found away from its output's array. -/
theorem W5_of_ne (c : Dev nD) (b : Ref sig .tc) (hb : b ≠ main_v37) : W5 m c b = W4 m c b :=
  Function.update_of_ne (StableHlo.devRef_ne_of_ne hb) _ _
theorem W5_out (c : Dev nD) : W5 m c main_v37 = o2 m c := Function.update_self _ _ _

set_option maxHeartbeats 3200000 in
/-- At region 2's exit every window's array holds what the boundary's contents say. -/
theorem hF2 (c : Dev nD) (w : Fin cfg2.W) : (dat2 (B4 m) c).arrAt w cfg2.N = W5 m c (Pipeline.arrRef spec2 w) := by
  match w with
    | ⟨0, _⟩ => exact ((dat2 (B4 m) c).arrAt_in 0 rfl _).trans ((A_eq2 (B4 m) c 0).trans (Function.update_of_ne (StableHlo.devRef_ne_of_ne (by decide)) _ _).symm)
    | ⟨1, _⟩ => exact ((dat2 (B4 m) c).arrAt_in 1 rfl _).trans ((A_eq2 (B4 m) c 1).trans (Function.update_of_ne (StableHlo.devRef_ne_of_ne (by decide)) _ _).symm)
    | ⟨2, _⟩ => exact ((dat2 (B4 m) c).arrAt_in 2 rfl _).trans ((A_eq2 (B4 m) c 2).trans (Function.update_of_ne (StableHlo.devRef_ne_of_ne (by decide)) _ _).symm)
    | ⟨3, _⟩ => exact ((dat2 (B4 m) c).arrAt_in 3 rfl _).trans ((A_eq2 (B4 m) c 3).trans (Function.update_of_ne (StableHlo.devRef_ne_of_ne (by decide)) _ _).symm)
    | ⟨4, _⟩ => exact ((dat2 (B4 m) c).arrAt_in 4 rfl _).trans ((A_eq2 (B4 m) c 4).trans (Function.update_of_ne (StableHlo.devRef_ne_of_ne (by decide)) _ _).symm)
    | ⟨5, _⟩ => exact ((dat2 (B4 m) c).arrAt_in 5 rfl _).trans ((A_eq2 (B4 m) c 5).trans (Function.update_of_ne (StableHlo.devRef_ne_of_ne (by decide)) _ _).symm)
    | ⟨6, _⟩ => exact (W5_out m c).symm

/-- The contents region 3 leaves agree with the contents it found away from its output's array. -/
theorem W7_of_ne (c : Dev nD) (b : Ref sig .tc) (hb : b ≠ main_v44) : W7 m c b = W6 m c b :=
  Function.update_of_ne (StableHlo.devRef_ne_of_ne hb) _ _
theorem W7_out (c : Dev nD) : W7 m c main_v44 = o3 m c := Function.update_self _ _ _

set_option maxHeartbeats 3200000 in
/-- At region 3's exit every window's array holds what the boundary's contents say. -/
theorem hF3 (c : Dev nD) (w : Fin cfg3.W) : (dat3 (B6 m) c).arrAt w cfg3.N = W7 m c (Pipeline.arrRef spec3 w) := by
  match w with
    | ⟨0, _⟩ => exact ((dat3 (B6 m) c).arrAt_in 0 rfl _).trans ((A_eq3 (B6 m) c 0).trans (Function.update_of_ne (StableHlo.devRef_ne_of_ne (by decide)) _ _).symm)
    | ⟨1, _⟩ => exact ((dat3 (B6 m) c).arrAt_in 1 rfl _).trans ((A_eq3 (B6 m) c 1).trans (Function.update_of_ne (StableHlo.devRef_ne_of_ne (by decide)) _ _).symm)
    | ⟨2, _⟩ => exact ((dat3 (B6 m) c).arrAt_in 2 rfl _).trans ((A_eq3 (B6 m) c 2).trans (Function.update_of_ne (StableHlo.devRef_ne_of_ne (by decide)) _ _).symm)
    | ⟨3, _⟩ => exact ((dat3 (B6 m) c).arrAt_in 3 rfl _).trans ((A_eq3 (B6 m) c 3).trans (Function.update_of_ne (StableHlo.devRef_ne_of_ne (by decide)) _ _).symm)
    | ⟨4, _⟩ => exact ((dat3 (B6 m) c).arrAt_in 4 rfl _).trans ((A_eq3 (B6 m) c 4).trans (Function.update_of_ne (StableHlo.devRef_ne_of_ne (by decide)) _ _).symm)
    | ⟨5, _⟩ => exact ((dat3 (B6 m) c).arrAt_in 5 rfl _).trans ((A_eq3 (B6 m) c 5).trans (Function.update_of_ne (StableHlo.devRef_ne_of_ne (by decide)) _ _).symm)
    | ⟨6, _⟩ => exact (W7_out m c).symm

end Cert.Kernel.Hand

end
-- ==== Proof.K.Arrays0.lean ====
import proofs.«137111_j70342974374329_2_alg».proof.Proof.K.R0Frame

/-!
# The adjacency region's arrays: one buffer behind two windows

The membership matrix is read through two windows, so the buffer behind it, held whole, is dealt to them half and half;
the output's buffer goes to its window whole. At the exit the halves are joined again.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem img0 : Finset.univ.image (Pipeline.arrRef spec0) = {main_v28, main_v29} := by decide

theorem share0_0 (c : Dev nD) : (dat0 V c).share 0 = fullShare.left := by
  unfold Dat.share; exact (if_neg (by decide)).trans (q0_0 V c)
theorem share0_1 (c : Dev nD) : (dat0 V c).share 1 = fullShare.right := by
  unfold Dat.share; exact (if_neg (by decide)).trans (q0_1 V c)
theorem share0_2 (c : Dev nD) : (dat0 V c).share 2 = fullShare := by
  unfold Dat.share; exact if_pos (by decide)

/-- ENTRY: the two buffers, whole, make the three windows' arrays. -/
theorem arrays0_of_bufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  unfold Pipeline.arrBufs Dat.arrays
  rw [img0, bigSep_insert (by decide), bigSep_singleton, bigSep_W0]
  rw [(arr_whole0 0).set_eq_univ, (arr_whole0 2).set_eq_univ, share0_0, share0_1, share0_2, hG 0, hG 1, hG 2]
  show iprop(((c : Thread nD τ).loc main_v28 ↦{fullShare} W main_v28) ∗ ((c : Thread nD τ).loc main_v29 ↦{fullShare} W main_v29)) ⊢ _
  iintro ⟨H28, H29⟩
  ihave H := (pointsTo_share (PosShare.mem_left_op_right fullShare)).1 $$ H28
  icases H with ⟨Hl, Hr⟩
  isplitl [Hl]; · iexact Hl
  isplitl [Hr]; · iexact Hr
  iexact H29

/-- EXIT: the three windows' arrays make the two buffers, whole. -/
theorem bufs0_of_arrays (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (dat0 V c).arrays G ⊢ (Pipeline.arrBufs (Ix := Unit) (Name := ℕ) (U := UR sig nD τ) (Lvl := ℕ) spec0 c W : sProp 𝕄) := by
  unfold Pipeline.arrBufs Dat.arrays
  rw [img0, bigSep_insert (by decide), bigSep_singleton, bigSep_W0]
  rw [(arr_whole0 0).set_eq_univ, (arr_whole0 2).set_eq_univ, share0_0, share0_1, share0_2, hG 0, hG 1, hG 2]
  show _ ⊢ iprop(((c : Thread nD τ).loc main_v28 ↦{fullShare} W main_v28) ∗ ((c : Thread nD τ).loc main_v29 ↦{fullShare} W main_v29))
  iintro ⟨Hl, Hr, H29⟩
  isplitr [H29]
  · iapply (pointsTo_share (PosShare.mem_left_op_right fullShare)).2
    isplitl [Hl]; · iexact Hl
    iexact Hr
  iexact H29

end Cert.Kernel.Hand

end
-- ==== Proof.K.Arrays123.lean ====
import proofs.«137111_j70342974374329_2_alg».proof.Proof.K.Region1
import proofs.«137111_j70342974374329_2_alg».proof.Proof.K.Region2
import proofs.«137111_j70342974374329_2_alg».proof.Proof.K.Region3
import proofs.«137111_j70342974374329_2_alg».proof.Proof.Gen.Kernel.Launch

/-!
# The three later regions' arrays: buffers to windows and back

At a region's entry the distinct buffers behind its windows' arrays, each held whole, are dealt to the windows; at its
exit they are collected again. In the projection region the seven windows stage seven different buffers, one each. In a
message-passing region the node-feature buffer is read through two windows (its rows in blocks, and whole), so that
buffer is dealt to them half and half and joined again at the exit; every other window gets its buffer whole.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1 -/

/-- The distinct buffers behind region 1's windows. -/
theorem img1 : Finset.univ.image (Pipeline.arrRef spec1) = {main_v9, main_arg2, main_arg5, main_arg6, main_arg3, main_arg4, main_v30} := by decide

/-- The share each window's array is held at: an output's whole, an input's as the proof data say. -/
theorem share1_0 (c : Dev nD) : (dat1 V c).share 0 = fullShare := by
  unfold Dat.share; exact (if_neg (by decide)).trans (q1 V c 0)
theorem share1_1 (c : Dev nD) : (dat1 V c).share 1 = fullShare := by
  unfold Dat.share; exact (if_neg (by decide)).trans (q1 V c 1)
theorem share1_2 (c : Dev nD) : (dat1 V c).share 2 = fullShare := by
  unfold Dat.share; exact (if_neg (by decide)).trans (q1 V c 2)
theorem share1_3 (c : Dev nD) : (dat1 V c).share 3 = fullShare := by
  unfold Dat.share; exact (if_neg (by decide)).trans (q1 V c 3)
theorem share1_4 (c : Dev nD) : (dat1 V c).share 4 = fullShare := by
  unfold Dat.share; exact (if_neg (by decide)).trans (q1 V c 4)
theorem share1_5 (c : Dev nD) : (dat1 V c).share 5 = fullShare := by
  unfold Dat.share; exact (if_neg (by decide)).trans (q1 V c 5)
theorem share1_6 (c : Dev nD) : (dat1 V c).share 6 = fullShare := by
  unfold Dat.share; exact if_pos (by decide)

set_option maxHeartbeats 1600000 in
/-- ENTRY: the seven buffers, whole, make the seven windows' arrays. -/
theorem arrays1_of_bufs (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  obtain rfl : G = fun w => W (Pipeline.arrRef spec1 w) := funext hG
  unfold Pipeline.arrBufs Dat.arrays
  rw [img1, bigSep_insert (by decide), bigSep_insert (by decide), bigSep_insert (by decide), bigSep_insert (by decide), bigSep_insert (by decide), bigSep_insert (by decide), bigSep_singleton, bigSep_W1]
  rw [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ,
    share1_0, share1_1, share1_2, share1_3, share1_4, share1_5, share1_6]
  show iprop(((c : Thread nD τ).loc main_v9 ↦{fullShare} W main_v9) ∗ ((c : Thread nD τ).loc main_arg2 ↦{fullShare} W main_arg2) ∗ ((c : Thread nD τ).loc main_arg5 ↦{fullShare} W main_arg5) ∗ ((c : Thread nD τ).loc main_arg6 ↦{fullShare} W main_arg6) ∗ ((c : Thread nD τ).loc main_arg3 ↦{fullShare} W main_arg3) ∗ ((c : Thread nD τ).loc main_arg4 ↦{fullShare} W main_arg4) ∗ ((c : Thread nD τ).loc main_v30 ↦{fullShare} W main_v30)) ⊢ _
  iintro ⟨Hv9, Harg2, Harg5, Harg6, Harg3, Harg4, Hv30⟩
  isplitl [Hv9]; · iexact Hv9
  isplitl [Harg2]; · iexact Harg2
  isplitl [Harg5]; · iexact Harg5
  isplitl [Harg6]; · iexact Harg6
  isplitl [Harg3]; · iexact Harg3
  isplitl [Harg4]; · iexact Harg4
  iexact Hv30

set_option maxHeartbeats 1600000 in
/-- EXIT: the seven windows' arrays make the seven buffers, whole. -/
theorem bufs1_of_arrays (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (dat1 V c).arrays G ⊢ (Pipeline.arrBufs (Ix := Unit) (Name := ℕ) (U := UR sig nD τ) (Lvl := ℕ) spec1 c W : sProp 𝕄) := by
  obtain rfl : G = fun w => W (Pipeline.arrRef spec1 w) := funext hG
  unfold Pipeline.arrBufs Dat.arrays
  rw [img1, bigSep_insert (by decide), bigSep_insert (by decide), bigSep_insert (by decide), bigSep_insert (by decide), bigSep_insert (by decide), bigSep_insert (by decide), bigSep_singleton, bigSep_W1]
  rw [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ,
    share1_0, share1_1, share1_2, share1_3, share1_4, share1_5, share1_6]
  show _ ⊢ iprop(((c : Thread nD τ).loc main_v9 ↦{fullShare} W main_v9) ∗ ((c : Thread nD τ).loc main_arg2 ↦{fullShare} W main_arg2) ∗ ((c : Thread nD τ).loc main_arg5 ↦{fullShare} W main_arg5) ∗ ((c : Thread nD τ).loc main_arg6 ↦{fullShare} W main_arg6) ∗ ((c : Thread nD τ).loc main_arg3 ↦{fullShare} W main_arg3) ∗ ((c : Thread nD τ).loc main_arg4 ↦{fullShare} W main_arg4) ∗ ((c : Thread nD τ).loc main_v30 ↦{fullShare} W main_v30))
  iintro ⟨Hv9, Harg2, Harg5, Harg6, Harg3, Harg4, Hv30⟩
  isplitl [Hv9]; · iexact Hv9
  isplitl [Harg2]; · iexact Harg2
  isplitl [Harg5]; · iexact Harg5
  isplitl [Harg6]; · iexact Harg6
  isplitl [Harg3]; · iexact Harg3
  isplitl [Harg4]; · iexact Harg4
  iexact Hv30

/-! ## Region 2 -/

/-- The distinct buffers behind region 2's windows. -/
theorem img2 : Finset.univ.image (Pipeline.arrRef spec2) = {main_v29, main_v30, main_v32, main_v34, main_v36, main_v37} := by decide

/-- The share each window's array is held at: an output's whole, an input's as the proof data say. -/
theorem share2_0 (c : Dev nD) : (dat2 V c).share 0 = fullShare := by
  unfold Dat.share; exact (if_neg (by decide)).trans (q2_0 V c)
theorem share2_1 (c : Dev nD) : (dat2 V c).share 1 = fullShare.left := by
  unfold Dat.share; exact (if_neg (by decide)).trans (q2_1 V c)
theorem share2_2 (c : Dev nD) : (dat2 V c).share 2 = fullShare.right := by
  unfold Dat.share; exact (if_neg (by decide)).trans (q2_2 V c)
theorem share2_3 (c : Dev nD) : (dat2 V c).share 3 = fullShare := by
  unfold Dat.share; exact (if_neg (by decide)).trans (q2_3 V c)
theorem share2_4 (c : Dev nD) : (dat2 V c).share 4 = fullShare := by
  unfold Dat.share; exact (if_neg (by decide)).trans (q2_4 V c)
theorem share2_5 (c : Dev nD) : (dat2 V c).share 5 = fullShare := by
  unfold Dat.share; exact (if_neg (by decide)).trans (q2_5 V c)
theorem share2_6 (c : Dev nD) : (dat2 V c).share 6 = fullShare := by
  unfold Dat.share; exact if_pos (by decide)

set_option maxHeartbeats 1600000 in
/-- ENTRY: the six buffers, whole, make the seven windows' arrays. -/
theorem arrays2_of_bufs (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    (Pipeline.arrBufs (Ix := Unit) (Name := ℕ) (U := UR sig nD τ) (Lvl := ℕ) spec2 c W : sProp 𝕄) ⊢ (dat2 V c).arrays G := by
  obtain rfl : G = fun w => W (Pipeline.arrRef spec2 w) := funext hG
  unfold Pipeline.arrBufs Dat.arrays
  rw [img2, bigSep_insert (by decide), bigSep_insert (by decide), bigSep_insert (by decide), bigSep_insert (by decide), bigSep_insert (by decide), bigSep_singleton, bigSep_W2]
  rw [(arr_whole2 0).set_eq_univ, (arr_whole2 1).set_eq_univ, (arr_whole2 3).set_eq_univ, (arr_whole2 4).set_eq_univ, (arr_whole2 5).set_eq_univ, (arr_whole2 6).set_eq_univ,
    share2_0, share2_1, share2_2, share2_3, share2_4, share2_5, share2_6]
  show iprop(((c : Thread nD τ).loc main_v29 ↦{fullShare} W main_v29) ∗ ((c : Thread nD τ).loc main_v30 ↦{fullShare} W main_v30) ∗ ((c : Thread nD τ).loc main_v32 ↦{fullShare} W main_v32) ∗ ((c : Thread nD τ).loc main_v34 ↦{fullShare} W main_v34) ∗ ((c : Thread nD τ).loc main_v36 ↦{fullShare} W main_v36) ∗ ((c : Thread nD τ).loc main_v37 ↦{fullShare} W main_v37)) ⊢ _
  iintro ⟨Hv29, Hv30, Hv32, Hv34, Hv36, Hv37⟩
  ihave H := (pointsTo_share (PosShare.mem_left_op_right fullShare)).1 $$ Hv30
  icases H with ⟨Hl, Hr⟩
  isplitl [Hv29]; · iexact Hv29
  isplitl [Hl]; · iexact Hl
  isplitl [Hr]; · iexact Hr
  isplitl [Hv32]; · iexact Hv32
  isplitl [Hv34]; · iexact Hv34
  isplitl [Hv36]; · iexact Hv36
  iexact Hv37

set_option maxHeartbeats 1600000 in
/-- EXIT: the seven windows' arrays make the six buffers, whole. -/
theorem bufs2_of_arrays (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    (dat2 V c).arrays G ⊢ (Pipeline.arrBufs (Ix := Unit) (Name := ℕ) (U := UR sig nD τ) (Lvl := ℕ) spec2 c W : sProp 𝕄) := by
  obtain rfl : G = fun w => W (Pipeline.arrRef spec2 w) := funext hG
  unfold Pipeline.arrBufs Dat.arrays
  rw [img2, bigSep_insert (by decide), bigSep_insert (by decide), bigSep_insert (by decide), bigSep_insert (by decide), bigSep_insert (by decide), bigSep_singleton, bigSep_W2]
  rw [(arr_whole2 0).set_eq_univ, (arr_whole2 1).set_eq_univ, (arr_whole2 3).set_eq_univ, (arr_whole2 4).set_eq_univ, (arr_whole2 5).set_eq_univ, (arr_whole2 6).set_eq_univ,
    share2_0, share2_1, share2_2, share2_3, share2_4, share2_5, share2_6]
  show _ ⊢ iprop(((c : Thread nD τ).loc main_v29 ↦{fullShare} W main_v29) ∗ ((c : Thread nD τ).loc main_v30 ↦{fullShare} W main_v30) ∗ ((c : Thread nD τ).loc main_v32 ↦{fullShare} W main_v32) ∗ ((c : Thread nD τ).loc main_v34 ↦{fullShare} W main_v34) ∗ ((c : Thread nD τ).loc main_v36 ↦{fullShare} W main_v36) ∗ ((c : Thread nD τ).loc main_v37 ↦{fullShare} W main_v37))
  iintro ⟨Hv29, Hl, Hr, Hv32, Hv34, Hv36, Hv37⟩
  isplitl [Hv29]; · iexact Hv29
  isplitl [Hl Hr]
  · iapply (pointsTo_share (PosShare.mem_left_op_right fullShare)).2
    isplitl [Hl]; · iexact Hl
    iexact Hr
  isplitl [Hv32]; · iexact Hv32
  isplitl [Hv34]; · iexact Hv34
  isplitl [Hv36]; · iexact Hv36
  iexact Hv37

/-! ## Region 3 -/

/-- The distinct buffers behind region 3's windows. -/
theorem img3 : Finset.univ.image (Pipeline.arrRef spec3) = {main_v29, main_v37, main_v39, main_v41, main_v43, main_v44} := by decide

/-- The share each window's array is held at: an output's whole, an input's as the proof data say. -/
theorem share3_0 (c : Dev nD) : (dat3 V c).share 0 = fullShare := by
  unfold Dat.share; exact (if_neg (by decide)).trans (q3_0 V c)
theorem share3_1 (c : Dev nD) : (dat3 V c).share 1 = fullShare.left := by
  unfold Dat.share; exact (if_neg (by decide)).trans (q3_1 V c)
theorem share3_2 (c : Dev nD) : (dat3 V c).share 2 = fullShare.right := by
  unfold Dat.share; exact (if_neg (by decide)).trans (q3_2 V c)
theorem share3_3 (c : Dev nD) : (dat3 V c).share 3 = fullShare := by
  unfold Dat.share; exact (if_neg (by decide)).trans (q3_3 V c)
theorem share3_4 (c : Dev nD) : (dat3 V c).share 4 = fullShare := by
  unfold Dat.share; exact (if_neg (by decide)).trans (q3_4 V c)
theorem share3_5 (c : Dev nD) : (dat3 V c).share 5 = fullShare := by
  unfold Dat.share; exact (if_neg (by decide)).trans (q3_5 V c)
theorem share3_6 (c : Dev nD) : (dat3 V c).share 6 = fullShare := by
  unfold Dat.share; exact if_pos (by decide)

set_option maxHeartbeats 1600000 in
/-- ENTRY: the six buffers, whole, make the seven windows' arrays. -/
theorem arrays3_of_bufs (c : Dev nD) (W : (b : Ref sig .tc) → Buf (Elt F) ((c : Thread nD τ).loc b))
    (G : (w : Fin cfg3.W) → Buf (Elt F) ((cfg3.win w).arr.view.loc (c : Thread nD τ))) (hG : ∀ w, G w = W (Pipeline.arrRef spec3 w)) :
    (Pipeline.arrBufs (Ix := Unit) (Name := ℕ) (U := UR sig nD τ) (Lvl := ℕ) spec3 c W : sProp 𝕄) ⊢ (dat3 V c).arrays G := by
  obtain rfl : G = fun w => W (Pipeline.arrRef spec3 w) := funext hG
  unfold Pipeline.arrBufs Dat.arrays
  rw [img3, bigSep_insert (by decide), bigSep_insert (by decide), bigSep_insert (by decide), bigSep_insert (by decide), bigSep_insert (by decide), bigSep_singleton, bigSep_W3]
  rw [(arr_whole3 0).set_eq_univ, (arr_whole3 1).set_eq_univ, (arr_whole3 3).set_eq_univ, (arr_whole3 4).set_eq_univ, (arr_whole3 5).set_eq_univ, (arr_whole3 6).set_eq_univ,
    share3_0, share3_1, share3_2, share3_3, share3_4, share3_5, share3_6]
  show iprop(((c : Thread nD τ).loc main_v29 ↦{fullShare} W main_v29) ∗ ((c : Thread nD τ).loc main_v37 ↦{fullShare} W main_v37) ∗ ((c : Thread nD τ).loc main_v39 ↦{fullShare} W main_v39) ∗ ((c : Thread nD τ).loc main_v41 ↦{fullShare} W main_v41) ∗ ((c : Thread nD τ).loc main_v43 ↦{fullShare} W main_v43) ∗ ((c : Thread nD τ).loc main_v44 ↦{fullShare} W main_v44)) ⊢ _
  iintro ⟨Hv29, Hv37, Hv39, Hv41, Hv43, Hv44⟩
  ihave H := (pointsTo_share (PosShare.mem_left_op_right fullShare)).1 $$ Hv37
  icases H with ⟨Hl, Hr⟩
  isplitl [Hv29]; · iexact Hv29
  isplitl [Hl]; · iexact Hl
  isplitl [Hr]; · iexact Hr
  isplitl [Hv39]; · iexact Hv39
  isplitl [Hv41]; · iexact Hv41
  isplitl [Hv43]; · iexact Hv43
  iexact Hv44

set_option maxHeartbeats 1600000 in
/-- EXIT: the seven windows' arrays make the six buffers, whole. -/
theorem bufs3_of_arrays (c : Dev nD) (W : (b : Ref sig .tc) → Buf (Elt F) ((c : Thread nD τ).loc b))
    (G : (w : Fin cfg3.W) → Buf (Elt F) ((cfg3.win w).arr.view.loc (c : Thread nD τ))) (hG : ∀ w, G w = W (Pipeline.arrRef spec3 w)) :
    (dat3 V c).arrays G ⊢ (Pipeline.arrBufs (Ix := Unit) (Name := ℕ) (U := UR sig nD τ) (Lvl := ℕ) spec3 c W : sProp 𝕄) := by
  obtain rfl : G = fun w => W (Pipeline.arrRef spec3 w) := funext hG
  unfold Pipeline.arrBufs Dat.arrays
  rw [img3, bigSep_insert (by decide), bigSep_insert (by decide), bigSep_insert (by decide), bigSep_insert (by decide), bigSep_insert (by decide), bigSep_singleton, bigSep_W3]
  rw [(arr_whole3 0).set_eq_univ, (arr_whole3 1).set_eq_univ, (arr_whole3 3).set_eq_univ, (arr_whole3 4).set_eq_univ, (arr_whole3 5).set_eq_univ, (arr_whole3 6).set_eq_univ,
    share3_0, share3_1, share3_2, share3_3, share3_4, share3_5, share3_6]
  show _ ⊢ iprop(((c : Thread nD τ).loc main_v29 ↦{fullShare} W main_v29) ∗ ((c : Thread nD τ).loc main_v37 ↦{fullShare} W main_v37) ∗ ((c : Thread nD τ).loc main_v39 ↦{fullShare} W main_v39) ∗ ((c : Thread nD τ).loc main_v41 ↦{fullShare} W main_v41) ∗ ((c : Thread nD τ).loc main_v43 ↦{fullShare} W main_v43) ∗ ((c : Thread nD τ).loc main_v44 ↦{fullShare} W main_v44))
  iintro ⟨Hv29, Hl, Hr, Hv39, Hv41, Hv43, Hv44⟩
  isplitl [Hv29]; · iexact Hv29
  isplitl [Hl Hr]
  · iapply (pointsTo_share (PosShare.mem_left_op_right fullShare)).2
    isplitl [Hl]; · iexact Hl
    iexact Hr
  isplitl [Hv39]; · iexact Hv39
  isplitl [Hv41]; · iexact Hv41
  isplitl [Hv43]; · iexact Hv43
  iexact Hv44

end Cert.Kernel.Hand

end
-- ==== Proof.K.Exits.lean ====
import proofs.«137111_j70342974374329_2_alg».proof.Proof.K.Arrays0
import proofs.«137111_j70342974374329_2_alg».proof.Proof.K.Arrays123

/-!
# Leaving a region: the windows' arrays and the other unscoped buffers make every unscoped buffer again

Stated over arbitrary contents, so that nothing about a particular boundary of the program is unfolded here.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
set_option maxHeartbeats 3200000 in
/-- EXIT of region 0, over any contents: the windows' arrays at `G` and the other unscoped buffers at `W` are every unscoped
    buffer at any `W'` that has the arrays at `G` and agrees with `W` elsewhere. -/
theorem exit0 (V : (c : Dev nD) → (b : Ref sig .tc) → Buf (Elt F) ((c : Thread nD τ).loc b)) (c : Dev nD) (W W' : Valuation τ sig (Elt F))
    (G : (w : Fin cfg0.W) → Buf (Elt F) ((cfg0.win w).arr.view.loc (c : Thread nD τ)))
    (hG : ∀ w, G w = W' (Pipeline.arrRef spec0 w))
    (hrest : ∀ b : Ref sig .tc, b ∉ Finset.univ.image (Pipeline.arrRef spec0) → W' b = W b) :
    iprop((dat0 V c).arrays G ∗ Pipeline.unscopedRest (Ix := Unit) (Name := ℕ) (U := UR sig nD τ) (Lvl := ℕ) spec0 c (fun b => W b))
      ⊢ (StableHlo.held (c : Thread nD τ) (Pipeline.ucRefs τ sig) W' : sProp 𝕄) := by
  rw [← Pipeline.unscopedBufs_held c W', Pipeline.unscopedBufs_split₀ cfgs 0 winFacts₀0.arr_unscoped c (fun b => W' b)]
  refine sep_mono (bufs0_of_arrays V c (fun b => W' b) G hG) (Entails.of_eq ?_)
  unfold Pipeline.unscopedRest
  exact bigSep_congr fun b hb => by
    have e : W' b = W b := hrest b (Finset.mem_sdiff.mp hb).2
    dsimp only
    rw [e]

set_option backward.isDefEq.respectTransparency.types false in
set_option maxHeartbeats 3200000 in
/-- EXIT of region 1, over any contents: the windows' arrays at `G` and the other unscoped buffers at `W` are every unscoped
    buffer at any `W'` that has the arrays at `G` and agrees with `W` elsewhere. -/
theorem exit1 (V : (c : Dev nD) → (b : Ref sig .tc) → Buf (Elt F) ((c : Thread nD τ).loc b)) (c : Dev nD) (W W' : Valuation τ sig (Elt F))
    (G : (w : Fin cfg1.W) → Buf (Elt F) ((cfg1.win w).arr.view.loc (c : Thread nD τ)))
    (hG : ∀ w, G w = W' (Pipeline.arrRef spec1 w))
    (hrest : ∀ b : Ref sig .tc, b ∉ Finset.univ.image (Pipeline.arrRef spec1) → W' b = W b) :
    iprop((dat1 V c).arrays G ∗ Pipeline.unscopedRest (Ix := Unit) (Name := ℕ) (U := UR sig nD τ) (Lvl := ℕ) spec1 c (fun b => W b))
      ⊢ (StableHlo.held (c : Thread nD τ) (Pipeline.ucRefs τ sig) W' : sProp 𝕄) := by
  rw [← Pipeline.unscopedBufs_held c W', Pipeline.unscopedBufs_split₀ cfgs 1 launch1.win.arr_unscoped c (fun b => W' b)]
  refine sep_mono (bufs1_of_arrays V c (fun b => W' b) G hG) (Entails.of_eq ?_)
  unfold Pipeline.unscopedRest
  exact bigSep_congr fun b hb => by
    have e : W' b = W b := hrest b (Finset.mem_sdiff.mp hb).2
    dsimp only
    rw [e]

set_option backward.isDefEq.respectTransparency.types false in
set_option maxHeartbeats 3200000 in
/-- EXIT of region 2, over any contents: the windows' arrays at `G` and the other unscoped buffers at `W` are every unscoped
    buffer at any `W'` that has the arrays at `G` and agrees with `W` elsewhere. -/
theorem exit2 (V : (c : Dev nD) → (b : Ref sig .tc) → Buf (Elt F) ((c : Thread nD τ).loc b)) (c : Dev nD) (W W' : Valuation τ sig (Elt F))
    (G : (w : Fin cfg2.W) → Buf (Elt F) ((cfg2.win w).arr.view.loc (c : Thread nD τ)))
    (hG : ∀ w, G w = W' (Pipeline.arrRef spec2 w))
    (hrest : ∀ b : Ref sig .tc, b ∉ Finset.univ.image (Pipeline.arrRef spec2) → W' b = W b) :
    iprop((dat2 V c).arrays G ∗ Pipeline.unscopedRest (Ix := Unit) (Name := ℕ) (U := UR sig nD τ) (Lvl := ℕ) spec2 c (fun b => W b))
      ⊢ (StableHlo.held (c : Thread nD τ) (Pipeline.ucRefs τ sig) W' : sProp 𝕄) := by
  rw [← Pipeline.unscopedBufs_held c W', Pipeline.unscopedBufs_split₀ cfgs 2 winFacts₀2.arr_unscoped c (fun b => W' b)]
  refine sep_mono (bufs2_of_arrays V c (fun b => W' b) G hG) (Entails.of_eq ?_)
  unfold Pipeline.unscopedRest
  exact bigSep_congr fun b hb => by
    have e : W' b = W b := hrest b (Finset.mem_sdiff.mp hb).2
    dsimp only
    rw [e]

set_option backward.isDefEq.respectTransparency.types false in
set_option maxHeartbeats 3200000 in
/-- EXIT of region 3, over any contents: the windows' arrays at `G` and the other unscoped buffers at `W` are every unscoped
    buffer at any `W'` that has the arrays at `G` and agrees with `W` elsewhere. -/
theorem exit3 (V : (c : Dev nD) → (b : Ref sig .tc) → Buf (Elt F) ((c : Thread nD τ).loc b)) (c : Dev nD) (W W' : Valuation τ sig (Elt F))
    (G : (w : Fin cfg3.W) → Buf (Elt F) ((cfg3.win w).arr.view.loc (c : Thread nD τ)))
    (hG : ∀ w, G w = W' (Pipeline.arrRef spec3 w))
    (hrest : ∀ b : Ref sig .tc, b ∉ Finset.univ.image (Pipeline.arrRef spec3) → W' b = W b) :
    iprop((dat3 V c).arrays G ∗ Pipeline.unscopedRest (Ix := Unit) (Name := ℕ) (U := UR sig nD τ) (Lvl := ℕ) spec3 c (fun b => W b))
      ⊢ (StableHlo.held (c : Thread nD τ) (Pipeline.ucRefs τ sig) W' : sProp 𝕄) := by
  rw [← Pipeline.unscopedBufs_held c W', Pipeline.unscopedBufs_split₀ cfgs 3 winFacts₀3.arr_unscoped c (fun b => W' b)]
  refine sep_mono (bufs3_of_arrays V c (fun b => W' b) G hG) (Entails.of_eq ?_)
  unfold Pipeline.unscopedRest
  exact bigSep_congr fun b hb => by
    have e : W' b = W b := hrest b (Finset.mem_sdiff.mp hb).2
    dsimp only
    rw [e]

end Cert.Kernel.Hand

end
-- ==== Proof.K.Reg0.lean ====
import proofs.«137111_j70342974374329_2_alg».proof.Proof.K.Fold
import proofs.«137111_j70342974374329_2_alg».proof.Proof.K.Exits

/-!
# Region 0 as a segment of @main

Entered from "every unscoped buffer at the boundary's contents, the generator register at some state, nothing owed", and
left at the same with its output's array changed: its arrays are split out of the unscoped buffers at the entry (an array
read through two windows dealt to them by halves) and put back at the exit.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

set_option backward.isDefEq.respectTransparency.types false in
/-- REGION 0 over the thread state: entered from every unscoped buffer at `W1`, left at `W2`. -/
def reg0 : RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (fun b => W1 m c b)
  hentry c := by
    rw [Pipeline.ownSems0_none]
    have hsplit : (StableHlo.held (c : Thread nD τ) (Pipeline.ucRefs τ sig) (W1 m c) : sProp 𝕄)
        ⊢ iprop((pdats m 0 c).arrays ((pdats m 0 c).arrAt · 0) ∗ Pipeline.unscopedRest spec0 c (B1 m c)) := by
      rw [← Pipeline.unscopedBufs_held c (W1 m c), Pipeline.unscopedBufs_split₀ cfgs 0 winFacts₀0.arr_unscoped c (B1 m c)]
      exact sep_mono (arrays0_of_bufs (B1 m) c (B1 m c) _ (fun w => A_eq0 (B1 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (B1 m) c)
    unfold Pipeline.ΦA
    iintro ⟨Hp, -, Hr⟩
    isplitl [Hr]; · iexact Hr
    iexact Hp
  hout c := by
    rw [Pipeline.ownSems0_none]
    refine BIBase.Entails.trans (hout0 (B1 m) c) ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (fun b => W1 m c b))
        ⊢ (StableHlo.held (c : Thread nD τ) (Pipeline.ucRefs τ sig) (W2 m c) : sProp 𝕄) := exit0 (B1 m) c (W1 m c) (W2 m c) (fun w => (dat0 (B1 m) c).arrAt w cfg0.N) (hF0 m c)
      (fun b hb => W2_of_ne m c b fun e => hb (Finset.mem_image.mpr ⟨2, Finset.mem_univ _, e.symm⟩))
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Reg1.lean ====
import proofs.«137111_j70342974374329_2_alg».proof.Proof.K.Fold
import proofs.«137111_j70342974374329_2_alg».proof.Proof.K.Exits

/-!
# Region 1 as a segment of @main

Entered from "every unscoped buffer at the boundary's contents, the generator register at some state, nothing owed", and
left at the same with its output's array changed: its arrays are split out of the unscoped buffers at the entry (an array
read through two windows dealt to them by halves) and put back at the exit.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

set_option backward.isDefEq.respectTransparency.types false in
/-- REGION 1 over the thread state: entered from every unscoped buffer at `W2`, left at `W3`. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (fun b => W2 m c b)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0) ∗ Pipeline.unscopedRest spec1 c (B2 m c)) := by
      rw [← Pipeline.unscopedBufs_held c (W2 m c), Pipeline.unscopedBufs_split₀ cfgs 1 launch1.win.arr_unscoped c (B2 m c)]
      exact sep_mono (arrays1_of_bufs (B2 m) c (B2 m c) _ (fun w => A_eq1 (B2 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (fun b => W2 m c b))
        ⊢ (StableHlo.held (c : Thread nD τ) (Pipeline.ucRefs τ sig) (W3 m c) : sProp 𝕄) := exit1 (B2 m) c (W2 m c) (W3 m c) (fun w => (dat1 (B2 m) c).arrAt w cfg1.N) (hF1 m c)
      (fun b hb => W3_of_ne m c b fun e => hb (Finset.mem_image.mpr ⟨6, Finset.mem_univ _, e.symm⟩))
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Reg2.lean ====
import proofs.«137111_j70342974374329_2_alg».proof.Proof.K.Fold
import proofs.«137111_j70342974374329_2_alg».proof.Proof.K.Exits

/-!
# Region 2 as a segment of @main

Entered from "every unscoped buffer at the boundary's contents, the generator register at some state, nothing owed", and
left at the same with its output's array changed: its arrays are split out of the unscoped buffers at the entry (an array
read through two windows dealt to them by halves) and put back at the exit.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

set_option backward.isDefEq.respectTransparency.types false in
/-- REGION 2 over the thread state: entered from every unscoped buffer at `W4`, left at `W5`. -/
def reg2 : RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (B4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (fun b => W4 m c b)
  hentry c := by
    rw [Pipeline.ownSems0_none]
    have hsplit : (StableHlo.held (c : Thread nD τ) (Pipeline.ucRefs τ sig) (W4 m c) : sProp 𝕄)
        ⊢ iprop((pdats m 2 c).arrays ((pdats m 2 c).arrAt · 0) ∗ Pipeline.unscopedRest spec2 c (B4 m c)) := by
      rw [← Pipeline.unscopedBufs_held c (W4 m c), Pipeline.unscopedBufs_split₀ cfgs 2 winFacts₀2.arr_unscoped c (B4 m c)]
      exact sep_mono (arrays2_of_bufs (B4 m) c (B4 m c) _ (fun w => A_eq2 (B4 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (fun b => W4 m c b))
        ⊢ (StableHlo.held (c : Thread nD τ) (Pipeline.ucRefs τ sig) (W5 m c) : sProp 𝕄) := exit2 (B4 m) c (W4 m c) (W5 m c) (fun w => (dat2 (B4 m) c).arrAt w cfg2.N) (hF2 m c)
      (fun b hb => W5_of_ne m c b fun e => hb (Finset.mem_image.mpr ⟨6, Finset.mem_univ _, e.symm⟩))
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Reg3.lean ====
import proofs.«137111_j70342974374329_2_alg».proof.Proof.K.Fold
import proofs.«137111_j70342974374329_2_alg».proof.Proof.K.Exits

/-!
# Region 3 as a segment of @main

Entered from "every unscoped buffer at the boundary's contents, the generator register at some state, nothing owed", and
left at the same with its output's array changed: its arrays are split out of the unscoped buffers at the entry (an array
read through two windows dealt to them by halves) and put back at the exit.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

set_option backward.isDefEq.respectTransparency.types false in
/-- REGION 3 over the thread state: entered from every unscoped buffer at `W6`, left at `W7`. -/
def reg3 : RegionSeg (pcfgs (F := F)) Gen.adm (pdats m) () defs₀ 𝒱₀ L lv 3 where
  win := winFacts₀3
  block_pos := block_pos3
  stage_whole := stage_whole3
  K := PEmpty
  osem k := k.elim
  ho := Pipeline.OwnSemFacts.none _
  hbody c := (body_obligation3 (B6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (fun b => W6 m c b)
  hentry c := by
    rw [Pipeline.ownSems0_none]
    have hsplit : (StableHlo.held (c : Thread nD τ) (Pipeline.ucRefs τ sig) (W6 m c) : sProp 𝕄)
        ⊢ iprop((pdats m 3 c).arrays ((pdats m 3 c).arrAt · 0) ∗ Pipeline.unscopedRest spec3 c (B6 m c)) := by
      rw [← Pipeline.unscopedBufs_held c (W6 m c), Pipeline.unscopedBufs_split₀ cfgs 3 winFacts₀3.arr_unscoped c (B6 m c)]
      exact sep_mono (arrays3_of_bufs (B6 m) c (B6 m c) _ (fun w => A_eq3 (B6 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (fun b => W6 m c b))
        ⊢ (StableHlo.held (c : Thread nD τ) (Pipeline.ucRefs τ sig) (W7 m c) : sProp 𝕄) := exit3 (B6 m) c (W6 m c) (W7 m c) (fun w => (dat3 (B6 m) c).arrAt w cfg3.N) (hF3 m c)
      (fun b hb => W7_of_ne m c b fun e => hb (Finset.mem_image.mpr ⟨6, Finset.mem_univ _, e.symm⟩))
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Run.lean ====
import proofs.«137111_j70342974374329_2_alg».proof.Proof.K.Reg0
import proofs.«137111_j70342974374329_2_alg».proof.Proof.K.Reg1
import proofs.«137111_j70342974374329_2_alg».proof.Proof.K.Reg2
import proofs.«137111_j70342974374329_2_alg».proof.Proof.K.Reg3

/-!
# The program's run: four regions among stretches of host operations

@main is the list of its seven items; each is entered from what the one before left; at the end the result buffer holds what
the last region leaves and every argument what it held at the launch.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

/-! ## @main as segments, and the launch -/

/-- A stretch of host operations as a segment, from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's seven items in order. -/
abbrev segs : List (Seg (pcfgs (F := F)) Gen.adm (pdats m) () defs₀ 𝒱₀ L lv) :=
  [ .host (hseg hostOps0 hostOps0_sub Gen.hostOps0_fresh (Gen.V0 m)),
    .region (reg0 m),
    .region (reg1 m),
    .host (hseg hostOps2 hostOps2_sub Gen.hostOps2_fresh (W3 m)),
    .region (reg2 m),
    .host (hseg hostOps3 hostOps3_sub Gen.hostOps3_fresh (W5 m)),
    .region (reg3 m) ]

/-- @main is the run of the segments. -/
theorem main_run (c : Dev nD) : main (F := F) c = Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: it reaches the end as launched. -/
theorem W7_arg (c : Dev nD) (b : Ref sig .tc) (h : Gen.V7 m (outs m) c b = m ((c : Thread nD τ).loc b)) :
    W7 m c b = m ((c : Thread nD τ).loc b) := (congrFun (V7_eq m c) _).symm.trans h

set_option backward.isDefEq.respectTransparency.types false in
/-- THE RUN. From any memory with zero counters every weakly fair execution of @main terminates, nothing faulting, and ends
    with the result buffer at what region 3 leaves and every argument as launched. -/
theorem run (ρ : Dev nD → PrngReg) : θ_run defs (onTc (τ := τ) (main (F := F))) ⟨m, fun _ => 0, ρ⟩ (fun r => ∀ c : Dev nD,
      r.2.mem ((c.tc : Thread nD τ).loc main_v44) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨(h c _ (mem_uc main_v44 (by decide))).trans (W7_out m c),
       (h c _ (mem_uc main_arg0 (by decide))).trans (W7_arg m c main_arg0 (Gen.V7_main_arg0 m (outs m) c)),
       (h c _ (mem_uc main_arg1 (by decide))).trans (W7_arg m c main_arg1 (Gen.V7_main_arg1 m (outs m) c)),
       (h c _ (mem_uc main_arg2 (by decide))).trans (W7_arg m c main_arg2 (Gen.V7_main_arg2 m (outs m) c)),
       (h c _ (mem_uc main_arg3 (by decide))).trans (W7_arg m c main_arg3 (Gen.V7_main_arg3 m (outs m) c)),
       (h c _ (mem_uc main_arg4 (by decide))).trans (W7_arg m c main_arg4 (Gen.V7_main_arg4 m (outs m) c)),
       (h c _ (mem_uc main_arg5 (by decide))).trans (W7_arg m c main_arg5 (Gen.V7_main_arg5 m (outs m) c)),
       (h c _ (mem_uc main_arg6 (by decide))).trans (W7_arg m c main_arg6 (Gen.V7_main_arg6 m (outs m) c)),
       (h c _ (mem_uc main_arg7 (by decide))).trans (W7_arg m c main_arg7 (Gen.V7_main_arg7 m (outs m) c)),
       (h c _ (mem_uc main_arg8 (by decide))).trans (W7_arg m c main_arg8 (Gen.V7_main_arg8 m (outs m) c)),
       (h c _ (mem_uc main_arg9 (by decide))).trans (W7_arg m c main_arg9 (Gen.V7_main_arg9 m (outs m) c))⟩)

end Cert.Kernel.Hand

end
-- ==== Proof.KI.R0Base.lean ====
import proofs.«137111_j70342974374329_2_alg».proof.Proof.Gen.KernelIdeal.Launch
import proofs.«137111_j70342974374329_2_alg».proof.Proof.Gen.KernelIdeal.Skeleton
import proofs.«137111_j70342974374329_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The adjacency region: what its runs share

The region accumulates a 1024 × 1024 tile of `M Mᵀ` in a scratch buffer over the sixteen points of the innermost grid axis:
the first of them (n = 0) zeroes the scratch, every point adds the product of its two blocks of `M`, the last (n = 15)
thresholds the accumulated tile, zeroes its diagonal and stores it into the output block. Here: the blocks the windows hold,
the two branch conditions in closed form over the grid, where the output window is idle, and the memrefs the body is called with.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- "This is the first point of the contraction" (n = 0), as the body computes it from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last point of the contraction" (n = 15). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point of a contraction the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point of a contraction the output window is live. -/
theorem liveAt0_2 : ∀ t : Fin cfg0.N, cond0_1 (grid0.coords t) → cfg0.idle 2 (grid0.coords t) = false := by decide +kernel

/-! ## The memrefs the body is called with -/

abbrev VO0_2 : View sig .tc .vmem S1024x1024 .bf16 := (Memref.whole cc0_stg2_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The scoped buffers the region does not stage, with the accumulator split off and owned as a memref. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Hand

end
-- ==== Proof.KI.R0RunA.lean ====
import proofs.«137111_j70342974374329_2_alg».proof.Proof.KI.R0Base

/-!
# The adjacency body at the first point of a contraction (n = 0)

The accumulator is zeroed, then holds the product of the point's two blocks added to those zeros; the output buffer is not touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with n = 0: the inputs and the output buffer are handed back as found; the accumulator, found at
    anything, ends with the listed stores written (last first). -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .bf16) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__adj_kernel i arg3 harg3 arg4 harg4 arg5 harg5 arg6 harg6) K } := by
  refine ⟨?_, fun xi2 E K => ?run⟩
  case run =>
    simp only [cc0__adj_kernel_eq_skeleton]; unfold cc0__adj_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R0RunB.lean ====
import proofs.«137111_j70342974374329_2_alg».proof.Proof.KI.R0RunA

/-!
# The adjacency body at an inner point of a contraction (0 < n < 15)

The accumulator, found at what the point before left, has the product of the point's two blocks added; the output buffer is not touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with 0 < n < 15. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .bf16) (xs0 : Vec F S1024x1024 .f32) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__adj_kernel i arg3 harg3 arg4 harg4 arg5 harg5 arg6 harg6) K } := by
  refine ⟨?_, fun xi2 E K => ?run⟩
  case run =>
    simp only [cc0__adj_kernel_eq_skeleton]; unfold cc0__adj_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R0RunC.lean ====
import proofs.«137111_j70342974374329_2_alg».proof.Proof.KI.R0RunB

/-!
# The adjacency body at the last point of a contraction (n = 15)

The accumulator has the last product added; then the accumulated tile is thresholded, its diagonal entries zeroed, and the
result stored whole into the output buffer.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with n = 15. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__adj_kernel i arg3 harg3 arg4 harg4 arg5 harg5 arg6 harg6) K } := by
  refine ⟨?_, ?_, fun E K => ?run⟩
  case run =>
    simp only [cc0__adj_kernel_eq_skeleton]; unfold cc0__adj_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.R0Frame.lean ====
import proofs.«137111_j70342974374329_2_alg».proof.Proof.KI.R0RunC

/-!
# The adjacency region: its proof data and body obligation

What the accumulator holds after each point is defined by recursion on the point: at the first point of a contraction the
body's stores over a zeroed buffer, at the others its stores over what the point before left. The output block is stored at
the last point of a contraction from the accumulated tile, and the window is idle elsewhere. The invariant carries the
accumulator at these contents from point to point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The stores of a first point cover the accumulator. -/
theorem scover0_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (x0 x1 : Vec F S1024x1024 .bf16) (y : S1024x1024.Idx) :
    ∃ pc ∈ (kernelRun0_A c i a3 h3 a4 h4 a5 h5 a6 h6 hc0 hc1 x0 x1).1, y ∈ pc.1.set :=
  View.cover_of_tiledL (kernelRun0_A c i a3 h3 a4 h4 a5 h5 a6 h6 hc0 hc1 x0 x1).1 S1024x1024.size (by sl_kernel_rfl) y
/-- What a first point leaves in the accumulator. -/
def sout0_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (x0 x1 : Vec F S1024x1024 .bf16) : Vec F S1024x1024 .f32 :=
  VS0_0.read (Elt F) (VS0_0.writes (Elt F) VS0_0.junk (kernelRun0_A c i a3 h3 a4 h4 a5 h5 a6 h6 hc0 hc1 x0 x1).1)

/-- The stores of an inner point cover the accumulator. -/
theorem scover0_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (x0 x1 : Vec F S1024x1024 .bf16) (xs0 : Vec F S1024x1024 .f32) (y : S1024x1024.Idx) :
    ∃ pc ∈ (kernelRun0_B c i a3 h3 a4 h4 a5 h5 a6 h6 hc0 hc1 x0 x1 xs0).1, y ∈ pc.1.set :=
  View.cover_of_tiledL (kernelRun0_B c i a3 h3 a4 h4 a5 h5 a6 h6 hc0 hc1 x0 x1 xs0).1 S1024x1024.size (by sl_kernel_rfl) y
/-- What an inner point leaves in the accumulator. -/
def sout0_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (x0 x1 : Vec F S1024x1024 .bf16) (xs0 : Vec F S1024x1024 .f32) : Vec F S1024x1024 .f32 :=
  VS0_0.read (Elt F) (VS0_0.writes (Elt F) VS0_0.junk (kernelRun0_B c i a3 h3 a4 h4 a5 h5 a6 h6 hc0 hc1 x0 x1 xs0).1)

/-- The store of a last point covers the output buffer. -/
theorem cover0_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) (y : S1024x1024.Idx) :
    ∃ pc ∈ (kernelRun0_C c i a3 h3 a4 h4 a5 h5 a6 h6 hc0 hc1 x0 x1 xs0).1, y ∈ pc.1.set :=
  View.cover_of_tiledL (kernelRun0_C c i a3 h3 a4 h4 a5 h5 a6 h6 hc0 hc1 x0 x1 xs0).1 S1024x1024.size (by sl_kernel_rfl) y
/-- What a last point leaves in the output buffer. -/
def out0_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) : Vec F S1024x1024 .bf16 :=
  VO0_2.read (Elt F) (VO0_2.writes (Elt F) VO0_2.junk (kernelRun0_C c i a3 h3 a4 h4 a5 h5 a6 h6 hc0 hc1 x0 x1 xs0).1)
/-- The stores of a last point cover the accumulator. -/
theorem scover0_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) (y : S1024x1024.Idx) :
    ∃ pc ∈ (kernelRun0_C c i a3 h3 a4 h4 a5 h5 a6 h6 hc0 hc1 x0 x1 xs0).2.1, y ∈ pc.1.set :=
  View.cover_of_tiledL (kernelRun0_C c i a3 h3 a4 h4 a5 h5 a6 h6 hc0 hc1 x0 x1 xs0).2.1 S1024x1024.size (by sl_kernel_rfl) y
/-- What a last point leaves in the accumulator. -/
def sout0_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) : Vec F S1024x1024 .f32 :=
  VS0_0.read (Elt F) (VS0_0.writes (Elt F) VS0_0.junk (kernelRun0_C c i a3 h3 a4 h4 a5 h5 a6 h6 hc0 hc1 x0 x1 xs0).2.1)

/-- The output buffer's contents where the window is idle: never consulted. -/
def idleOut0 : Vec F S1024x1024 .bf16 := VO0_2.read (Elt F) VO0_2.junk

/-! ## Point by point -/

/-- What the output buffer (first component) and the accumulator (second) hold after point `n`. -/
def outsAt0 (c : Dev nD) : (n : ℕ) → (hn : n < cfg0.N) → Vec F S1024x1024 .bf16 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (show ¬ (0 % 16 = 15) by decide)) (iblk0 V c 0 ⟨0, hn⟩) (iblk0 V c 1 ⟨0, hn⟩))
  | n + 1, hn =>
    if h0 : (n + 1) % 16 = 0 then
      (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => by have := (hcond0_1 ⟨n + 1, hn⟩).mp h; simp only at this; omega) (iblk0 V c 0 ⟨n + 1, hn⟩) (iblk0 V c 1 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a first point of a contraction. -/
theorem outsAt0_A (c : Dev nD) (t : Fin cfg0.N) (h0 : t.val % 16 = 0) (h1 : ¬t.val % 16 = 15) :
    outsAt0 V c t.val t.isLt = (idleOut0, sout0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

/-- `outsAt0` at an inner point: over what the point before left. -/
theorem outsAt0_B (c : Dev nD) (t : Fin cfg0.N) (h0 : ¬t.val % 16 = 0) (h1 : ¬t.val % 16 = 15) :
    outsAt0 V c t.val t.isLt = (idleOut0, sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last point: over what the point before left. -/
theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The scoped buffers the region does not stage, apart from the accumulator. -/
abbrev rest0 (c : Dev nD) : sProp 𝕄 :=
  Pipeline.scopedRestBut (Ix := Unit) (Name := ℕ) (U := UR sig nD τ) (Lvl := ℕ) (Val := Elt F) spec0 c [cc0_scratch0]

/-- The invariant before position `n`: before the first point every scoped buffer the region does not stage at anything;
    afterwards the accumulator at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The two input windows read ONE array, so each holds half of it; the output window holds its array whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem q0_0 (c : Dev nD) : (dat0 V c).q 0 = fullShare.left := by dsimp only [dat0]
theorem q0_1 (c : Dev nD) : (dat0 V c).q 1 = fullShare.right := by dsimp only [dat0]
theorem owed0 (c : Dev nD) (t) : (dat0 V c).owed t = 0 := rfl
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms say which case the point is in; the invariant hands the body the accumulator at
    what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C sout0_C; (try dsimp only)
    rw [PhiS_castSucc V c t, PhiS_pos V c _ _ hz]
    iintro ⟨⟨⟨HS0, Hrest⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_C c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [outsAt0_A V c t h0 h1]
      unfold sout0_A; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexists _; iexact H2
    · have hz : t.val ≠ 0 := by omega
      rw [outsAt0_B V c t h0 h1]
      unfold sout0_B; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.Region1.lean ====
import proofs.«137111_j70342974374329_2_alg».proof.Proof.Gen.KernelIdeal.Launch
import proofs.«137111_j70342974374329_2_alg».proof.Proof.Gen.KernelIdeal.Skeleton
import proofs.«137111_j70342974374329_2_alg».proof.Proof.Gen.KernelIdeal.Points
import proofs.«137111_j70342974374329_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the body of `cc1__proj_kernel` at a grid point

The kernel reads six staged blocks — a 512-row block of the pooled features and of the input features, and the
two weight matrices and two bias vectors whole — and stores one 512 × 256 block: the pooled rows times the first
weights plus the first bias, plus the feature rows times the second weights, plus the second bias.
Nothing is carried from point to point: what the body leaves in the output buffer is one function of the six
input blocks, and each input buffer is left as found. Stated for any float instance.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there
    (a block whose index did not move is still in the buffer). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it was fetched there
    (a block whose index did not move is still in the buffer). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it was fetched there
    (a block whose index did not move is still in the buffer). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not it was fetched there
    (a block whose index did not move is still in the buffer). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not it was fetched there
    (a block whose index did not move is still in the buffer). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not it was fetched there
    (a block whose index did not move is still in the buffer). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x256 := Rect.unit (s := S512x256) ![0, 0] S512x256.size inb_S512x256_S512x256_0_0
abbrev r1_1 : Rect S512x128 := Rect.unit (s := S512x128) ![0, 0] S512x128.size inb_S512x128_S512x128_0_0
abbrev r1_2 : Rect S256x256 := Rect.unit (s := S256x256) ![0, 0] S256x256.size inb_S256x256_S256x256_0_0
abbrev r1_3 : Rect S256 := Rect.unit (s := S256) ![0] S256.size inb_S256_S256_0
abbrev r1_4 : Rect S128x256 := Rect.unit (s := S128x256) ![0, 0] S128x256.size inb_S128x256_S128x256_0_0
abbrev r1_5 : Rect S256 := Rect.unit (s := S256) ![0] S256.size inb_S256_S256_0
abbrev r1_6 : Rect S512x256 := Rect.unit (s := S512x256) ![0, 0] S512x256.size inb_S512x256_S512x256_0_0

/-! ## What the body leaves in the output window's buffer -/

/-- Window 6's staging buffer after the body, from the six input blocks: its one store, through the whole buffer,
    of the kernel's arithmetic on what the loads read. -/
def out1_6 (x0 : Vec F S512x256 .f32) (x1 : Vec F S512x128 .f32) (x2 : Vec F S256x256 .f32) (x3 : Vec F S256 .f32) (x4 : Vec F S128x256 .f32) (x5 : Vec F S256 .f32) : Vec F S512x256 .bf16 :=
  View.canon [⟨r1_6, k1_pay1 (View.ld x0 r1_0) (View.ld x1 r1_1) (View.ld x2 r1_2) (View.ld x4 r1_4) (View.ld x3 r1_3) (View.ld x5 r1_5)⟩]

/-! ## The body's triple -/

set_option maxHeartbeats 1000000 in
/-- The kernel body on whole staging memrefs, the inputs' at read contents `x0 … x5` and the output's at anything, runs
    to the continuation holding the inputs' as they were and the output's at `out1_6` of the inputs'. The output
    buffer is loaded before it is stored; the loaded value is unused, and the store through the whole buffer leaves
    its payload whatever was there. -/
theorem sound_kernel1 (c : Dev nD) (E : Set ℕ) (i : grid1.Coords) (arg1 : Memref sig .tc .vmem S512x256 .f32) (harg1 : arg1.IsWhole) (arg2 : Memref sig .tc .vmem S512x128 .f32) (harg2 : arg2.IsWhole) (arg3 : Memref sig .tc .vmem S256x256 .f32) (harg3 : arg3.IsWhole) (arg4 : Memref sig .tc .vmem S256 .f32) (harg4 : arg4.IsWhole) (arg5 : Memref sig .tc .vmem S128x256 .f32) (harg5 : arg5.IsWhole) (arg6 : Memref sig .tc .vmem S256 .f32) (harg6 : arg6.IsWhole) (arg7 : Memref sig .tc .vmem S512x256 .bf16) (harg7 : arg7.IsWhole)
    (x0 : Vec F S512x256 .f32) (x1 : Vec F S512x128 .f32) (x2 : Vec F S256x256 .f32) (x3 : Vec F S256 .f32) (x4 : Vec F S128x256 .f32) (x5 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__proj_kernel i arg1 harg1 arg2 harg2 arg3 harg3 arg4 harg4 arg5 harg5 arg6 harg6 arg7 harg7) K := by
  simp only [cc1__proj_kernel_eq_skeleton]; unfold cc1__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold out1_6
  rw [View.canon_unit_zero (S := S512x256) hz2]
  exact read_writes_whole (S := S512x256) _ _ hz2 _ _ []

/-! ## The pipeline's proof data -/

/-- The proof data of pipeline 1 on core `c`: the arrays as the region finds them; after the body at point `t`
    each input's buffer at its block and the output's at `out1_6` of the input blocks; the invariant holds the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The shares: every array whole. -/
theorem q1 (c : Dev nD) (w : Fin cfg1.W) : (dat1 V c).q w = fullShare := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' memrefs hold their blocks, so the kernel's triple applies; the invariant and
    the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«137111_j70342974374329_2_alg».proof.Proof.Gen.KernelIdeal.Launch
import proofs.«137111_j70342974374329_2_alg».proof.Proof.Gen.KernelIdeal.Skeleton
import proofs.«137111_j70342974374329_2_alg».proof.Proof.Gen.KernelIdeal.Points
import proofs.«137111_j70342974374329_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the body of `cc2__mp_kernel` at a grid point

The kernel reads six staged blocks — a 512-row block of the adjacency, the same 512 rows of the node features,
the node features whole, and two weight matrices and a bias vector whole — and stores one 512 × 256 block: the
block's rows times the self weights, plus (adjacency rows times all the features) times the neighbour weights, plus
the bias, clamped below at zero. The rows block and the whole feature array are two windows on ONE array, so the
array is held at two half shares.
Nothing is carried from point to point: what the body leaves in the output buffer is one function of the six
input blocks, and each input buffer is left as found. Stated for any float instance.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there
    (a block whose index did not move is still in the buffer). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it was fetched there
    (a block whose index did not move is still in the buffer). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it was fetched there
    (a block whose index did not move is still in the buffer). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it was fetched there
    (a block whose index did not move is still in the buffer). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether or not it was fetched there
    (a block whose index did not move is still in the buffer). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether or not it was fetched there
    (a block whose index did not move is still in the buffer). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x4096 := Rect.unit (s := S512x4096) ![0, 0] S512x4096.size inb_S512x4096_S512x4096_0_0
abbrev r2_1 : Rect S512x256 := Rect.unit (s := S512x256) ![0, 0] S512x256.size inb_S512x256_S512x256_0_0
abbrev r2_2 : Rect S4096x256 := Rect.unit (s := S4096x256) ![0, 0] S4096x256.size inb_S4096x256_S4096x256_0_0
abbrev r2_3 : Rect S256x256 := Rect.unit (s := S256x256) ![0, 0] S256x256.size inb_S256x256_S256x256_0_0
abbrev r2_4 : Rect S256x256 := Rect.unit (s := S256x256) ![0, 0] S256x256.size inb_S256x256_S256x256_0_0
abbrev r2_5 : Rect S256 := Rect.unit (s := S256) ![0] S256.size inb_S256_S256_0
abbrev r2_6 : Rect S512x256 := Rect.unit (s := S512x256) ![0, 0] S512x256.size inb_S512x256_S512x256_0_0

/-! ## What the body leaves in the output window's buffer -/

/-- Window 6's staging buffer after the body, from the six input blocks: its one store, through the whole buffer,
    of the kernel's arithmetic on what the loads read. -/
def out2_6 (x0 : Vec F S512x4096 .bf16) (x1 : Vec F S512x256 .bf16) (x2 : Vec F S4096x256 .bf16) (x3 : Vec F S256x256 .f32) (x4 : Vec F S256x256 .f32) (x5 : Vec F S256 .f32) : Vec F S512x256 .bf16 :=
  View.canon [⟨r2_6, k2_pay1 (View.ld x0 r2_0) (View.ld x2 r2_2) (View.ld x1 r2_1) (View.ld x3 r2_3) (View.ld x4 r2_4) (View.ld x5 r2_5)⟩]

/-! ## The body's triple -/

set_option maxHeartbeats 1000000 in
/-- The kernel body on whole staging memrefs, the inputs' at read contents `x0 … x5` and the output's at anything, runs
    to the continuation holding the inputs' as they were and the output's at `out2_6` of the inputs'. The output
    buffer is loaded before it is stored; the loaded value is unused, and the store through the whole buffer leaves
    its payload whatever was there. -/
theorem sound_kernel2 (c : Dev nD) (E : Set ℕ) (i : grid2.Coords) (arg1 : Memref sig .tc .vmem S512x4096 .bf16) (harg1 : arg1.IsWhole) (arg2 : Memref sig .tc .vmem S512x256 .bf16) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S512x256 .bf16) (harg7 : arg7.IsWhole)
    (x0 : Vec F S512x4096 .bf16) (x1 : Vec F S512x256 .bf16) (x2 : Vec F S4096x256 .bf16) (x3 : Vec F S256x256 .f32) (x4 : Vec F S256x256 .f32) (x5 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__mp_kernel i arg1 harg1 arg2 harg2 arg3 harg3 arg4 harg4 arg5 harg5 arg6 harg6 arg7 harg7) K := by
  simp only [cc2__mp_kernel_eq_skeleton]; unfold cc2__mp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold out2_6
  rw [View.canon_unit_zero (S := S512x256) hz2]
  exact read_writes_whole (S := S512x256) _ _ hz2 _ _ []

/-! ## The pipeline's proof data -/

/-- The proof data of pipeline 2 on core `c`: the arrays as the region finds them; after the body at point `t`
    each input's buffer at its block and the output's at `out2_6` of the input blocks; the invariant holds the
    scoped rest and the generator register, untouched; nothing owed; the array staged by two windows split in halves. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

/-- The proof data's arrays are the region-entry contents. -/
theorem A_eq2 (c : Dev nD) (w : Fin cfg2.W) : (dat2 V c).A w = V c (Pipeline.arrRef spec2 w) := by
  dsimp only [dat2]

/-- The shares: the array that windows 1 and 2 both stage is held at its two halves, every other array whole. -/
theorem q2_0 (c : Dev nD) : (dat2 V c).q 0 = fullShare := by dsimp only [dat2]
theorem q2_1 (c : Dev nD) : (dat2 V c).q 1 = fullShare.left := by dsimp only [dat2]
theorem q2_2 (c : Dev nD) : (dat2 V c).q 2 = fullShare.right := by dsimp only [dat2]
theorem q2_3 (c : Dev nD) : (dat2 V c).q 3 = fullShare := by dsimp only [dat2]
theorem q2_4 (c : Dev nD) : (dat2 V c).q 4 = fullShare := by dsimp only [dat2]
theorem q2_5 (c : Dev nD) : (dat2 V c).q 5 = fullShare := by dsimp only [dat2]
theorem q2_6 (c : Dev nD) : (dat2 V c).q 6 = fullShare := by dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' memrefs hold their blocks, so the kernel's triple applies; the invariant and
    the core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«137111_j70342974374329_2_alg».proof.Proof.Gen.KernelIdeal.Launch
import proofs.«137111_j70342974374329_2_alg».proof.Proof.Gen.KernelIdeal.Skeleton
import proofs.«137111_j70342974374329_2_alg».proof.Proof.Gen.KernelIdeal.Points
import proofs.«137111_j70342974374329_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the body of `cc3__mp_kernel` at a grid point

The kernel reads six staged blocks — a 512-row block of the adjacency, the same 512 rows of the node features,
the node features whole, and two weight matrices and a bias vector whole — and stores one 512 × 256 block: the
block's rows times the self weights, plus (adjacency rows times all the features) times the neighbour weights, plus
the bias, clamped below at zero. The rows block and the whole feature array are two windows on ONE array, so the
array is held at two half shares.
Nothing is carried from point to point: what the body leaves in the output buffer is one function of the six
input blocks, and each input buffer is left as found. Stated for any float instance.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it was fetched there
    (a block whose index did not move is still in the buffer). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not it was fetched there
    (a block whose index did not move is still in the buffer). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not it was fetched there
    (a block whose index did not move is still in the buffer). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not it was fetched there
    (a block whose index did not move is still in the buffer). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether or not it was fetched there
    (a block whose index did not move is still in the buffer). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether or not it was fetched there
    (a block whose index did not move is still in the buffer). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x4096 := Rect.unit (s := S512x4096) ![0, 0] S512x4096.size inb_S512x4096_S512x4096_0_0
abbrev r3_1 : Rect S512x256 := Rect.unit (s := S512x256) ![0, 0] S512x256.size inb_S512x256_S512x256_0_0
abbrev r3_2 : Rect S4096x256 := Rect.unit (s := S4096x256) ![0, 0] S4096x256.size inb_S4096x256_S4096x256_0_0
abbrev r3_3 : Rect S256x256 := Rect.unit (s := S256x256) ![0, 0] S256x256.size inb_S256x256_S256x256_0_0
abbrev r3_4 : Rect S256x256 := Rect.unit (s := S256x256) ![0, 0] S256x256.size inb_S256x256_S256x256_0_0
abbrev r3_5 : Rect S256 := Rect.unit (s := S256) ![0] S256.size inb_S256_S256_0
abbrev r3_6 : Rect S512x256 := Rect.unit (s := S512x256) ![0, 0] S512x256.size inb_S512x256_S512x256_0_0

/-! ## What the body leaves in the output window's buffer -/

/-- Window 6's staging buffer after the body, from the six input blocks: its one store, through the whole buffer,
    of the kernel's arithmetic on what the loads read. -/
def out3_6 (x0 : Vec F S512x4096 .bf16) (x1 : Vec F S512x256 .bf16) (x2 : Vec F S4096x256 .bf16) (x3 : Vec F S256x256 .f32) (x4 : Vec F S256x256 .f32) (x5 : Vec F S256 .f32) : Vec F S512x256 .f32 :=
  View.canon [⟨r3_6, k3_pay1 (View.ld x0 r3_0) (View.ld x2 r3_2) (View.ld x1 r3_1) (View.ld x3 r3_3) (View.ld x4 r3_4) (View.ld x5 r3_5)⟩]

/-! ## The body's triple -/

set_option maxHeartbeats 1000000 in
/-- The kernel body on whole staging memrefs, the inputs' at read contents `x0 … x5` and the output's at anything, runs
    to the continuation holding the inputs' as they were and the output's at `out3_6` of the inputs'. The output
    buffer is loaded before it is stored; the loaded value is unused, and the store through the whole buffer leaves
    its payload whatever was there. -/
theorem sound_kernel3 (c : Dev nD) (E : Set ℕ) (i : grid3.Coords) (arg1 : Memref sig .tc .vmem S512x4096 .bf16) (harg1 : arg1.IsWhole) (arg2 : Memref sig .tc .vmem S512x256 .bf16) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S512x256 .f32) (harg7 : arg7.IsWhole)
    (x0 : Vec F S512x4096 .bf16) (x1 : Vec F S512x256 .bf16) (x2 : Vec F S4096x256 .bf16) (x3 : Vec F S256x256 .f32) (x4 : Vec F S256x256 .f32) (x5 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__mp_kernel i arg1 harg1 arg2 harg2 arg3 harg3 arg4 harg4 arg5 harg5 arg6 harg6 arg7 harg7) K := by
  simp only [cc3__mp_kernel_eq_skeleton]; unfold cc3__mp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold out3_6
  rw [View.canon_unit_zero (S := S512x256) hz2]
  exact read_writes_whole (S := S512x256) _ _ hz2 _ _ []

/-! ## The pipeline's proof data -/

/-- The proof data of pipeline 3 on core `c`: the arrays as the region finds them; after the body at point `t`
    each input's buffer at its block and the output's at `out3_6` of the input blocks; the invariant holds the
    scoped rest and the generator register, untouched; nothing owed; the array staged by two windows split in halves. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

/-- The proof data's arrays are the region-entry contents. -/
theorem A_eq3 (c : Dev nD) (w : Fin cfg3.W) : (dat3 V c).A w = V c (Pipeline.arrRef spec3 w) := by
  dsimp only [dat3]

/-- The shares: the array that windows 1 and 2 both stage is held at its two halves, every other array whole. -/
theorem q3_0 (c : Dev nD) : (dat3 V c).q 0 = fullShare := by dsimp only [dat3]
theorem q3_1 (c : Dev nD) : (dat3 V c).q 1 = fullShare.left := by dsimp only [dat3]
theorem q3_2 (c : Dev nD) : (dat3 V c).q 2 = fullShare.right := by dsimp only [dat3]
theorem q3_3 (c : Dev nD) : (dat3 V c).q 3 = fullShare := by dsimp only [dat3]
theorem q3_4 (c : Dev nD) : (dat3 V c).q 4 = fullShare := by dsimp only [dat3]
theorem q3_5 (c : Dev nD) : (dat3 V c).q 5 = fullShare := by dsimp only [dat3]
theorem q3_6 (c : Dev nD) : (dat3 V c).q 6 = fullShare := by dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' memrefs hold their blocks, so the kernel's triple applies; the invariant and
    the core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Fold.lean ====
import proofs.«137111_j70342974374329_2_alg».proof.Proof.Gen.KernelIdeal.Regions
import proofs.«137111_j70342974374329_2_alg».proof.Proof.KI.R0Frame
import proofs.«137111_j70342974374329_2_alg».proof.Proof.KI.Region1
import proofs.«137111_j70342974374329_2_alg».proof.Proof.KI.Region2
import proofs.«137111_j70342974374329_2_alg».proof.Proof.KI.Region3

/-!
# The contents of every buffer at each boundary between two items of @main

A fold from the launch memory: a stretch of host operations applies them; a region changes its output's array alone, to
what its write-backs leave. Every region's proof data is stated at the contents its region is entered with.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

/-! ## The contents at each boundary -/

/-- After the first stretch of host operations: what region 0 finds. -/
abbrev W1 (c : Dev nD) : Valuation τ sig (Elt F) := Gen.V1 m c
abbrev B1 (c : Dev nD) (b : Ref sig .tc) : Buf (Elt F) ((c : Thread nD τ).loc b) := W1 m c b
/-- What region 0 leaves in its output's array (the adjacency). -/
def o0 (c : Dev nD) : Buf (Elt F) ((c : Thread nD τ).loc main_v29) := (dat0 (B1 m) c).arrAt 2 cfg0.N
/-- After region 0: what region 1 finds. -/
abbrev W2 (c : Dev nD) : Valuation τ sig (Elt F) := Function.update (W1 m c) (Proc.devRef .tc main_v29) (o0 m c)
abbrev B2 (c : Dev nD) (b : Ref sig .tc) : Buf (Elt F) ((c : Thread nD τ).loc b) := W2 m c b
/-- What region 1 leaves in its output's array (the projected features). -/
def o1 (c : Dev nD) : Buf (Elt F) ((c : Thread nD τ).loc main_v30) := (dat1 (B2 m) c).arrAt 6 cfg1.N
abbrev W3 (c : Dev nD) : Valuation τ sig (Elt F) := Function.update (W2 m c) (Proc.devRef .tc main_v30) (o1 m c)
/-- After the layer-0 slices: what region 2 finds. -/
abbrev W4 (c : Dev nD) : Valuation τ sig (Elt F) := StableHlo.after hostOps2 (W3 m c)
abbrev B4 (c : Dev nD) (b : Ref sig .tc) : Buf (Elt F) ((c : Thread nD τ).loc b) := W4 m c b
/-- What region 2 leaves in its output's array (the first layer's features). -/
def o2 (c : Dev nD) : Buf (Elt F) ((c : Thread nD τ).loc main_v37) := (dat2 (B4 m) c).arrAt 6 cfg2.N
abbrev W5 (c : Dev nD) : Valuation τ sig (Elt F) := Function.update (W4 m c) (Proc.devRef .tc main_v37) (o2 m c)
/-- After the layer-1 slices: what region 3 finds. -/
abbrev W6 (c : Dev nD) : Valuation τ sig (Elt F) := StableHlo.after hostOps3 (W5 m c)
abbrev B6 (c : Dev nD) (b : Ref sig .tc) : Buf (Elt F) ((c : Thread nD τ).loc b) := W6 m c b
/-- What region 3 leaves in its output's array: the program's result. -/
def o3 (c : Dev nD) : Buf (Elt F) ((c : Thread nD τ).loc main_v44) := (dat3 (B6 m) c).arrAt 6 cfg3.N
abbrev W7 (c : Dev nD) : Valuation τ sig (Elt F) := Function.update (W6 m c) (Proc.devRef .tc main_v44) (o3 m c)

/-- What the regions leave, as one family indexed by the boundary and the buffer. -/
def outs : Gen.Outs (F := F) := fun _ r c =>
  if h : r = main_v29 then h ▸ o0 m c else if h : r = main_v30 then h ▸ o1 m c
  else if h : r = main_v37 then h ▸ o2 m c else if h : r = main_v44 then h ▸ o3 m c else m ((c : Thread nD τ).loc r)

theorem outs_v29 (J : ℕ) (c : Dev nD) : outs m J main_v29 c = o0 m c := by unfold outs; rw [dif_pos rfl]
theorem outs_v30 (J : ℕ) (c : Dev nD) : outs m J main_v30 c = o1 m c := by unfold outs; rw [dif_neg (by decide), dif_pos rfl]
theorem outs_v37 (J : ℕ) (c : Dev nD) : outs m J main_v37 c = o2 m c := by unfold outs; rw [dif_neg (by decide), dif_neg (by decide), dif_pos rfl]
theorem outs_v44 (J : ℕ) (c : Dev nD) : outs m J main_v44 c = o3 m c := by unfold outs; rw [dif_neg (by decide), dif_neg (by decide), dif_neg (by decide), dif_pos rfl]

theorem V2_eq (c : Dev nD) : Gen.V2 m (outs m) c = W2 m c := by
  show Function.update (Gen.V1 m c) _ (outs m 2 main_v29 c) = _; rw [outs_v29]
theorem V3_eq (c : Dev nD) : Gen.V3 m (outs m) c = W3 m c := by
  show Function.update (Gen.V2 m (outs m) c) _ (outs m 3 main_v30 c) = _; rw [outs_v30, V2_eq]
theorem V4_eq (c : Dev nD) : Gen.V4 m (outs m) c = W4 m c := by
  show StableHlo.after hostOps2 (Gen.V3 m (outs m) c) = _; rw [V3_eq]
theorem V5_eq (c : Dev nD) : Gen.V5 m (outs m) c = W5 m c := by
  show Function.update (Gen.V4 m (outs m) c) _ (outs m 5 main_v37 c) = _; rw [outs_v37, V4_eq]
theorem V6_eq (c : Dev nD) : Gen.V6 m (outs m) c = W6 m c := by
  show StableHlo.after hostOps3 (Gen.V5 m (outs m) c) = _; rw [V5_eq]
theorem V7_eq (c : Dev nD) : Gen.V7 m (outs m) c = W7 m c := by
  show Function.update (Gen.V6 m (outs m) c) _ (outs m 7 main_v44 c) = _; rw [outs_v44, V6_eq]

/-! ## The proof data family and the thread state -/

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (B1 m) c
  | ⟨1, _⟩ => fun c => dat1 (B2 m) c
  | ⟨2, _⟩ => fun c => dat2 (B4 m) c
  | ⟨3, _⟩ => fun c => dat3 (B6 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- The contents region 0 leaves agree with the contents it found away from its output's array. -/
theorem W2_of_ne (c : Dev nD) (b : Ref sig .tc) (hb : b ≠ main_v29) : W2 m c b = W1 m c b :=
  Function.update_of_ne (StableHlo.devRef_ne_of_ne hb) _ _
theorem W2_out (c : Dev nD) : W2 m c main_v29 = o0 m c := Function.update_self _ _ _

/-- At region 0's exit every window's array holds what the boundary's contents say. -/
theorem hF0 (c : Dev nD) (w : Fin cfg0.W) : (dat0 (B1 m) c).arrAt w cfg0.N = W2 m c (Pipeline.arrRef spec0 w) := by
  match w with
    | ⟨0, _⟩ => exact ((dat0 (B1 m) c).arrAt_in 0 rfl _).trans ((A_eq0 (B1 m) c 0).trans (Function.update_of_ne (StableHlo.devRef_ne_of_ne (by decide)) _ _).symm)
    | ⟨1, _⟩ => exact ((dat0 (B1 m) c).arrAt_in 1 rfl _).trans ((A_eq0 (B1 m) c 1).trans (Function.update_of_ne (StableHlo.devRef_ne_of_ne (by decide)) _ _).symm)
    | ⟨2, _⟩ => exact (W2_out m c).symm

/-- The contents region 1 leaves agree with the contents it found away from its output's array. -/
theorem W3_of_ne (c : Dev nD) (b : Ref sig .tc) (hb : b ≠ main_v30) : W3 m c b = W2 m c b :=
  Function.update_of_ne (StableHlo.devRef_ne_of_ne hb) _ _
theorem W3_out (c : Dev nD) : W3 m c main_v30 = o1 m c := Function.update_self _ _ _

/-- At region 1's exit every window's array holds what the boundary's contents say. -/
theorem hF1 (c : Dev nD) (w : Fin cfg1.W) : (dat1 (B2 m) c).arrAt w cfg1.N = W3 m c (Pipeline.arrRef spec1 w) := by
  match w with
    | ⟨0, _⟩ => exact ((dat1 (B2 m) c).arrAt_in 0 rfl _).trans ((A_eq1 (B2 m) c 0).trans (Function.update_of_ne (StableHlo.devRef_ne_of_ne (by decide)) _ _).symm)
    | ⟨1, _⟩ => exact ((dat1 (B2 m) c).arrAt_in 1 rfl _).trans ((A_eq1 (B2 m) c 1).trans (Function.update_of_ne (StableHlo.devRef_ne_of_ne (by decide)) _ _).symm)
    | ⟨2, _⟩ => exact ((dat1 (B2 m) c).arrAt_in 2 rfl _).trans ((A_eq1 (B2 m) c 2).trans (Function.update_of_ne (StableHlo.devRef_ne_of_ne (by decide)) _ _).symm)
    | ⟨3, _⟩ => exact ((dat1 (B2 m) c).arrAt_in 3 rfl _).trans ((A_eq1 (B2 m) c 3).trans (Function.update_of_ne (StableHlo.devRef_ne_of_ne (by decide)) _ _).symm)
    | ⟨4, _⟩ => exact ((dat1 (B2 m) c).arrAt_in 4 rfl _).trans ((A_eq1 (B2 m) c 4).trans (Function.update_of_ne (StableHlo.devRef_ne_of_ne (by decide)) _ _).symm)
    | ⟨5, _⟩ => exact ((dat1 (B2 m) c).arrAt_in 5 rfl _).trans ((A_eq1 (B2 m) c 5).trans (Function.update_of_ne (StableHlo.devRef_ne_of_ne (by decide)) _ _).symm)
    | ⟨6, _⟩ => exact (W3_out m c).symm

/-- The contents region 2 leaves agree with the contents it found away from its output's array. -/
theorem W5_of_ne (c : Dev nD) (b : Ref sig .tc) (hb : b ≠ main_v37) : W5 m c b = W4 m c b :=
  Function.update_of_ne (StableHlo.devRef_ne_of_ne hb) _ _
theorem W5_out (c : Dev nD) : W5 m c main_v37 = o2 m c := Function.update_self _ _ _

set_option maxHeartbeats 3200000 in
/-- At region 2's exit every window's array holds what the boundary's contents say. -/
theorem hF2 (c : Dev nD) (w : Fin cfg2.W) : (dat2 (B4 m) c).arrAt w cfg2.N = W5 m c (Pipeline.arrRef spec2 w) := by
  match w with
    | ⟨0, _⟩ => exact ((dat2 (B4 m) c).arrAt_in 0 rfl _).trans ((A_eq2 (B4 m) c 0).trans (Function.update_of_ne (StableHlo.devRef_ne_of_ne (by decide)) _ _).symm)
    | ⟨1, _⟩ => exact ((dat2 (B4 m) c).arrAt_in 1 rfl _).trans ((A_eq2 (B4 m) c 1).trans (Function.update_of_ne (StableHlo.devRef_ne_of_ne (by decide)) _ _).symm)
    | ⟨2, _⟩ => exact ((dat2 (B4 m) c).arrAt_in 2 rfl _).trans ((A_eq2 (B4 m) c 2).trans (Function.update_of_ne (StableHlo.devRef_ne_of_ne (by decide)) _ _).symm)
    | ⟨3, _⟩ => exact ((dat2 (B4 m) c).arrAt_in 3 rfl _).trans ((A_eq2 (B4 m) c 3).trans (Function.update_of_ne (StableHlo.devRef_ne_of_ne (by decide)) _ _).symm)
    | ⟨4, _⟩ => exact ((dat2 (B4 m) c).arrAt_in 4 rfl _).trans ((A_eq2 (B4 m) c 4).trans (Function.update_of_ne (StableHlo.devRef_ne_of_ne (by decide)) _ _).symm)
    | ⟨5, _⟩ => exact ((dat2 (B4 m) c).arrAt_in 5 rfl _).trans ((A_eq2 (B4 m) c 5).trans (Function.update_of_ne (StableHlo.devRef_ne_of_ne (by decide)) _ _).symm)
    | ⟨6, _⟩ => exact (W5_out m c).symm

/-- The contents region 3 leaves agree with the contents it found away from its output's array. -/
theorem W7_of_ne (c : Dev nD) (b : Ref sig .tc) (hb : b ≠ main_v44) : W7 m c b = W6 m c b :=
  Function.update_of_ne (StableHlo.devRef_ne_of_ne hb) _ _
theorem W7_out (c : Dev nD) : W7 m c main_v44 = o3 m c := Function.update_self _ _ _

set_option maxHeartbeats 3200000 in
/-- At region 3's exit every window's array holds what the boundary's contents say. -/
theorem hF3 (c : Dev nD) (w : Fin cfg3.W) : (dat3 (B6 m) c).arrAt w cfg3.N = W7 m c (Pipeline.arrRef spec3 w) := by
  match w with
    | ⟨0, _⟩ => exact ((dat3 (B6 m) c).arrAt_in 0 rfl _).trans ((A_eq3 (B6 m) c 0).trans (Function.update_of_ne (StableHlo.devRef_ne_of_ne (by decide)) _ _).symm)
    | ⟨1, _⟩ => exact ((dat3 (B6 m) c).arrAt_in 1 rfl _).trans ((A_eq3 (B6 m) c 1).trans (Function.update_of_ne (StableHlo.devRef_ne_of_ne (by decide)) _ _).symm)
    | ⟨2, _⟩ => exact ((dat3 (B6 m) c).arrAt_in 2 rfl _).trans ((A_eq3 (B6 m) c 2).trans (Function.update_of_ne (StableHlo.devRef_ne_of_ne (by decide)) _ _).symm)
    | ⟨3, _⟩ => exact ((dat3 (B6 m) c).arrAt_in 3 rfl _).trans ((A_eq3 (B6 m) c 3).trans (Function.update_of_ne (StableHlo.devRef_ne_of_ne (by decide)) _ _).symm)
    | ⟨4, _⟩ => exact ((dat3 (B6 m) c).arrAt_in 4 rfl _).trans ((A_eq3 (B6 m) c 4).trans (Function.update_of_ne (StableHlo.devRef_ne_of_ne (by decide)) _ _).symm)
    | ⟨5, _⟩ => exact ((dat3 (B6 m) c).arrAt_in 5 rfl _).trans ((A_eq3 (B6 m) c 5).trans (Function.update_of_ne (StableHlo.devRef_ne_of_ne (by decide)) _ _).symm)
    | ⟨6, _⟩ => exact (W7_out m c).symm

end Cert.KernelIdeal.Hand

end
-- ==== Proof.KI.Arrays0.lean ====
import proofs.«137111_j70342974374329_2_alg».proof.Proof.KI.R0Frame

/-!
# The adjacency region's arrays: one buffer behind two windows

The membership matrix is read through two windows, so the buffer behind it, held whole, is dealt to them half and half;
the output's buffer goes to its window whole. At the exit the halves are joined again.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem img0 : Finset.univ.image (Pipeline.arrRef spec0) = {main_v28, main_v29} := by decide

theorem share0_0 (c : Dev nD) : (dat0 V c).share 0 = fullShare.left := by
  unfold Dat.share; exact (if_neg (by decide)).trans (q0_0 V c)
theorem share0_1 (c : Dev nD) : (dat0 V c).share 1 = fullShare.right := by
  unfold Dat.share; exact (if_neg (by decide)).trans (q0_1 V c)
theorem share0_2 (c : Dev nD) : (dat0 V c).share 2 = fullShare := by
  unfold Dat.share; exact if_pos (by decide)

/-- ENTRY: the two buffers, whole, make the three windows' arrays. -/
theorem arrays0_of_bufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  unfold Pipeline.arrBufs Dat.arrays
  rw [img0, bigSep_insert (by decide), bigSep_singleton, bigSep_W0]
  rw [(arr_whole0 0).set_eq_univ, (arr_whole0 2).set_eq_univ, share0_0, share0_1, share0_2, hG 0, hG 1, hG 2]
  show iprop(((c : Thread nD τ).loc main_v28 ↦{fullShare} W main_v28) ∗ ((c : Thread nD τ).loc main_v29 ↦{fullShare} W main_v29)) ⊢ _
  iintro ⟨H28, H29⟩
  ihave H := (pointsTo_share (PosShare.mem_left_op_right fullShare)).1 $$ H28
  icases H with ⟨Hl, Hr⟩
  isplitl [Hl]; · iexact Hl
  isplitl [Hr]; · iexact Hr
  iexact H29

/-- EXIT: the three windows' arrays make the two buffers, whole. -/
theorem bufs0_of_arrays (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (dat0 V c).arrays G ⊢ (Pipeline.arrBufs (Ix := Unit) (Name := ℕ) (U := UR sig nD τ) (Lvl := ℕ) spec0 c W : sProp 𝕄) := by
  unfold Pipeline.arrBufs Dat.arrays
  rw [img0, bigSep_insert (by decide), bigSep_singleton, bigSep_W0]
  rw [(arr_whole0 0).set_eq_univ, (arr_whole0 2).set_eq_univ, share0_0, share0_1, share0_2, hG 0, hG 1, hG 2]
  show _ ⊢ iprop(((c : Thread nD τ).loc main_v28 ↦{fullShare} W main_v28) ∗ ((c : Thread nD τ).loc main_v29 ↦{fullShare} W main_v29))
  iintro ⟨Hl, Hr, H29⟩
  isplitr [H29]
  · iapply (pointsTo_share (PosShare.mem_left_op_right fullShare)).2
    isplitl [Hl]; · iexact Hl
    iexact Hr
  iexact H29

end Cert.KernelIdeal.Hand

end
-- ==== Proof.KI.Arrays123.lean ====
import proofs.«137111_j70342974374329_2_alg».proof.Proof.KI.Region1
import proofs.«137111_j70342974374329_2_alg».proof.Proof.KI.Region2
import proofs.«137111_j70342974374329_2_alg».proof.Proof.KI.Region3
import proofs.«137111_j70342974374329_2_alg».proof.Proof.Gen.KernelIdeal.Launch

/-!
# The three later regions' arrays: buffers to windows and back

At a region's entry the distinct buffers behind its windows' arrays, each held whole, are dealt to the windows; at its
exit they are collected again. In the projection region the seven windows stage seven different buffers, one each. In a
message-passing region the node-feature buffer is read through two windows (its rows in blocks, and whole), so that
buffer is dealt to them half and half and joined again at the exit; every other window gets its buffer whole.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1 -/

/-- The distinct buffers behind region 1's windows. -/
theorem img1 : Finset.univ.image (Pipeline.arrRef spec1) = {main_v9, main_arg2, main_arg5, main_arg6, main_arg3, main_arg4, main_v30} := by decide

/-- The share each window's array is held at: an output's whole, an input's as the proof data say. -/
theorem share1_0 (c : Dev nD) : (dat1 V c).share 0 = fullShare := by
  unfold Dat.share; exact (if_neg (by decide)).trans (q1 V c 0)
theorem share1_1 (c : Dev nD) : (dat1 V c).share 1 = fullShare := by
  unfold Dat.share; exact (if_neg (by decide)).trans (q1 V c 1)
theorem share1_2 (c : Dev nD) : (dat1 V c).share 2 = fullShare := by
  unfold Dat.share; exact (if_neg (by decide)).trans (q1 V c 2)
theorem share1_3 (c : Dev nD) : (dat1 V c).share 3 = fullShare := by
  unfold Dat.share; exact (if_neg (by decide)).trans (q1 V c 3)
theorem share1_4 (c : Dev nD) : (dat1 V c).share 4 = fullShare := by
  unfold Dat.share; exact (if_neg (by decide)).trans (q1 V c 4)
theorem share1_5 (c : Dev nD) : (dat1 V c).share 5 = fullShare := by
  unfold Dat.share; exact (if_neg (by decide)).trans (q1 V c 5)
theorem share1_6 (c : Dev nD) : (dat1 V c).share 6 = fullShare := by
  unfold Dat.share; exact if_pos (by decide)

set_option maxHeartbeats 1600000 in
/-- ENTRY: the seven buffers, whole, make the seven windows' arrays. -/
theorem arrays1_of_bufs (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  obtain rfl : G = fun w => W (Pipeline.arrRef spec1 w) := funext hG
  unfold Pipeline.arrBufs Dat.arrays
  rw [img1, bigSep_insert (by decide), bigSep_insert (by decide), bigSep_insert (by decide), bigSep_insert (by decide), bigSep_insert (by decide), bigSep_insert (by decide), bigSep_singleton, bigSep_W1]
  rw [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ,
    share1_0, share1_1, share1_2, share1_3, share1_4, share1_5, share1_6]
  show iprop(((c : Thread nD τ).loc main_v9 ↦{fullShare} W main_v9) ∗ ((c : Thread nD τ).loc main_arg2 ↦{fullShare} W main_arg2) ∗ ((c : Thread nD τ).loc main_arg5 ↦{fullShare} W main_arg5) ∗ ((c : Thread nD τ).loc main_arg6 ↦{fullShare} W main_arg6) ∗ ((c : Thread nD τ).loc main_arg3 ↦{fullShare} W main_arg3) ∗ ((c : Thread nD τ).loc main_arg4 ↦{fullShare} W main_arg4) ∗ ((c : Thread nD τ).loc main_v30 ↦{fullShare} W main_v30)) ⊢ _
  iintro ⟨Hv9, Harg2, Harg5, Harg6, Harg3, Harg4, Hv30⟩
  isplitl [Hv9]; · iexact Hv9
  isplitl [Harg2]; · iexact Harg2
  isplitl [Harg5]; · iexact Harg5
  isplitl [Harg6]; · iexact Harg6
  isplitl [Harg3]; · iexact Harg3
  isplitl [Harg4]; · iexact Harg4
  iexact Hv30

set_option maxHeartbeats 1600000 in
/-- EXIT: the seven windows' arrays make the seven buffers, whole. -/
theorem bufs1_of_arrays (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (dat1 V c).arrays G ⊢ (Pipeline.arrBufs (Ix := Unit) (Name := ℕ) (U := UR sig nD τ) (Lvl := ℕ) spec1 c W : sProp 𝕄) := by
  obtain rfl : G = fun w => W (Pipeline.arrRef spec1 w) := funext hG
  unfold Pipeline.arrBufs Dat.arrays
  rw [img1, bigSep_insert (by decide), bigSep_insert (by decide), bigSep_insert (by decide), bigSep_insert (by decide), bigSep_insert (by decide), bigSep_insert (by decide), bigSep_singleton, bigSep_W1]
  rw [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ,
    share1_0, share1_1, share1_2, share1_3, share1_4, share1_5, share1_6]
  show _ ⊢ iprop(((c : Thread nD τ).loc main_v9 ↦{fullShare} W main_v9) ∗ ((c : Thread nD τ).loc main_arg2 ↦{fullShare} W main_arg2) ∗ ((c : Thread nD τ).loc main_arg5 ↦{fullShare} W main_arg5) ∗ ((c : Thread nD τ).loc main_arg6 ↦{fullShare} W main_arg6) ∗ ((c : Thread nD τ).loc main_arg3 ↦{fullShare} W main_arg3) ∗ ((c : Thread nD τ).loc main_arg4 ↦{fullShare} W main_arg4) ∗ ((c : Thread nD τ).loc main_v30 ↦{fullShare} W main_v30))
  iintro ⟨Hv9, Harg2, Harg5, Harg6, Harg3, Harg4, Hv30⟩
  isplitl [Hv9]; · iexact Hv9
  isplitl [Harg2]; · iexact Harg2
  isplitl [Harg5]; · iexact Harg5
  isplitl [Harg6]; · iexact Harg6
  isplitl [Harg3]; · iexact Harg3
  isplitl [Harg4]; · iexact Harg4
  iexact Hv30

/-! ## Region 2 -/

/-- The distinct buffers behind region 2's windows. -/
theorem img2 : Finset.univ.image (Pipeline.arrRef spec2) = {main_v29, main_v30, main_v32, main_v34, main_v36, main_v37} := by decide

/-- The share each window's array is held at: an output's whole, an input's as the proof data say. -/
theorem share2_0 (c : Dev nD) : (dat2 V c).share 0 = fullShare := by
  unfold Dat.share; exact (if_neg (by decide)).trans (q2_0 V c)
theorem share2_1 (c : Dev nD) : (dat2 V c).share 1 = fullShare.left := by
  unfold Dat.share; exact (if_neg (by decide)).trans (q2_1 V c)
theorem share2_2 (c : Dev nD) : (dat2 V c).share 2 = fullShare.right := by
  unfold Dat.share; exact (if_neg (by decide)).trans (q2_2 V c)
theorem share2_3 (c : Dev nD) : (dat2 V c).share 3 = fullShare := by
  unfold Dat.share; exact (if_neg (by decide)).trans (q2_3 V c)
theorem share2_4 (c : Dev nD) : (dat2 V c).share 4 = fullShare := by
  unfold Dat.share; exact (if_neg (by decide)).trans (q2_4 V c)
theorem share2_5 (c : Dev nD) : (dat2 V c).share 5 = fullShare := by
  unfold Dat.share; exact (if_neg (by decide)).trans (q2_5 V c)
theorem share2_6 (c : Dev nD) : (dat2 V c).share 6 = fullShare := by
  unfold Dat.share; exact if_pos (by decide)

set_option maxHeartbeats 1600000 in
/-- ENTRY: the six buffers, whole, make the seven windows' arrays. -/
theorem arrays2_of_bufs (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    (Pipeline.arrBufs (Ix := Unit) (Name := ℕ) (U := UR sig nD τ) (Lvl := ℕ) spec2 c W : sProp 𝕄) ⊢ (dat2 V c).arrays G := by
  obtain rfl : G = fun w => W (Pipeline.arrRef spec2 w) := funext hG
  unfold Pipeline.arrBufs Dat.arrays
  rw [img2, bigSep_insert (by decide), bigSep_insert (by decide), bigSep_insert (by decide), bigSep_insert (by decide), bigSep_insert (by decide), bigSep_singleton, bigSep_W2]
  rw [(arr_whole2 0).set_eq_univ, (arr_whole2 1).set_eq_univ, (arr_whole2 3).set_eq_univ, (arr_whole2 4).set_eq_univ, (arr_whole2 5).set_eq_univ, (arr_whole2 6).set_eq_univ,
    share2_0, share2_1, share2_2, share2_3, share2_4, share2_5, share2_6]
  show iprop(((c : Thread nD τ).loc main_v29 ↦{fullShare} W main_v29) ∗ ((c : Thread nD τ).loc main_v30 ↦{fullShare} W main_v30) ∗ ((c : Thread nD τ).loc main_v32 ↦{fullShare} W main_v32) ∗ ((c : Thread nD τ).loc main_v34 ↦{fullShare} W main_v34) ∗ ((c : Thread nD τ).loc main_v36 ↦{fullShare} W main_v36) ∗ ((c : Thread nD τ).loc main_v37 ↦{fullShare} W main_v37)) ⊢ _
  iintro ⟨Hv29, Hv30, Hv32, Hv34, Hv36, Hv37⟩
  ihave H := (pointsTo_share (PosShare.mem_left_op_right fullShare)).1 $$ Hv30
  icases H with ⟨Hl, Hr⟩
  isplitl [Hv29]; · iexact Hv29
  isplitl [Hl]; · iexact Hl
  isplitl [Hr]; · iexact Hr
  isplitl [Hv32]; · iexact Hv32
  isplitl [Hv34]; · iexact Hv34
  isplitl [Hv36]; · iexact Hv36
  iexact Hv37

set_option maxHeartbeats 1600000 in
/-- EXIT: the seven windows' arrays make the six buffers, whole. -/
theorem bufs2_of_arrays (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    (dat2 V c).arrays G ⊢ (Pipeline.arrBufs (Ix := Unit) (Name := ℕ) (U := UR sig nD τ) (Lvl := ℕ) spec2 c W : sProp 𝕄) := by
  obtain rfl : G = fun w => W (Pipeline.arrRef spec2 w) := funext hG
  unfold Pipeline.arrBufs Dat.arrays
  rw [img2, bigSep_insert (by decide), bigSep_insert (by decide), bigSep_insert (by decide), bigSep_insert (by decide), bigSep_insert (by decide), bigSep_singleton, bigSep_W2]
  rw [(arr_whole2 0).set_eq_univ, (arr_whole2 1).set_eq_univ, (arr_whole2 3).set_eq_univ, (arr_whole2 4).set_eq_univ, (arr_whole2 5).set_eq_univ, (arr_whole2 6).set_eq_univ,
    share2_0, share2_1, share2_2, share2_3, share2_4, share2_5, share2_6]
  show _ ⊢ iprop(((c : Thread nD τ).loc main_v29 ↦{fullShare} W main_v29) ∗ ((c : Thread nD τ).loc main_v30 ↦{fullShare} W main_v30) ∗ ((c : Thread nD τ).loc main_v32 ↦{fullShare} W main_v32) ∗ ((c : Thread nD τ).loc main_v34 ↦{fullShare} W main_v34) ∗ ((c : Thread nD τ).loc main_v36 ↦{fullShare} W main_v36) ∗ ((c : Thread nD τ).loc main_v37 ↦{fullShare} W main_v37))
  iintro ⟨Hv29, Hl, Hr, Hv32, Hv34, Hv36, Hv37⟩
  isplitl [Hv29]; · iexact Hv29
  isplitl [Hl Hr]
  · iapply (pointsTo_share (PosShare.mem_left_op_right fullShare)).2
    isplitl [Hl]; · iexact Hl
    iexact Hr
  isplitl [Hv32]; · iexact Hv32
  isplitl [Hv34]; · iexact Hv34
  isplitl [Hv36]; · iexact Hv36
  iexact Hv37

/-! ## Region 3 -/

/-- The distinct buffers behind region 3's windows. -/
theorem img3 : Finset.univ.image (Pipeline.arrRef spec3) = {main_v29, main_v37, main_v39, main_v41, main_v43, main_v44} := by decide

/-- The share each window's array is held at: an output's whole, an input's as the proof data say. -/
theorem share3_0 (c : Dev nD) : (dat3 V c).share 0 = fullShare := by
  unfold Dat.share; exact (if_neg (by decide)).trans (q3_0 V c)
theorem share3_1 (c : Dev nD) : (dat3 V c).share 1 = fullShare.left := by
  unfold Dat.share; exact (if_neg (by decide)).trans (q3_1 V c)
theorem share3_2 (c : Dev nD) : (dat3 V c).share 2 = fullShare.right := by
  unfold Dat.share; exact (if_neg (by decide)).trans (q3_2 V c)
theorem share3_3 (c : Dev nD) : (dat3 V c).share 3 = fullShare := by
  unfold Dat.share; exact (if_neg (by decide)).trans (q3_3 V c)
theorem share3_4 (c : Dev nD) : (dat3 V c).share 4 = fullShare := by
  unfold Dat.share; exact (if_neg (by decide)).trans (q3_4 V c)
theorem share3_5 (c : Dev nD) : (dat3 V c).share 5 = fullShare := by
  unfold Dat.share; exact (if_neg (by decide)).trans (q3_5 V c)
theorem share3_6 (c : Dev nD) : (dat3 V c).share 6 = fullShare := by
  unfold Dat.share; exact if_pos (by decide)

set_option maxHeartbeats 1600000 in
/-- ENTRY: the six buffers, whole, make the seven windows' arrays. -/
theorem arrays3_of_bufs (c : Dev nD) (W : (b : Ref sig .tc) → Buf (Elt F) ((c : Thread nD τ).loc b))
    (G : (w : Fin cfg3.W) → Buf (Elt F) ((cfg3.win w).arr.view.loc (c : Thread nD τ))) (hG : ∀ w, G w = W (Pipeline.arrRef spec3 w)) :
    (Pipeline.arrBufs (Ix := Unit) (Name := ℕ) (U := UR sig nD τ) (Lvl := ℕ) spec3 c W : sProp 𝕄) ⊢ (dat3 V c).arrays G := by
  obtain rfl : G = fun w => W (Pipeline.arrRef spec3 w) := funext hG
  unfold Pipeline.arrBufs Dat.arrays
  rw [img3, bigSep_insert (by decide), bigSep_insert (by decide), bigSep_insert (by decide), bigSep_insert (by decide), bigSep_insert (by decide), bigSep_singleton, bigSep_W3]
  rw [(arr_whole3 0).set_eq_univ, (arr_whole3 1).set_eq_univ, (arr_whole3 3).set_eq_univ, (arr_whole3 4).set_eq_univ, (arr_whole3 5).set_eq_univ, (arr_whole3 6).set_eq_univ,
    share3_0, share3_1, share3_2, share3_3, share3_4, share3_5, share3_6]
  show iprop(((c : Thread nD τ).loc main_v29 ↦{fullShare} W main_v29) ∗ ((c : Thread nD τ).loc main_v37 ↦{fullShare} W main_v37) ∗ ((c : Thread nD τ).loc main_v39 ↦{fullShare} W main_v39) ∗ ((c : Thread nD τ).loc main_v41 ↦{fullShare} W main_v41) ∗ ((c : Thread nD τ).loc main_v43 ↦{fullShare} W main_v43) ∗ ((c : Thread nD τ).loc main_v44 ↦{fullShare} W main_v44)) ⊢ _
  iintro ⟨Hv29, Hv37, Hv39, Hv41, Hv43, Hv44⟩
  ihave H := (pointsTo_share (PosShare.mem_left_op_right fullShare)).1 $$ Hv37
  icases H with ⟨Hl, Hr⟩
  isplitl [Hv29]; · iexact Hv29
  isplitl [Hl]; · iexact Hl
  isplitl [Hr]; · iexact Hr
  isplitl [Hv39]; · iexact Hv39
  isplitl [Hv41]; · iexact Hv41
  isplitl [Hv43]; · iexact Hv43
  iexact Hv44

set_option maxHeartbeats 1600000 in
/-- EXIT: the seven windows' arrays make the six buffers, whole. -/
theorem bufs3_of_arrays (c : Dev nD) (W : (b : Ref sig .tc) → Buf (Elt F) ((c : Thread nD τ).loc b))
    (G : (w : Fin cfg3.W) → Buf (Elt F) ((cfg3.win w).arr.view.loc (c : Thread nD τ))) (hG : ∀ w, G w = W (Pipeline.arrRef spec3 w)) :
    (dat3 V c).arrays G ⊢ (Pipeline.arrBufs (Ix := Unit) (Name := ℕ) (U := UR sig nD τ) (Lvl := ℕ) spec3 c W : sProp 𝕄) := by
  obtain rfl : G = fun w => W (Pipeline.arrRef spec3 w) := funext hG
  unfold Pipeline.arrBufs Dat.arrays
  rw [img3, bigSep_insert (by decide), bigSep_insert (by decide), bigSep_insert (by decide), bigSep_insert (by decide), bigSep_insert (by decide), bigSep_singleton, bigSep_W3]
  rw [(arr_whole3 0).set_eq_univ, (arr_whole3 1).set_eq_univ, (arr_whole3 3).set_eq_univ, (arr_whole3 4).set_eq_univ, (arr_whole3 5).set_eq_univ, (arr_whole3 6).set_eq_univ,
    share3_0, share3_1, share3_2, share3_3, share3_4, share3_5, share3_6]
  show _ ⊢ iprop(((c : Thread nD τ).loc main_v29 ↦{fullShare} W main_v29) ∗ ((c : Thread nD τ).loc main_v37 ↦{fullShare} W main_v37) ∗ ((c : Thread nD τ).loc main_v39 ↦{fullShare} W main_v39) ∗ ((c : Thread nD τ).loc main_v41 ↦{fullShare} W main_v41) ∗ ((c : Thread nD τ).loc main_v43 ↦{fullShare} W main_v43) ∗ ((c : Thread nD τ).loc main_v44 ↦{fullShare} W main_v44))
  iintro ⟨Hv29, Hl, Hr, Hv39, Hv41, Hv43, Hv44⟩
  isplitl [Hv29]; · iexact Hv29
  isplitl [Hl Hr]
  · iapply (pointsTo_share (PosShare.mem_left_op_right fullShare)).2
    isplitl [Hl]; · iexact Hl
    iexact Hr
  isplitl [Hv39]; · iexact Hv39
  isplitl [Hv41]; · iexact Hv41
  isplitl [Hv43]; · iexact Hv43
  iexact Hv44

end Cert.KernelIdeal.Hand

end
-- ==== Proof.KI.Exits.lean ====
import proofs.«137111_j70342974374329_2_alg».proof.Proof.KI.Arrays0
import proofs.«137111_j70342974374329_2_alg».proof.Proof.KI.Arrays123

/-!
# Leaving a region: the windows' arrays and the other unscoped buffers make every unscoped buffer again

Stated over arbitrary contents, so that nothing about a particular boundary of the program is unfolded here.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
set_option maxHeartbeats 3200000 in
/-- EXIT of region 0, over any contents: the windows' arrays at `G` and the other unscoped buffers at `W` are every unscoped
    buffer at any `W'` that has the arrays at `G` and agrees with `W` elsewhere. -/
theorem exit0 (V : (c : Dev nD) → (b : Ref sig .tc) → Buf (Elt F) ((c : Thread nD τ).loc b)) (c : Dev nD) (W W' : Valuation τ sig (Elt F))
    (G : (w : Fin cfg0.W) → Buf (Elt F) ((cfg0.win w).arr.view.loc (c : Thread nD τ)))
    (hG : ∀ w, G w = W' (Pipeline.arrRef spec0 w))
    (hrest : ∀ b : Ref sig .tc, b ∉ Finset.univ.image (Pipeline.arrRef spec0) → W' b = W b) :
    iprop((dat0 V c).arrays G ∗ Pipeline.unscopedRest (Ix := Unit) (Name := ℕ) (U := UR sig nD τ) (Lvl := ℕ) spec0 c (fun b => W b))
      ⊢ (StableHlo.held (c : Thread nD τ) (Pipeline.ucRefs τ sig) W' : sProp 𝕄) := by
  rw [← Pipeline.unscopedBufs_held c W', Pipeline.unscopedBufs_split₀ cfgs 0 winFacts₀0.arr_unscoped c (fun b => W' b)]
  refine sep_mono (bufs0_of_arrays V c (fun b => W' b) G hG) (Entails.of_eq ?_)
  unfold Pipeline.unscopedRest
  exact bigSep_congr fun b hb => by
    have e : W' b = W b := hrest b (Finset.mem_sdiff.mp hb).2
    dsimp only
    rw [e]

set_option backward.isDefEq.respectTransparency.types false in
set_option maxHeartbeats 3200000 in
/-- EXIT of region 1, over any contents: the windows' arrays at `G` and the other unscoped buffers at `W` are every unscoped
    buffer at any `W'` that has the arrays at `G` and agrees with `W` elsewhere. -/
theorem exit1 (V : (c : Dev nD) → (b : Ref sig .tc) → Buf (Elt F) ((c : Thread nD τ).loc b)) (c : Dev nD) (W W' : Valuation τ sig (Elt F))
    (G : (w : Fin cfg1.W) → Buf (Elt F) ((cfg1.win w).arr.view.loc (c : Thread nD τ)))
    (hG : ∀ w, G w = W' (Pipeline.arrRef spec1 w))
    (hrest : ∀ b : Ref sig .tc, b ∉ Finset.univ.image (Pipeline.arrRef spec1) → W' b = W b) :
    iprop((dat1 V c).arrays G ∗ Pipeline.unscopedRest (Ix := Unit) (Name := ℕ) (U := UR sig nD τ) (Lvl := ℕ) spec1 c (fun b => W b))
      ⊢ (StableHlo.held (c : Thread nD τ) (Pipeline.ucRefs τ sig) W' : sProp 𝕄) := by
  rw [← Pipeline.unscopedBufs_held c W', Pipeline.unscopedBufs_split₀ cfgs 1 launch1.win.arr_unscoped c (fun b => W' b)]
  refine sep_mono (bufs1_of_arrays V c (fun b => W' b) G hG) (Entails.of_eq ?_)
  unfold Pipeline.unscopedRest
  exact bigSep_congr fun b hb => by
    have e : W' b = W b := hrest b (Finset.mem_sdiff.mp hb).2
    dsimp only
    rw [e]

set_option backward.isDefEq.respectTransparency.types false in
set_option maxHeartbeats 3200000 in
/-- EXIT of region 2, over any contents: the windows' arrays at `G` and the other unscoped buffers at `W` are every unscoped
    buffer at any `W'` that has the arrays at `G` and agrees with `W` elsewhere. -/
theorem exit2 (V : (c : Dev nD) → (b : Ref sig .tc) → Buf (Elt F) ((c : Thread nD τ).loc b)) (c : Dev nD) (W W' : Valuation τ sig (Elt F))
    (G : (w : Fin cfg2.W) → Buf (Elt F) ((cfg2.win w).arr.view.loc (c : Thread nD τ)))
    (hG : ∀ w, G w = W' (Pipeline.arrRef spec2 w))
    (hrest : ∀ b : Ref sig .tc, b ∉ Finset.univ.image (Pipeline.arrRef spec2) → W' b = W b) :
    iprop((dat2 V c).arrays G ∗ Pipeline.unscopedRest (Ix := Unit) (Name := ℕ) (U := UR sig nD τ) (Lvl := ℕ) spec2 c (fun b => W b))
      ⊢ (StableHlo.held (c : Thread nD τ) (Pipeline.ucRefs τ sig) W' : sProp 𝕄) := by
  rw [← Pipeline.unscopedBufs_held c W', Pipeline.unscopedBufs_split₀ cfgs 2 winFacts₀2.arr_unscoped c (fun b => W' b)]
  refine sep_mono (bufs2_of_arrays V c (fun b => W' b) G hG) (Entails.of_eq ?_)
  unfold Pipeline.unscopedRest
  exact bigSep_congr fun b hb => by
    have e : W' b = W b := hrest b (Finset.mem_sdiff.mp hb).2
    dsimp only
    rw [e]

set_option backward.isDefEq.respectTransparency.types false in
set_option maxHeartbeats 3200000 in
/-- EXIT of region 3, over any contents: the windows' arrays at `G` and the other unscoped buffers at `W` are every unscoped
    buffer at any `W'` that has the arrays at `G` and agrees with `W` elsewhere. -/
theorem exit3 (V : (c : Dev nD) → (b : Ref sig .tc) → Buf (Elt F) ((c : Thread nD τ).loc b)) (c : Dev nD) (W W' : Valuation τ sig (Elt F))
    (G : (w : Fin cfg3.W) → Buf (Elt F) ((cfg3.win w).arr.view.loc (c : Thread nD τ)))
    (hG : ∀ w, G w = W' (Pipeline.arrRef spec3 w))
    (hrest : ∀ b : Ref sig .tc, b ∉ Finset.univ.image (Pipeline.arrRef spec3) → W' b = W b) :
    iprop((dat3 V c).arrays G ∗ Pipeline.unscopedRest (Ix := Unit) (Name := ℕ) (U := UR sig nD τ) (Lvl := ℕ) spec3 c (fun b => W b))
      ⊢ (StableHlo.held (c : Thread nD τ) (Pipeline.ucRefs τ sig) W' : sProp 𝕄) := by
  rw [← Pipeline.unscopedBufs_held c W', Pipeline.unscopedBufs_split₀ cfgs 3 winFacts₀3.arr_unscoped c (fun b => W' b)]
  refine sep_mono (bufs3_of_arrays V c (fun b => W' b) G hG) (Entails.of_eq ?_)
  unfold Pipeline.unscopedRest
  exact bigSep_congr fun b hb => by
    have e : W' b = W b := hrest b (Finset.mem_sdiff.mp hb).2
    dsimp only
    rw [e]

end Cert.KernelIdeal.Hand

end
-- ==== Proof.KI.Reg0.lean ====
import proofs.«137111_j70342974374329_2_alg».proof.Proof.KI.Fold
import proofs.«137111_j70342974374329_2_alg».proof.Proof.KI.Exits

/-!
# Region 0 as a segment of @main

Entered from "every unscoped buffer at the boundary's contents, the generator register at some state, nothing owed", and
left at the same with its output's array changed: its arrays are split out of the unscoped buffers at the entry (an array
read through two windows dealt to them by halves) and put back at the exit.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

set_option backward.isDefEq.respectTransparency.types false in
/-- REGION 0 over the thread state: entered from every unscoped buffer at `W1`, left at `W2`. -/
def reg0 : RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (fun b => W1 m c b)
  hentry c := by
    rw [Pipeline.ownSems0_none]
    have hsplit : (StableHlo.held (c : Thread nD τ) (Pipeline.ucRefs τ sig) (W1 m c) : sProp 𝕄)
        ⊢ iprop((pdats m 0 c).arrays ((pdats m 0 c).arrAt · 0) ∗ Pipeline.unscopedRest spec0 c (B1 m c)) := by
      rw [← Pipeline.unscopedBufs_held c (W1 m c), Pipeline.unscopedBufs_split₀ cfgs 0 winFacts₀0.arr_unscoped c (B1 m c)]
      exact sep_mono (arrays0_of_bufs (B1 m) c (B1 m c) _ (fun w => A_eq0 (B1 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (B1 m) c)
    unfold Pipeline.ΦA
    iintro ⟨Hp, -, Hr⟩
    isplitl [Hr]; · iexact Hr
    iexact Hp
  hout c := by
    rw [Pipeline.ownSems0_none]
    refine BIBase.Entails.trans (hout0 (B1 m) c) ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (fun b => W1 m c b))
        ⊢ (StableHlo.held (c : Thread nD τ) (Pipeline.ucRefs τ sig) (W2 m c) : sProp 𝕄) := exit0 (B1 m) c (W1 m c) (W2 m c) (fun w => (dat0 (B1 m) c).arrAt w cfg0.N) (hF0 m c)
      (fun b hb => W2_of_ne m c b fun e => hb (Finset.mem_image.mpr ⟨2, Finset.mem_univ _, e.symm⟩))
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Reg1.lean ====
import proofs.«137111_j70342974374329_2_alg».proof.Proof.KI.Fold
import proofs.«137111_j70342974374329_2_alg».proof.Proof.KI.Exits

/-!
# Region 1 as a segment of @main

Entered from "every unscoped buffer at the boundary's contents, the generator register at some state, nothing owed", and
left at the same with its output's array changed: its arrays are split out of the unscoped buffers at the entry (an array
read through two windows dealt to them by halves) and put back at the exit.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

set_option backward.isDefEq.respectTransparency.types false in
/-- REGION 1 over the thread state: entered from every unscoped buffer at `W2`, left at `W3`. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (fun b => W2 m c b)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0) ∗ Pipeline.unscopedRest spec1 c (B2 m c)) := by
      rw [← Pipeline.unscopedBufs_held c (W2 m c), Pipeline.unscopedBufs_split₀ cfgs 1 launch1.win.arr_unscoped c (B2 m c)]
      exact sep_mono (arrays1_of_bufs (B2 m) c (B2 m c) _ (fun w => A_eq1 (B2 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (fun b => W2 m c b))
        ⊢ (StableHlo.held (c : Thread nD τ) (Pipeline.ucRefs τ sig) (W3 m c) : sProp 𝕄) := exit1 (B2 m) c (W2 m c) (W3 m c) (fun w => (dat1 (B2 m) c).arrAt w cfg1.N) (hF1 m c)
      (fun b hb => W3_of_ne m c b fun e => hb (Finset.mem_image.mpr ⟨6, Finset.mem_univ _, e.symm⟩))
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Reg2.lean ====
import proofs.«137111_j70342974374329_2_alg».proof.Proof.KI.Fold
import proofs.«137111_j70342974374329_2_alg».proof.Proof.KI.Exits

/-!
# Region 2 as a segment of @main

Entered from "every unscoped buffer at the boundary's contents, the generator register at some state, nothing owed", and
left at the same with its output's array changed: its arrays are split out of the unscoped buffers at the entry (an array
read through two windows dealt to them by halves) and put back at the exit.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

set_option backward.isDefEq.respectTransparency.types false in
/-- REGION 2 over the thread state: entered from every unscoped buffer at `W4`, left at `W5`. -/
def reg2 : RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (B4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (fun b => W4 m c b)
  hentry c := by
    rw [Pipeline.ownSems0_none]
    have hsplit : (StableHlo.held (c : Thread nD τ) (Pipeline.ucRefs τ sig) (W4 m c) : sProp 𝕄)
        ⊢ iprop((pdats m 2 c).arrays ((pdats m 2 c).arrAt · 0) ∗ Pipeline.unscopedRest spec2 c (B4 m c)) := by
      rw [← Pipeline.unscopedBufs_held c (W4 m c), Pipeline.unscopedBufs_split₀ cfgs 2 winFacts₀2.arr_unscoped c (B4 m c)]
      exact sep_mono (arrays2_of_bufs (B4 m) c (B4 m c) _ (fun w => A_eq2 (B4 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (fun b => W4 m c b))
        ⊢ (StableHlo.held (c : Thread nD τ) (Pipeline.ucRefs τ sig) (W5 m c) : sProp 𝕄) := exit2 (B4 m) c (W4 m c) (W5 m c) (fun w => (dat2 (B4 m) c).arrAt w cfg2.N) (hF2 m c)
      (fun b hb => W5_of_ne m c b fun e => hb (Finset.mem_image.mpr ⟨6, Finset.mem_univ _, e.symm⟩))
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Reg3.lean ====
import proofs.«137111_j70342974374329_2_alg».proof.Proof.KI.Fold
import proofs.«137111_j70342974374329_2_alg».proof.Proof.KI.Exits

/-!
# Region 3 as a segment of @main

Entered from "every unscoped buffer at the boundary's contents, the generator register at some state, nothing owed", and
left at the same with its output's array changed: its arrays are split out of the unscoped buffers at the entry (an array
read through two windows dealt to them by halves) and put back at the exit.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

set_option backward.isDefEq.respectTransparency.types false in
/-- REGION 3 over the thread state: entered from every unscoped buffer at `W6`, left at `W7`. -/
def reg3 : RegionSeg (pcfgs (F := F)) Gen.adm (pdats m) () defs₀ 𝒱₀ L lv 3 where
  win := winFacts₀3
  block_pos := block_pos3
  stage_whole := stage_whole3
  K := PEmpty
  osem k := k.elim
  ho := Pipeline.OwnSemFacts.none _
  hbody c := (body_obligation3 (B6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (fun b => W6 m c b)
  hentry c := by
    rw [Pipeline.ownSems0_none]
    have hsplit : (StableHlo.held (c : Thread nD τ) (Pipeline.ucRefs τ sig) (W6 m c) : sProp 𝕄)
        ⊢ iprop((pdats m 3 c).arrays ((pdats m 3 c).arrAt · 0) ∗ Pipeline.unscopedRest spec3 c (B6 m c)) := by
      rw [← Pipeline.unscopedBufs_held c (W6 m c), Pipeline.unscopedBufs_split₀ cfgs 3 winFacts₀3.arr_unscoped c (B6 m c)]
      exact sep_mono (arrays3_of_bufs (B6 m) c (B6 m c) _ (fun w => A_eq3 (B6 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (fun b => W6 m c b))
        ⊢ (StableHlo.held (c : Thread nD τ) (Pipeline.ucRefs τ sig) (W7 m c) : sProp 𝕄) := exit3 (B6 m) c (W6 m c) (W7 m c) (fun w => (dat3 (B6 m) c).arrAt w cfg3.N) (hF3 m c)
      (fun b hb => W7_of_ne m c b fun e => hb (Finset.mem_image.mpr ⟨6, Finset.mem_univ _, e.symm⟩))
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«137111_j70342974374329_2_alg».proof.Proof.KI.Reg0
import proofs.«137111_j70342974374329_2_alg».proof.Proof.KI.Reg1
import proofs.«137111_j70342974374329_2_alg».proof.Proof.KI.Reg2
import proofs.«137111_j70342974374329_2_alg».proof.Proof.KI.Reg3

/-!
# The program's run: four regions among stretches of host operations

@main is the list of its seven items; each is entered from what the one before left; at the end the result buffer holds what
the last region leaves and every argument what it held at the launch.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ)

/-! ## @main as segments, and the launch -/

/-- A stretch of host operations as a segment, from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's seven items in order. -/
abbrev segs : List (Seg (pcfgs (F := F)) Gen.adm (pdats m) () defs₀ 𝒱₀ L lv) :=
  [ .host (hseg hostOps0 hostOps0_sub Gen.hostOps0_fresh (Gen.V0 m)),
    .region (reg0 m),
    .region (reg1 m),
    .host (hseg hostOps2 hostOps2_sub Gen.hostOps2_fresh (W3 m)),
    .region (reg2 m),
    .host (hseg hostOps3 hostOps3_sub Gen.hostOps3_fresh (W5 m)),
    .region (reg3 m) ]

/-- @main is the run of the segments. -/
theorem main_run (c : Dev nD) : main (F := F) c = Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: it reaches the end as launched. -/
theorem W7_arg (c : Dev nD) (b : Ref sig .tc) (h : Gen.V7 m (outs m) c b = m ((c : Thread nD τ).loc b)) :
    W7 m c b = m ((c : Thread nD τ).loc b) := (congrFun (V7_eq m c) _).symm.trans h

set_option backward.isDefEq.respectTransparency.types false in
/-- THE RUN. From any memory with zero counters every weakly fair execution of @main terminates, nothing faulting, and ends
    with the result buffer at what region 3 leaves and every argument as launched. -/
theorem run (ρ : Dev nD → PrngReg) : θ_run defs (onTc (τ := τ) (main (F := F))) ⟨m, fun _ => 0, ρ⟩ (fun r => ∀ c : Dev nD,
      r.2.mem ((c.tc : Thread nD τ).loc main_v44) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨(h c _ (mem_uc main_v44 (by decide))).trans (W7_out m c),
       (h c _ (mem_uc main_arg0 (by decide))).trans (W7_arg m c main_arg0 (Gen.V7_main_arg0 m (outs m) c)),
       (h c _ (mem_uc main_arg1 (by decide))).trans (W7_arg m c main_arg1 (Gen.V7_main_arg1 m (outs m) c)),
       (h c _ (mem_uc main_arg2 (by decide))).trans (W7_arg m c main_arg2 (Gen.V7_main_arg2 m (outs m) c)),
       (h c _ (mem_uc main_arg3 (by decide))).trans (W7_arg m c main_arg3 (Gen.V7_main_arg3 m (outs m) c)),
       (h c _ (mem_uc main_arg4 (by decide))).trans (W7_arg m c main_arg4 (Gen.V7_main_arg4 m (outs m) c)),
       (h c _ (mem_uc main_arg5 (by decide))).trans (W7_arg m c main_arg5 (Gen.V7_main_arg5 m (outs m) c)),
       (h c _ (mem_uc main_arg6 (by decide))).trans (W7_arg m c main_arg6 (Gen.V7_main_arg6 m (outs m) c)),
       (h c _ (mem_uc main_arg7 (by decide))).trans (W7_arg m c main_arg7 (Gen.V7_main_arg7 m (outs m) c)),
       (h c _ (mem_uc main_arg8 (by decide))).trans (W7_arg m c main_arg8 (Gen.V7_main_arg8 m (outs m) c)),
       (h c _ (mem_uc main_arg9 (by decide))).trans (W7_arg m c main_arg9 (Gen.V7_main_arg9 m (outs m) c))⟩)

end Cert.KernelIdeal.Hand

end
-- ==== Proof.KI.R0Pieces.lean ====
import proofs.«137111_j70342974374329_2_alg».proof.Proof.KI.R0Frame
import proofs.«137111_j70342974374329_2_alg».proof.Proof.LibWholeStore
import Idealize.ShloMosaic.Lib.Pipeline.Value

/-!
# The adjacency body's stores, as arithmetic on what it loads

At every point the accumulator ends holding the product of the point's two blocks added to what it held when the body
loaded it: the zero tile at the first point of a contraction (the body has just zeroed it), what the point before left
at the others. At the last point the output buffer ends holding the accumulated tile thresholded, its diagonal zeroed.
Each store goes through the whole buffer, so the last store into a buffer is what it holds. For any float instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- What a first point leaves in the accumulator: the product of its two blocks added to the zero tile. -/
theorem sout0_A_eq (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (x0 x1 : Vec F S1024x1024 .bf16) :
    sout0_A c i a3 h3 a4 h4 a5 h5 a6 h6 hc0 hc1 x0 x1 = k0_pay2 x0 x1 k0_pay1 := by
  unfold sout0_A
  rw [View.read_writes_junk_eq_canon]
  unfold kernelRun0_A
  dsimp only
  try sl_unfold_run_names
  refine (View.canon_cons_unit_zero (S := S1024x1024) hz2 _ _ _).trans ?_
  rw [View.readCov_unit_zero (S := S1024x1024) _ hz2]
  simp only [View.readAt_eq_ld, h3.read_unread, h4.read_unread, View.ld_unit_zero (S := S1024x1024) hz2]

/-- What an inner point leaves in the accumulator: the product of its two blocks added to what it found. -/
theorem sout0_B_eq (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (x0 x1 : Vec F S1024x1024 .bf16) (xs : Vec F S1024x1024 .f32) :
    sout0_B c i a3 h3 a4 h4 a5 h5 a6 h6 hc0 hc1 x0 x1 xs = k0_pay2 x0 x1 xs := by
  unfold sout0_B
  rw [View.read_writes_junk_eq_canon]
  unfold kernelRun0_B
  dsimp only
  try sl_unfold_run_names
  refine (View.canon_cons_unit_zero (S := S1024x1024) hz2 _ _ _).trans ?_
  simp only [View.readAt_eq_ld, h3.read_unread, h4.read_unread, h6.read_unread, View.ld_unit_zero (S := S1024x1024) hz2]

/-- What a last point leaves in the accumulator: the same. -/
theorem sout0_C_eq (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs : Vec F S1024x1024 .f32) :
    sout0_C c i a3 h3 a4 h4 a5 h5 a6 h6 hc0 hc1 x0 x1 xs = k0_pay2 x0 x1 xs := by
  unfold sout0_C
  rw [View.read_writes_junk_eq_canon]
  unfold kernelRun0_C
  dsimp only
  try sl_unfold_run_names
  refine (View.canon_cons_unit_zero (S := S1024x1024) hz2 _ _ _).trans ?_
  simp only [View.readAt_eq_ld, h3.read_unread, h4.read_unread, h6.read_unread, View.ld_unit_zero (S := S1024x1024) hz2]

/-- What a last point leaves in the output buffer: the accumulated tile, thresholded, its diagonal zeroed. -/
theorem out0_C_eq (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs : Vec F S1024x1024 .f32) :
    out0_C c i a3 h3 a4 h4 a5 h5 a6 h6 hc0 hc1 x0 x1 xs = k0_pay3 i (k0_pay2 x0 x1 xs) := by
  unfold out0_C
  rw [View.read_writes_junk_eq_canon]
  unfold kernelRun0_C
  dsimp only
  try sl_unfold_run_names
  refine (View.canon_cons_unit_zero (S := S1024x1024) hz2 _ _ _).trans ?_
  rw [View.readCov_unit_zero (S := S1024x1024) _ hz2]
  simp only [View.readAt_eq_ld, h3.read_unread, h4.read_unread, h6.read_unread, View.ld_unit_zero (S := S1024x1024) hz2]

end Cert.KernelIdeal.Hand

end
-- ==== Proof.LibSumBlocks.lean ====
/-
  Re-grouping a finite sum into consecutive blocks, in any commutative additive monoid (so in particular over the extended
  reals, where it needs no finiteness): a sum over J·B consecutive naturals is the sum over J blocks of B. This is the law
  behind a contraction that is accumulated block by block along its contracted axis (a K-blocked matrix product kept in an
  accumulator across grid points or loop trips) against ONE whole contraction.
-/
import Mathlib.Algebra.BigOperators.Fin

namespace Cert.LibSumBlocks

/-- A sum over `J * B` consecutive naturals is the sum over `J` blocks of `B`: term `x = j * B + s` is term `s` of block `j`. -/
theorem sum_range_blocks {M : Type*} [AddCommMonoid M] (g : ℕ → M) (B : ℕ) : ∀ J : ℕ,
    ∑ x ∈ Finset.range (J * B), g x = ∑ j ∈ Finset.range J, ∑ s ∈ Finset.range B, g (j * B + s)
  | 0 => by simp
  | J + 1 => by
    rw [Nat.succ_mul, Finset.sum_range_add, Finset.sum_range_succ, sum_range_blocks g B J]

/-- The same with the whole sum over the index type `Fin (J * B)` (the form a contraction read at an index has). -/
theorem sum_fin_blocks {M : Type*} [AddCommMonoid M] (g : ℕ → M) (B J : ℕ) :
    ∑ k : Fin (J * B), g k.val = ∑ j ∈ Finset.range J, ∑ s ∈ Finset.range B, g (j * B + s) :=
  (Finset.sum_range g).symm.trans (sum_range_blocks g B J)

end Cert.LibSumBlocks
-- ==== Proof.Spec.lean ====
import Idealize.ShloMosaic.PureOps.Ideal
import Idealize.ShloMosaic.Lib.ValueIdx

/-!
# The network, index by index, over the extended reals

A group network over G = 4096 groups with H = 256 hidden features, written as functions of arrays of extended reals:

* `proj`: the input projection, `((pooled · W_a + b_a) + feat · W_in) + b_in`, a row of 256 (resp. 128) products summed;
* `adj`: the adjacency of a membership matrix `M` (4096 × 16384): entry (r, s) is 1 when the rows r and s of `M`
  have a positive inner product and r ≠ s, and 0 otherwise;
* `layer`: one message-passing layer, `max (((g · W_s) + ((A · g) · W_n)) + b) 0`;
* `net`: the projection followed by two layers over one adjacency.

Every sum is a finite sum over the contracted coordinate in its natural order; nothing here depends on a program.
-/

noncomputable section

open scoped BigOperators

namespace Cert.Spec

open Idealize.ShloMosaic Idealize.ShloMosaic.ValueIdx

/-- An array of extended reals of extents `a × b`. -/
abbrev Mat (a b : Nat) : Type := (⟨2, ![a, b]⟩ : Shape).Idx → EReal
/-- A vector of extended reals of extent `a`. -/
abbrev Vc (a : Nat) : Type := (⟨1, ![a]⟩ : Shape).Idx → EReal

/-- The input projection at (r, k): `((Σ_j p[r,j]·wa[j,k] + ba[k]) + Σ_j f[r,j]·win[j,k]) + bin[k]`. -/
def proj (p : Mat 4096 256) (f : Mat 4096 128) (wa : Mat 256 256) (ba : Vc 256) (win : Mat 128 256) (bin : Vc 256) : Mat 4096 256 :=
  fun i => (((∑ j : Fin 256, p (ix2 (i 0) j) * wa (ix2 j (i 1))) + ba (ix1 (i 1)))
    + (∑ j : Fin 128, f (ix2 (i 0) j) * win (ix2 j (i 1)))) + bin (ix1 (i 1))

/-- The inner product of rows r and s of a membership matrix. -/
def overlap (M : Mat 4096 16384) (r s : Fin 4096) : EReal := ∑ n : Fin 16384, M (ix2 r n) * M (ix2 s n)

/-- The adjacency at (r, s): 0 on the diagonal, elsewhere 1 when the rows overlap (inner product above 0) and 0 when not. -/
def adj (M : Mat 4096 16384) : Mat 4096 4096 :=
  fun i => if (i 0).val = (i 1).val then 0 else if 0 < overlap M (i 0) (i 1) then 1 else 0

/-- One message-passing layer at (r, k): `max (((Σ_j g[r,j]·ws[j,k]) + Σ_j (Σ_s A[r,s]·g[s,j])·wn[j,k]) + b[k]) 0`. -/
def layer (A : Mat 4096 4096) (g : Mat 4096 256) (ws wn : Mat 256 256) (b : Vc 256) : Mat 4096 256 :=
  fun i => max (((∑ j : Fin 256, g (ix2 (i 0) j) * ws (ix2 j (i 1)))
    + (∑ j : Fin 256, (∑ s : Fin 4096, A (ix2 (i 0) s) * g (ix2 s j)) * wn (ix2 j (i 1)))) + b (ix1 (i 1))) 0

/-- The whole network: the projection, then two layers over the adjacency of `M`. -/
def net (p : Mat 4096 256) (M : Mat 4096 16384) (f : Mat 4096 128) (win : Mat 128 256) (bin : Vc 256) (wa : Mat 256 256) (ba : Vc 256)
    (ws0 wn0 : Mat 256 256) (b0 : Vc 256) (ws1 wn1 : Mat 256 256) (b1 : Vc 256) : Mat 4096 256 :=
  layer (adj M) (layer (adj M) (proj p f wa ba win bin) ws0 wn0 b0) ws1 wn1 b1

end Cert.Spec

end
-- ==== Proof.KI.R0Math.lean ====
import proofs.«137111_j70342974374329_2_alg».proof.Proof.Gen.KernelIdeal.Skeleton
import proofs.«137111_j70342974374329_2_alg».proof.Proof.LibSumBlocks
import proofs.«137111_j70342974374329_2_alg».proof.Proof.Spec
import Idealize.ShloMosaic.Lib.Pipeline.Value
import Idealize.ShloMosaic.Lib.ValueIdx
import Idealize.ShloMosaic.PureOps.Ideal.Laws

/-!
# The adjacency region's arithmetic, index by index, over the extended reals

The three values the region's body stores, read at an entry (p, q) of a 1024 × 1024 tile: the zero tile; the
accumulator plus the product of a block with the transpose of another, `acc[p,q] + Σ_k x0[p,k]·x1[q,k]`; and the
thresholded tile with its diagonal zeroed, where the diagonal is where the global row `1024·i + p` meets the global
column `1024·j + q` (the tile coordinates i, j are below 4, so these 32-bit words do not wrap). Sixteen blocks of 1024
consecutive terms make one sum over 16384.
-/

noncomputable section

open scoped BigOperators

namespace Cert.KernelIdeal.HandValue

open Cert.KernelIdeal Cert.KernelIdeal.Gen Idealize.ShloMosaic Idealize.ShloMosaic.ValueIdx

/-- The zero tile reads 0 everywhere. -/
theorem pay1_apply (p q : Fin 1024) : k0_pay1 (F := Ideal) (ix2 p q) = 0 := by
  show shapeCast S1024x1024 (broadcast S1024x1024 (Scalar.ofBits (F := Ideal) .f32 0x00000000#32))
    shapeCasts_S1024x1024_S1024x1024 (ix2 p q) = 0
  rw [shapeCast_self]
  exact Ideal.ofBits_zero_f32

/-- The left operand of the tile contraction is read, on its kept axis, at the output's row. -/
theorem lhs1024_0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
/-- The right operand of the tile contraction is read, on its kept axis, at the output's column. -/
theorem rhs1024_0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The contraction of axis 1 of both blocks at (p, q): `Σ_{k<1024} x0[p,k]·x1[q,k]`. -/
theorem dot1024_apply (x0 x1 : FVec Ideal S1024x1024 .bf16) (p q : Fin 1024) :
    ∑ k : dot_S1024x1024_S1024x1024_S1024x1024_1_1_0_0_n_n.contr.Idx, x0 (dot_S1024x1024_S1024x1024_S1024x1024_1_1_0_0_n_n.lhsIdx (ix2 p q) k) * x1 (dot_S1024x1024_S1024x1024_S1024x1024_1_1_0_0_n_n.rhsIdx (ix2 p q) k)
      = ∑ k : Fin 1024, x0 (ix2 p k) * x1 (ix2 q k) := by
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k :=
    funext fun a => Fin.ext (by
      match a with
      | ⟨0, _⟩ => exact lhs1024_0 _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k :=
    funext fun a => Fin.ext (by
      match a with
      | ⟨0, _⟩ => exact rhs1024_0 _ _
      | ⟨1, _⟩ => exact (dot_S1024x1024_S1024x1024_S1024x1024_1_1_0_0_n_n.rhsIdx_val_of_single rfl _ _).trans hk)
  rw [el, er]

/-- The accumulated tile at (p, q): the accumulator there plus `Σ_{k<1024} x0[p,k]·x1[q,k]`. -/
theorem pay2_apply (x0 x1 : FVec Ideal S1024x1024 .bf16) (acc : FVec Ideal S1024x1024 .f32) (p q : Fin 1024) :
    k0_pay2 (F := Ideal) x0 x1 acc (ix2 p q) = acc (ix2 p q) + ∑ k : Fin 1024, x0 (ix2 p k) * x1 (ix2 q k) := by
  show shapeCast S1024x1024 (addf acc (matmul dot_S1024x1024_S1024x1024_S1024x1024_1_1_0_0_n_n none
      (shapeCast S1024x1024 x0 shapeCasts_S1024x1024_S1024x1024) (shapeCast S1024x1024 x1 shapeCasts_S1024x1024_S1024x1024)
      (constant (F := Ideal) S1024x1024 .f32 0x00000000#32))) shapeCasts_S1024x1024_S1024x1024 (ix2 p q) = _
  rw [shapeCast_self, shapeCast_self, shapeCast_self]
  show acc (ix2 p q) + FloatOps.matmul dot_S1024x1024_S1024x1024_S1024x1024_1_1_0_0_n_n none x0 x1 (constant (F := Ideal) S1024x1024 .f32 0x00000000#32) (ix2 p q) = _
  rw [Ideal.matmul_constant_zero_apply, dot1024_apply]

/-- A select on a decided bit is the `if`. -/
theorem select_ofBool {α : Type} (P : Prop) [Decidable P] (a b : α) :
    Scalar.select (BitVec.ofBool (decide P)) a b = if P then a else b := by
  by_cases h : P <;> simp [Scalar.select, h]

/-- A tile coordinate below 4 times 1024 plus an entry coordinate below 1024, as 32-bit words: equal exactly when the
    naturals are. -/
theorem word_eq_iff (a b : Nat) (ha : a < 4) (hb : b < 4) (p q : Nat) (hp : p < 1024) (hq : q < 1024) :
    IntOp.cmpi .eq (IntOp.addi (Scalar.muli (BitVec.ofNat 32 a) 1024#32) (BitVec.ofNat 32 p))
        (IntOp.addi (Scalar.muli (BitVec.ofNat 32 b) 1024#32) (BitVec.ofNat 32 q))
      = BitVec.ofBool (decide (1024 * a + p = 1024 * b + q)) := by
  have e : ∀ (a p : Nat), a < 4 → p < 1024 →
      IntOp.addi (Scalar.muli (BitVec.ofNat 32 a) 1024#32) (BitVec.ofNat 32 p) = BitVec.ofNat 32 (1024 * a + p) := by
    intro a p ha hp
    apply BitVec.eq_of_toNat_eq
    show (BitVec.ofNat 32 a * 1024#32 + BitVec.ofNat 32 p).toNat = _
    simp only [BitVec.toNat_add, BitVec.toNat_mul, BitVec.toNat_ofNat]
    omega
  rw [e a p ha hp, e b q hb hq]
  have h : BitVec.ofNat 32 (1024 * a + p) = BitVec.ofNat 32 (1024 * b + q) ↔ 1024 * a + p = 1024 * b + q := by
    constructor
    · intro h
      have h' := congrArg BitVec.toNat h
      rw [BitVec.toNat_ofNat, BitVec.toNat_ofNat, Nat.mod_eq_of_lt (by omega), Nat.mod_eq_of_lt (by omega)] at h'
      exact h'
    · intro h; rw [h]
  show BitVec.ofBool (BitVec.ofNat 32 (1024 * a + p) == BitVec.ofNat 32 (1024 * b + q)) = _
  by_cases hab : 1024 * a + p = 1024 * b + q
  · rw [hab]; simp
  · have hne : (BitVec.ofNat 32 (1024 * a + p) == BitVec.ofNat 32 (1024 * b + q)) = false :=
      beq_eq_false_iff_ne.mpr fun e => hab (h.mp e)
    rw [hne, decide_eq_false hab]

/-- The stored tile at (p, q): 0 where the global row meets the global column, elsewhere 1 when the accumulated entry
    is above 0 and 0 when not. -/
theorem pay3_apply (i : grid0.Coords) (acc : FVec Ideal S1024x1024 .f32) (p q : Fin 1024) :
    k0_pay3 (F := Ideal) i acc (ix2 p q)
      = if 1024 * (i 0).val + p.val = 1024 * (i 1).val + q.val then 0 else if 0 < acc (ix2 p q) then 1 else 0 := by
  show Scalar.select
      (IntOp.cmpi .eq
        (IntOp.addi (Scalar.muli (BitVec.ofNat 32 (i 0).val) 1024#32) (iota .tc S1024x1024 32 [0] iota_S1024x1024_d0_w32 (ix2 p q)))
        (IntOp.addi (Scalar.muli (BitVec.ofNat 32 (i 1).val) 1024#32) (iota .tc S1024x1024 32 [1] iota_S1024x1024_d1_w32 (ix2 p q))))
      (Scalar.ofBits (F := Ideal) .f32 0x00000000#32)
      (Scalar.select (FloatOps.cmpf (F := Ideal) .ogt (acc (ix2 p q)) (Scalar.ofBits (F := Ideal) .f32 0x00000000#32))
        (Scalar.ofBits (F := Ideal) .f32 0x3F800000#32) (Scalar.ofBits (F := Ideal) .f32 0x00000000#32)) = _
  rw [iota_single_apply, iota_single_apply]
  have hi0 : (i 0).val < 4 := (i 0).isLt
  have hi1 : (i 1).val < 4 := (i 1).isLt
  rw [show ((ix2 p q : S1024x1024.Idx) 0).val = p.val from rfl, show ((ix2 p q : S1024x1024.Idx) 1).val = q.val from rfl,
    word_eq_iff _ _ hi0 hi1 _ _ p.isLt q.isLt, select_ofBool]
  have h0 : Scalar.ofBits (F := Ideal) .f32 0x00000000#32 = (0 : EReal) := Ideal.ofBits_zero_f32
  have h1 : Scalar.ofBits (F := Ideal) .f32 0x3F800000#32 = (1 : EReal) := IdealRules.sign_bit.ideal_onePat .f32
  rw [h0, h1, Ideal.cmpf_def]
  show (if _ then (0 : EReal) else Scalar.select (BitVec.ofBool (decide ((0 : EReal) < acc (ix2 p q)))) 1 0) = _
  rw [select_ofBool]

/-- Sixteen blocks of 1024 consecutive terms are one sum over 16384. -/
theorem blocks16_range {M : Type*} [AddCommMonoid M] (f : ℕ → M) :
    ∑ n ∈ Finset.range 16, ∑ k : Fin 1024, f (1024 * n + k.val) = ∑ k : Fin 16384, f k.val := by
  have h := Cert.LibSumBlocks.sum_fin_blocks f 1024 16
  refine Eq.trans ?_ h.symm
  refine Finset.sum_congr rfl fun j _ => ?_
  rw [← Finset.sum_range (fun s => f (1024 * j + s))]
  exact Finset.sum_congr rfl fun s _ => by rw [Nat.mul_comm]
/-- The same with the blocks indexed by `Fin 16`. -/
theorem blocks16 {M : Type*} [AddCommMonoid M] (f : ℕ → M) :
    ∑ n : Fin 16, ∑ k : Fin 1024, f (1024 * n.val + k.val) = ∑ k : Fin 16384, f k.val :=
  (Finset.sum_range (fun n => ∑ k : Fin 1024, f (1024 * n + k.val))).symm.trans (blocks16_range f)

end Cert.KernelIdeal.HandValue

end
-- ==== Proof.KI.R0AccCore.lean ====
import proofs.«137111_j70342974374329_2_alg».proof.Proof.KI.R0Math

/-!
# The accumulated tile over a contraction's sixteen points

The 256 grid points are numbered with the contraction's coordinate fastest: point `n` works on tile row `n / 64`, tile
column `n / 16 % 4` and the block `n % 16` of the contracted axis. If the two blocks a point reads are the membership
matrix at (1024·row + p, 1024·block + k) and (1024·column + q, 1024·block + k), and the accumulator is zeroed at
block 0 and otherwise continues from the point before, then after point `n` the accumulator at (p, q) is the sum over
the blocks 0 … n % 16 of the blocks' products; after block 15 that is the whole inner product of the two rows, and the
stored tile is the specification's adjacency at (1024·row + p, 1024·column + q).
-/

noncomputable section

open scoped BigOperators

namespace Cert.KernelIdeal.HandValue

open Cert.KernelIdeal Cert.KernelIdeal.Gen Idealize.ShloMosaic Idealize.ShloMosaic.ValueIdx

/-- A 4096 × 16384 array read at natural coordinates, 0 outside its extents. -/
def atNat (M : Cert.Spec.Mat 4096 16384) (r s : ℕ) : EReal :=
  if h : r < 4096 ∧ s < 16384 then M (ix2 ⟨r, h.1⟩ ⟨s, h.2⟩) else 0

theorem atNat_of_lt (M : Cert.Spec.Mat 4096 16384) {r s : ℕ} (hr : r < 4096) (hs : s < 16384) :
    atNat M r s = M (ix2 ⟨r, hr⟩ ⟨s, hs⟩) := dif_pos ⟨hr, hs⟩

/-- The partial inner product of rows r and s over the first `b` blocks of 1024. -/
def partialOverlap (M : Cert.Spec.Mat 4096 16384) (r s b : ℕ) : EReal :=
  ∑ n' ∈ Finset.range b, ∑ k : Fin 1024, atNat M r (1024 * n' + k.val) * atNat M s (1024 * n' + k.val)

/-- All sixteen blocks: the inner product of the two rows. -/
theorem partialOverlap_sixteen (M : Cert.Spec.Mat 4096 16384) (r s : Fin 4096) :
    partialOverlap M r.val s.val 16 = Cert.Spec.overlap M r s := by
  unfold partialOverlap Cert.Spec.overlap
  rw [blocks16_range (fun x => atNat M r.val x * atNat M s.val x)]
  exact Finset.sum_congr rfl fun k _ => by rw [atNat_of_lt M r.isLt k.isLt, atNat_of_lt M s.isLt k.isLt]

/-- The accumulator after point `n`: the partial inner products over the blocks 0 … n % 16. -/
theorem acc_core (M : Cert.Spec.Mat 4096 16384) (X0 X1 : ℕ → FVec Ideal S1024x1024 .bf16) (A : ℕ → FVec Ideal S1024x1024 .f32)
    (hX0 : ∀ n, n < 256 → ∀ p k : Fin 1024, X0 n (ix2 p k) = atNat M (1024 * (n / 64) + p.val) (1024 * (n % 16) + k.val))
    (hX1 : ∀ n, n < 256 → ∀ q k : Fin 1024, X1 n (ix2 q k) = atNat M (1024 * (n / 16 % 4) + q.val) (1024 * (n % 16) + k.val))
    (hA0 : ∀ n, n < 256 → n % 16 = 0 → A n = k0_pay2 (F := Ideal) (X0 n) (X1 n) (k0_pay1 (F := Ideal)))
    (hA1 : ∀ n, n + 1 < 256 → (n + 1) % 16 ≠ 0 → A (n + 1) = k0_pay2 (F := Ideal) (X0 (n + 1)) (X1 (n + 1)) (A n)) :
    ∀ n, n < 256 → ∀ p q : Fin 1024,
      A n (ix2 p q) = partialOverlap M (1024 * (n / 64) + p.val) (1024 * (n / 16 % 4) + q.val) (n % 16 + 1) := by
  have first : ∀ n, n < 256 → n % 16 = 0 → ∀ p q : Fin 1024,
      A n (ix2 p q) = partialOverlap M (1024 * (n / 64) + p.val) (1024 * (n / 16 % 4) + q.val) (n % 16 + 1) := by
    intro n hn h0 p q
    rw [hA0 n hn h0, pay2_apply, pay1_apply, zero_add, h0]
    unfold partialOverlap
    rw [Finset.sum_range_one]
    exact Finset.sum_congr rfl fun k _ => by rw [hX0 n hn p k, hX1 n hn q k, h0]
  intro n
  induction n with
  | zero => exact fun hn => first 0 hn rfl
  | succ n ih =>
    intro hn p q
    by_cases h0 : (n + 1) % 16 = 0
    · exact first (n + 1) hn h0 p q
    · rw [hA1 n hn h0, pay2_apply, ih (by omega) p q]
      have e1 : n / 64 = (n + 1) / 64 := by omega
      have e2 : n / 16 % 4 = (n + 1) / 16 % 4 := by omega
      have e3 : n % 16 + 1 = (n + 1) % 16 := by omega
      rw [e1, e2, e3]
      unfold partialOverlap
      rw [Finset.sum_range_succ]
      exact congrArg (_ + ·) (Finset.sum_congr rfl fun k _ => by rw [hX0 (n + 1) hn p k, hX1 (n + 1) hn q k])

/-- The stored tile after a contraction's last point: the specification's adjacency at the global row and column. -/
theorem tile_core (M : Cert.Spec.Mat 4096 16384) (i : grid0.Coords) (acc : FVec Ideal S1024x1024 .f32) (p q : Fin 1024)
    (hacc : acc (ix2 p q) = partialOverlap M (1024 * (i 0).val + p.val) (1024 * (i 1).val + q.val) 16)
    (hr : 1024 * (i 0).val + p.val < 4096) (hs : 1024 * (i 1).val + q.val < 4096) :
    k0_pay3 (F := Ideal) i acc (ix2 p q)
      = Cert.Spec.adj M (ix2 ⟨1024 * (i 0).val + p.val, hr⟩ ⟨1024 * (i 1).val + q.val, hs⟩) := by
  rw [pay3_apply, hacc, partialOverlap_sixteen M ⟨_, hr⟩ ⟨_, hs⟩]
  rfl

end Cert.KernelIdeal.HandValue

end
-- ==== Proof.KI.R0Acc.lean ====
import proofs.«137111_j70342974374329_2_alg».proof.Proof.KI.R0Pieces
import proofs.«137111_j70342974374329_2_alg».proof.Proof.KI.R0AccCore

/-!
# The adjacency region's accumulator and output tile, point by point

Point `t` of the region's 256 reads, through its two input windows, the membership matrix's blocks at tile row
`t / 64` and tile column `t / 16 % 4`, both at block `t % 16` of the contracted axis. Given that each point leaves in
the accumulator the sum of what it found there (zero at a contraction's first point) and the product of its two
blocks, the accumulator after point `t` is the partial inner product over the blocks 0 … t % 16, and the tile stored
at a contraction's last point is the specification's adjacency at the global rows and columns of the tile.
-/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (V : (c : Dev nD) → (b : Ref sig .tc) → Buf (Elt Ideal) ((c : Thread nD τ).loc b))

/-- The membership matrix as the region finds it. -/
abbrev memOf (c : Dev nD) : Cert.Spec.Mat 4096 16384 := V c main_v28

/-- The grid's coordinates of point `t`: the contraction's coordinate is the fastest. -/
theorem coords_facts : ∀ t : Fin cfg0.N,
    (grid0.coords t 0).val = t.val / 64 ∧ (grid0.coords t 1).val = t.val / 16 % 4 ∧ (grid0.coords t 2).val = t.val % 16 :=
  (by decide +kernel : ∀ t : Fin grid0.N,
    (grid0.coords t 0).val = t.val / 64 ∧ (grid0.coords t 1).val = t.val / 16 % 4 ∧ (grid0.coords t 2).val = t.val % 16)
/-- Window 0's block index at point `t`: (tile row, block). -/
theorem idx_facts0_0 : ∀ t : Fin cfg0.N, win0_0.index t 0 = t.val / 64 ∧ win0_0.index t 1 = t.val % 16 :=
  (by decide +kernel : ∀ t : Fin grid0.N, win0_0.index t 0 = t.val / 64 ∧ win0_0.index t 1 = t.val % 16)
/-- Window 1's block index at point `t`: (tile column, block). -/
theorem idx_facts0_1 : ∀ t : Fin cfg0.N, win0_1.index t 0 = t.val / 16 % 4 ∧ win0_1.index t 1 = t.val % 16 :=
  (by decide +kernel : ∀ t : Fin grid0.N, win0_1.index t 0 = t.val / 16 % 4 ∧ win0_1.index t 1 = t.val % 16)

/-- Window 0's block at point `t`, at (p, k): the membership matrix at (1024·(t / 64) + p, 1024·(t % 16) + k). -/
theorem iblk0_0_apply (c : Dev nD) (t : Fin cfg0.N) (p k : Fin 1024) :
    (iblk0 V c 0 t : Vec Ideal S1024x1024 .bf16) (ix2 p k)
      = atNat (memOf V c) (1024 * (t.val / 64) + p.val) (1024 * (t.val % 16) + k.val) := by
  have hi := idx_facts0_0 t
  have ht : t.val < 256 := lt_of_lt_of_eq t.isLt N_0
  rw [atNat_of_lt _ (by omega) (by omega)]
  unfold iblk0
  rw [View.read_apply]
  show V c main_v28 _ = V c main_v28 _
  refine congrArg (V c main_v28) (funext fun a => Fin.ext ?_)
  match a with
  | ⟨0, _⟩ => show win0_0.index t 0 * 1024 + 1 * p.val = 1024 * (t.val / 64) + p.val; rw [hi.1]; omega
  | ⟨1, _⟩ => show win0_0.index t 1 * 1024 + 1 * k.val = 1024 * (t.val % 16) + k.val; rw [hi.2]; omega

/-- Window 1's block at point `t`, at (q, k): the membership matrix at (1024·(t / 16 % 4) + q, 1024·(t % 16) + k). -/
theorem iblk0_1_apply (c : Dev nD) (t : Fin cfg0.N) (q k : Fin 1024) :
    (iblk0 V c 1 t : Vec Ideal S1024x1024 .bf16) (ix2 q k)
      = atNat (memOf V c) (1024 * (t.val / 16 % 4) + q.val) (1024 * (t.val % 16) + k.val) := by
  have hi := idx_facts0_1 t
  have ht : t.val < 256 := lt_of_lt_of_eq t.isLt N_0
  rw [atNat_of_lt _ (by omega) (by omega)]
  unfold iblk0
  rw [View.read_apply]
  show V c main_v28 _ = V c main_v28 _
  refine congrArg (V c main_v28) (funext fun a => Fin.ext ?_)
  match a with
  | ⟨0, _⟩ => show win0_1.index t 0 * 1024 + 1 * q.val = 1024 * (t.val / 16 % 4) + q.val; rw [hi.1]; omega
  | ⟨1, _⟩ => show win0_1.index t 1 * 1024 + 1 * k.val = 1024 * (t.val % 16) + k.val; rw [hi.2]; omega

/-- A contraction's first point leaves the product of its two blocks added to the zero tile. -/
theorem step_first (c : Dev nD) (t : Fin cfg0.N) (h0 : t.val % 16 = 0) :
    (outsAt0 V c t.val t.isLt).2 = k0_pay2 (F := Ideal) (iblk0 V c 0 t) (iblk0 V c 1 t) (k0_pay1 (F := Ideal)) := by
  have h1 : ¬t.val % 16 = 15 := by omega
  rw [outsAt0_A V c t h0 h1]
  dsimp only
  exact sout0_A_eq (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)

/-- Every other point leaves the product of its two blocks added to what the point before left. -/
theorem step_next (c : Dev nD) (t : Fin cfg0.N) (h0 : ¬t.val % 16 = 0) :
    (outsAt0 V c t.val t.isLt).2 = k0_pay2 (F := Ideal) (iblk0 V c 0 t) (iblk0 V c 1 t)
      (outsAt0 V c (t.val - 1) (Nat.lt_of_le_of_lt (Nat.sub_le _ _) t.isLt)).2 := by
  by_cases h1 : t.val % 16 = 15
  · rw [outsAt0_C V c t h0 h1]
    dsimp only
    exact sout0_C_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t)
      (outsAt0 V c (t.val - 1) (Nat.lt_of_le_of_lt (Nat.sub_le _ _) t.isLt)).2
  · rw [outsAt0_B V c t h0 h1]
    dsimp only
    exact sout0_B_eq (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t)
      (outsAt0 V c (t.val - 1) (Nat.lt_of_le_of_lt (Nat.sub_le _ _) t.isLt)).2

/-- A contraction's last point stores the accumulated tile thresholded, its diagonal zeroed. -/
theorem out_last (c : Dev nD) (t : Fin cfg0.N) (h0 : ¬t.val % 16 = 0) (h15 : t.val % 16 = 15) :
    (outsAt0 V c t.val t.isLt).1 = k0_pay3 (F := Ideal) (grid0.coords t) (outsAt0 V c t.val t.isLt).2 := by
  rw [step_next V c t h0, outsAt0_C V c t h0 h15]
  dsimp only
  exact out0_C_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h15) (iblk0 V c 0 t) (iblk0 V c 1 t)
    (outsAt0 V c (t.val - 1) (Nat.lt_of_le_of_lt (Nat.sub_le _ _) t.isLt)).2

/-- Window 0's blocks, window 1's blocks and the accumulator as sequences over the point's number (zero past the last point). -/
def blocks0 (c : Dev nD) (n : ℕ) : FVec Ideal S1024x1024 .bf16 := if hn : n < cfg0.N then iblk0 V c 0 ⟨n, hn⟩ else fun _ => 0
def blocks1 (c : Dev nD) (n : ℕ) : FVec Ideal S1024x1024 .bf16 := if hn : n < cfg0.N then iblk0 V c 1 ⟨n, hn⟩ else fun _ => 0
def accs (c : Dev nD) (n : ℕ) : FVec Ideal S1024x1024 .f32 := if hn : n < cfg0.N then (outsAt0 V c n hn).2 else fun _ => 0

/-- The accumulator after point `t`, at (p, q): the partial inner product of the membership matrix's rows
    1024·(t / 64) + p and 1024·(t / 16 % 4) + q over the blocks 0 … t % 16. -/
theorem acc_eq (c : Dev nD) (t : Fin cfg0.N) (p q : Fin 1024) :
    (outsAt0 V c t.val t.isLt).2 (ix2 p q)
      = partialOverlap (memOf V c) (1024 * (t.val / 64) + p.val) (1024 * (t.val / 16 % 4) + q.val) (t.val % 16 + 1) := by
  have hN : cfg0.N = 256 := N_0
  have ht : t.val < 256 := lt_of_lt_of_eq t.isLt hN
  have hX0 : ∀ n, n < 256 → ∀ p k : Fin 1024,
      blocks0 V c n (ix2 p k) = atNat (memOf V c) (1024 * (n / 64) + p.val) (1024 * (n % 16) + k.val) := by
    intro n hn p k
    have hn' : n < cfg0.N := lt_of_lt_of_eq hn hN.symm
    unfold blocks0; rw [dif_pos hn']
    exact iblk0_0_apply V c ⟨n, hn'⟩ p k
  have hX1 : ∀ n, n < 256 → ∀ q k : Fin 1024,
      blocks1 V c n (ix2 q k) = atNat (memOf V c) (1024 * (n / 16 % 4) + q.val) (1024 * (n % 16) + k.val) := by
    intro n hn q k
    have hn' : n < cfg0.N := lt_of_lt_of_eq hn hN.symm
    unfold blocks1; rw [dif_pos hn']
    exact iblk0_1_apply V c ⟨n, hn'⟩ q k
  have hA0 : ∀ n, n < 256 → n % 16 = 0 →
      accs V c n = k0_pay2 (F := Ideal) (blocks0 V c n) (blocks1 V c n) (k0_pay1 (F := Ideal)) := by
    intro n hn h0
    have hn' : n < cfg0.N := lt_of_lt_of_eq hn hN.symm
    unfold accs blocks0 blocks1; simp only [dif_pos hn']
    exact step_first V c ⟨n, hn'⟩ h0
  have hA1 : ∀ n, n + 1 < 256 → (n + 1) % 16 ≠ 0 →
      accs V c (n + 1) = k0_pay2 (F := Ideal) (blocks0 V c (n + 1)) (blocks1 V c (n + 1)) (accs V c n) := by
    intro n hn h0
    have hn' : n + 1 < cfg0.N := lt_of_lt_of_eq hn hN.symm
    have hn'' : n < cfg0.N := Nat.lt_of_succ_lt hn'
    unfold accs blocks0 blocks1; simp only [dif_pos hn', dif_pos hn'']
    exact step_next V c ⟨n + 1, hn'⟩ h0
  have key := acc_core (memOf V c) (blocks0 V c) (blocks1 V c) (accs V c) hX0 hX1 hA0 hA1 t.val ht p q
  rw [show accs V c t.val = (outsAt0 V c t.val t.isLt).2 from dif_pos t.isLt] at key
  exact key

/-- The output tile stored at a contraction's last point, at (p, q): the specification's adjacency of the membership
    matrix at (1024·(t / 64) + p, 1024·(t / 16 % 4) + q). -/
theorem out_eq (c : Dev nD) (t : Fin cfg0.N) (h15 : t.val % 16 = 15) (p q : Fin 1024)
    (hr : 1024 * (t.val / 64) + p.val < 4096) (hs : 1024 * (t.val / 16 % 4) + q.val < 4096) :
    (outsAt0 V c t.val t.isLt).1 (ix2 p q)
      = Cert.Spec.adj (memOf V c) (ix2 ⟨1024 * (t.val / 64) + p.val, hr⟩ ⟨1024 * (t.val / 16 % 4) + q.val, hs⟩) := by
  have h0 : ¬t.val % 16 = 0 := by omega
  obtain ⟨e0, e1, _⟩ := coords_facts t
  have hacc := acc_eq V c t p q
  rw [h15] at hacc
  have h1 := out_last V c t h0 h15
  have hr' : 1024 * (grid0.coords t 0).val + p.val < 4096 := by rw [e0]; exact hr
  have hs' : 1024 * (grid0.coords t 1).val + q.val < 4096 := by rw [e1]; exact hs
  have f0 : (⟨1024 * (grid0.coords t 0).val + p.val, hr'⟩ : Fin 4096) = ⟨1024 * (t.val / 64) + p.val, hr⟩ := Fin.ext (by show 1024 * (grid0.coords t 0).val + p.val = 1024 * (t.val / 64) + p.val; rw [e0])
  have f1 : (⟨1024 * (grid0.coords t 1).val + q.val, hs'⟩ : Fin 4096) = ⟨1024 * (t.val / 16 % 4) + q.val, hs⟩ := Fin.ext (by show 1024 * (grid0.coords t 1).val + q.val = 1024 * (t.val / 16 % 4) + q.val; rw [e1])
  rw [h1, tile_core (memOf V c) (grid0.coords t) _ p q (by rw [e0, e1]; exact hacc) hr' hs', f0, f1]

/-- The same with the global row and column given by their values. -/
theorem outBlock0_eq (c : Dev nD) (t : Fin cfg0.N) (ht : t.val % 16 = 15) (p q : Fin 1024) (r s : Fin 4096)
    (hr : r.val = t.val / 64 * 1024 + p.val) (hs : s.val = t.val / 16 % 4 * 1024 + q.val) :
    (outsAt0 V c t.val t.isLt).1 (ix2 p q) = Cert.Spec.adj (V c main_v28) (ix2 r s) := by
  have hr' : 1024 * (t.val / 64) + p.val < 4096 := by have := r.isLt; omega
  have hs' : 1024 * (t.val / 16 % 4) + q.val < 4096 := by have := s.isLt; omega
  have er : r = ⟨1024 * (t.val / 64) + p.val, hr'⟩ := Fin.ext (by show r.val = 1024 * (t.val / 64) + p.val; omega)
  have es : s = ⟨1024 * (t.val / 16 % 4) + q.val, hs'⟩ := Fin.ext (by show s.val = 1024 * (t.val / 16 % 4) + q.val; omega)
  rw [er, es]
  exact out_eq V c t ht p q hr' hs'

end Cert.KernelIdeal.HandValue

end
-- ==== Proof.KI.Value0.lean ====
import proofs.«137111_j70342974374329_2_alg».proof.Proof.KI.R0Frame
import proofs.«137111_j70342974374329_2_alg».proof.Proof.KI.R0Acc
import proofs.«137111_j70342974374329_2_alg».proof.Proof.Spec
import Idealize.ShloMosaic.Lib.Pipeline.Value
import Idealize.ShloMosaic.Lib.ValueIdx

/-!
# The adjacency region at the extended reals: the adjacency matrix as one array

The grid is 4 × 4 × 16: point `t` works on the 1024 × 1024 tile (t / 64, t / 16 mod 4) of the output at contraction
step `t mod 16`, and the tile is written back at the last step only. What is written back there is the adjacency of the
membership matrix at the tile's rows and columns, and the sixteen tiles cover the 4096 × 4096 output, so the array after
the region is the adjacency.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The output window's block index over the 256 points: tile row `t / 64`, tile column `t / 16 mod 4`. -/
theorem idx_out0 : ∀ t : Fin cfg0.N, win0_2.index t (0 : Fin 2) = t.val / 64 ∧ win0_2.index t (1 : Fin 2) = t.val / 16 % 4 :=
  (by decide +kernel : ∀ t : Fin grid0.N, _)

variable (V : (c : Dev nD) → (b : Ref sig .tc) → Buf (Elt Ideal) ((c : Thread nD τ).loc b))

/-- A point that writes back writes the tile of the adjacency its block index names. -/
theorem flushed0_eq (c : Dev nD)
    (t : Fin cfg0.N) (hf : (cfg0.win 2).flush t = true) :
    (dat0 (F := Ideal) V c).flushed 2 t = ((cfg0.win 2).blk t).view.read (Elt Ideal) (Cert.Spec.adj (V c main_v28)) := by
  have h15 : t.val % 16 = 15 := (flush0_2 t).mp hf
  have hN : cfg0.N = 256 := N_0
  have ht : t.val < 256 := hN ▸ t.isLt
  obtain ⟨e0, e1⟩ := idx_out0 t
  show (cfg0.win 2).cut (grid0.coords t) ((dat0 V c).after 2 t) = _
  rw [after0_2]
  funext y
  obtain ⟨p, q, rfl⟩ : ∃ (p : Fin 1024) (q : Fin 1024), y = ix2 p q := ⟨y 0, y 1, eq_ix2 y⟩
  have hp : p.val < 1024 := p.isLt
  have hq : q.val < 1024 := q.isLt
  have hr : t.val / 64 * 1024 + p.val < 4096 := by omega
  have hs : t.val / 16 % 4 * 1024 + q.val < 4096 := by omega
  rw [View.read_apply]
  have hemb : ((cfg0.win 2).blk t).view.emb (ix2 p q)
      = (ix2 (⟨t.val / 64 * 1024 + p.val, hr⟩ : Fin 4096) (⟨t.val / 16 % 4 * 1024 + q.val, hs⟩ : Fin 4096) : S4096x4096.Idx) := by
    funext a; apply Fin.ext
    match a with
    | ⟨0, _⟩ => show win0_2.index t (0 : Fin 2) * 1024 + 1 * p.val = t.val / 64 * 1024 + p.val; rw [e0]; omega
    | ⟨1, _⟩ => show win0_2.index t (1 : Fin 2) * 1024 + 1 * q.val = t.val / 16 % 4 * 1024 + q.val; rw [e1]; omega
  show (outsAt0 V c t.val t.isLt).1 (ix2 p q) = Cert.Spec.adj (V c main_v28) (((cfg0.win 2).blk t).view.emb (ix2 p q))
  rw [hemb]
  exact outBlock0_eq V c t h15 p q _ _ rfl rfl

/-- THE ARRAY after the adjacency region: the adjacency of the membership matrix as the region finds it. -/
theorem value0 (c : Dev nD) :
    (dat0 (F := Ideal) V c).arrAt 2 cfg0.N = Cert.Spec.adj (V c main_v28) :=
  (dat0 (F := Ideal) V c).arrAt_eq_of_cover 2 _ (fun t hf => flushed0_eq V c t hf) fun i => by
    have hN : cfg0.N = 256 := N_0
    have hi0 : (i 0).val < 4096 := (i 0).isLt
    have hi1 : (i 1).val < 4096 := (i 1).isLt
    let t : Fin cfg0.N := ⟨64 * ((i 0).val / 1024) + 16 * ((i 1).val / 1024) + 15, by rw [hN]; omega⟩
    have htv : t.val = 64 * ((i 0).val / 1024) + 16 * ((i 1).val / 1024) + 15 := rfl
    obtain ⟨e0, e1⟩ := idx_out0 t
    refine ⟨t, (flush0_2 t).mpr (by rw [htv]; omega), ?_⟩
    show i ∈ ((View.whole main_v29).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024
                rw [e0, htv]; omega
    | ⟨1, _⟩ => show win0_2.index t (1 : Fin 2) * 1024 ≤ (i 1).val ∧ (i 1).val < win0_2.index t (1 : Fin 2) * 1024 + 1024
                rw [e1, htv]; omega

end Cert.KernelIdeal.HandValue

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.KI.Payloads.lean ====
import proofs.«137111_j70342974374329_2_alg».proof.Proof.Gen.KernelIdeal.Skeleton
import proofs.«137111_j70342974374329_2_alg».proof.Proof.LibMatProd
import Idealize.ShloMosaic.Lib.ValueLayout
import Idealize.ShloMosaic.PureOps.Ideal.Laws

/-!
# The three bodies' arithmetic at an entry, over the extended reals

What each kernel body stores, read at row `p`, column `q` of the block, as sums and products of the loaded blocks'
entries: a matrix product into a zero accumulator is the sum over the contracted coordinate, a bias vector laid as
one row and broadcast down the block reads the vector at the column, a change of float format is the identity, and
the maximum against a broadcast zero is `max · 0`.
-/

noncomputable section

namespace Cert.KernelIdeal.HandValue

open Cert.KernelIdeal Cert.KernelIdeal.Gen
open Idealize.ShloMosaic Idealize.ShloMosaic.ValueIdx
open scoped BigOperators

/-! ## The contractions at an entry -/

/-- A 512 × 256 block times a 256 × 256 matrix, into a zero accumulator, at entry (p, q). -/
theorem mm_512_256_256 (x : FVec Ideal S512x256 .bf16) (w : FVec Ideal S256x256 .bf16) (p : Fin 512) (q : Fin 256) :
    FloatOps.matmul dot_S512x256_S256x256_S512x256_1_0_0_1_n_n none x w (constant (F := Ideal) S512x256 .f32 0x00000000#32) (ix2 p q)
      = ∑ j : Fin 256, x (ix2 p j) * w (ix2 j q) :=
  (Ideal.matmul_constant_zero_apply dot_S512x256_S256x256_S512x256_1_0_0_1_n_n none x w (ix2 p q)).trans
    (Cert.Gcn.Dense.sum_contr_eq_prod dot_S512x256_S256x256_S512x256_1_0_0_1_n_n rfl rfl
      (fun _ _ => rfl) (fun _ _ => rfl) (fun _ _ => rfl) (fun _ _ => rfl) x w (ix2 p q))

/-- A 512 × 128 block times a 128 × 256 matrix, into a zero accumulator, at entry (p, q). -/
theorem mm_512_128_256 (x : FVec Ideal S512x128 .bf16) (w : FVec Ideal S128x256 .bf16) (p : Fin 512) (q : Fin 256) :
    FloatOps.matmul dot_S512x128_S128x256_S512x256_1_0_0_1_n_n none x w (constant (F := Ideal) S512x256 .f32 0x00000000#32) (ix2 p q)
      = ∑ j : Fin 128, x (ix2 p j) * w (ix2 j q) :=
  (Ideal.matmul_constant_zero_apply dot_S512x128_S128x256_S512x256_1_0_0_1_n_n none x w (ix2 p q)).trans
    (Cert.Gcn.Dense.sum_contr_eq_prod dot_S512x128_S128x256_S512x256_1_0_0_1_n_n rfl rfl
      (fun _ _ => rfl) (fun _ _ => rfl) (fun _ _ => rfl) (fun _ _ => rfl) x w (ix2 p q))

/-- A 512 × 4096 block times a 4096 × 256 matrix, into a zero accumulator, at entry (p, q). -/
theorem mm_512_4096_256 (x : FVec Ideal S512x4096 .bf16) (w : FVec Ideal S4096x256 .bf16) (p : Fin 512) (q : Fin 256) :
    FloatOps.matmul dot_S512x4096_S4096x256_S512x256_1_0_0_1_n_n none x w (constant (F := Ideal) S512x256 .f32 0x00000000#32) (ix2 p q)
      = ∑ s : Fin 4096, x (ix2 p s) * w (ix2 s q) :=
  (Ideal.matmul_constant_zero_apply dot_S512x4096_S4096x256_S512x256_1_0_0_1_n_n none x w (ix2 p q)).trans
    (Cert.Gcn.Dense.sum_contr_eq_prod dot_S512x4096_S4096x256_S512x256_1_0_0_1_n_n rfl rfl
      (fun _ _ => rfl) (fun _ _ => rfl) (fun _ _ => rfl) (fun _ _ => rfl) x w (ix2 p q))

/-- A bias vector laid as one row and broadcast down a 512-row block reads the vector at the column. -/
theorem bias_row (b : FVec Ideal S256 .f32) (p : Fin 512) (q : Fin 256) :
    broadcastTo S512x256 (shapeCast S1x256 b shapeCasts_S256_S1x256) broadcasts_S1x256_S512x256 (ix2 p q) = b (ix1 q) :=
  (broadcastTo_1b_ab_apply _ broadcasts_S1x256_S512x256 p q).trans (shapeCast_a_1a_apply b shapeCasts_S256_S1x256 0 q)

/-- The offsets of a whole rank-1 buffer's rectangle are the zero function. -/
theorem hz1 : (![0] : Fin 1 → Nat) = fun _ => 0 := by
  funext a; fin_cases a; rfl

/-! ## The projection body -/

/-- The block the projection body stores, at (p, q), from the six loaded blocks:
    `((Σ_j x0[p,j]·x2[j,q] + x3[q]) + Σ_j x1[p,j]·x4[j,q]) + x5[q]`. -/
theorem projPay_apply (x0 : Vec Ideal S512x256 .f32) (x1 : Vec Ideal S512x128 .f32) (x2 : Vec Ideal S256x256 .f32)
    (x4 : Vec Ideal S128x256 .f32) (x3 : Vec Ideal S256 .f32) (x5 : Vec Ideal S256 .f32) (p : Fin 512) (q : Fin 256) :
    k1_pay1 (F := Ideal) x0 x1 x2 x4 x3 x5 (ix2 p q)
      = (((∑ j : Fin 256, x0 (ix2 p j) * x2 (ix2 j q)) + x3 (ix1 q)) + (∑ j : Fin 128, x1 (ix2 p j) * x4 (ix2 j q))) + x5 (ix1 q) := by
  unfold k1_pay1
  refine congrArg₂ (fun a b : EReal => a + b) (congrArg₂ (fun a b : EReal => a + b) (congrArg₂ (fun a b : EReal => a + b) ?_ ?_) ?_) ?_
  · refine (mm_512_256_256 _ _ p q).trans ?_
    rw [shapeCast_self]; rfl
  · exact bias_row x3 p q
  · exact mm_512_128_256 _ _ p q
  · exact bias_row x5 p q

/-! ## The message-passing body (both layers) -/

/-- The block a message-passing body computes, at (p, q), from the six loaded blocks (`x0` the adjacency rows,
    `x2` all the node features, `x1` the block's own feature rows, `x3`, `x4` the self and neighbour weights, `x5`
    the bias): `max (((Σ_j x1[p,j]·x3[j,q]) + Σ_j (Σ_s x0[p,s]·x2[s,j])·x4[j,q]) + x5[q]) 0`. -/
theorem mpPay2_apply (x0 : Vec Ideal S512x4096 .bf16) (x2 : Vec Ideal S4096x256 .bf16) (x1 : Vec Ideal S512x256 .bf16)
    (x3 x4 : Vec Ideal S256x256 .f32) (x5 : Vec Ideal S256 .f32) (p : Fin 512) (q : Fin 256) :
    k2_pay1 (F := Ideal) x0 x2 x1 x3 x4 x5 (ix2 p q)
      = max (((∑ j : Fin 256, x1 (ix2 p j) * x3 (ix2 j q))
          + ∑ j : Fin 256, (∑ s : Fin 4096, x0 (ix2 p s) * x2 (ix2 s j)) * x4 (ix2 j q)) + x5 (ix1 q)) 0 := by
  unfold k2_pay1
  refine congrArg₂ (fun a b : EReal => max a b) (congrArg₂ (fun a b : EReal => a + b) (congrArg₂ (fun a b : EReal => a + b) ?_ ?_) ?_) ?_
  · refine (mm_512_256_256 _ _ p q).trans ?_
    simp only [shapeCast_self]; rfl
  · refine (mm_512_256_256 _ _ p q).trans ?_
    refine Finset.sum_congr rfl fun j _ => congrArg₂ (fun a b : EReal => a * b) ?_ ?_
    · refine (mm_512_4096_256 _ _ p j).trans ?_
      simp only [shapeCast_self]
    · simp only [shapeCast_self]; rfl
  · refine (bias_row _ p q).trans ?_
    rw [shapeCast_self]
  · exact Ideal.ofBits_zero_f32

/-- The same for the second layer's body, which stores the block without a change of format. -/
theorem mpPay3_apply (x0 : Vec Ideal S512x4096 .bf16) (x2 : Vec Ideal S4096x256 .bf16) (x1 : Vec Ideal S512x256 .bf16)
    (x3 x4 : Vec Ideal S256x256 .f32) (x5 : Vec Ideal S256 .f32) (p : Fin 512) (q : Fin 256) :
    k3_pay1 (F := Ideal) x0 x2 x1 x3 x4 x5 (ix2 p q)
      = max (((∑ j : Fin 256, x1 (ix2 p j) * x3 (ix2 j q))
          + ∑ j : Fin 256, (∑ s : Fin 4096, x0 (ix2 p s) * x2 (ix2 s j)) * x4 (ix2 j q)) + x5 (ix1 q)) 0 := by
  unfold k3_pay1
  refine congrArg₂ (fun a b : EReal => max a b) (congrArg₂ (fun a b : EReal => a + b) (congrArg₂ (fun a b : EReal => a + b) ?_ ?_) ?_) ?_
  · refine (mm_512_256_256 _ _ p q).trans ?_
    simp only [shapeCast_self]; rfl
  · refine (mm_512_256_256 _ _ p q).trans ?_
    refine Finset.sum_congr rfl fun j _ => congrArg₂ (fun a b : EReal => a * b) ?_ ?_
    · refine (mm_512_4096_256 _ _ p j).trans ?_
      simp only [shapeCast_self]
    · simp only [shapeCast_self]; rfl
  · refine (bias_row _ p q).trans ?_
    rw [shapeCast_self]
  · exact Ideal.ofBits_zero_f32

end Cert.KernelIdeal.HandValue

end
-- ==== Proof.KI.Value1.lean ====
import proofs.«137111_j70342974374329_2_alg».proof.Proof.KI.Region1
import proofs.«137111_j70342974374329_2_alg».proof.Proof.KI.Payloads
import proofs.«137111_j70342974374329_2_alg».proof.Proof.Spec
import Idealize.ShloMosaic.Lib.Pipeline.Value

/-!
# Region 1 at the extended reals: the projected features as one array

Each grid point `t` writes rows `512 t … 512 t + 511` of the output. Row `r`, column `k` of what it writes is
`((Σ_j p[r,j]·wa[j,k] + ba[k]) + Σ_j f[r,j]·win[j,k]) + bin[k]`: the two products contract over the 256 pooled
features and the 128 input features of row `r`, and the biases are rows broadcast down the block. The eight blocks
tile the 4096 rows, so the array after the region is that function.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## Where a block sits in its array -/

/-- The printed index maps over the eight points: the row-blocked windows are at block row `t`, column block 0; the
    whole-array windows at block 0. -/
theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0
    ∧ win1_6.index t (0 : Fin 2) = t.val
    ∧ win1_6.index t (1 : Fin 2) = 0 :=
  (by decide +kernel : ∀ t : Fin grid1.N, _)

variable (V : (c : Dev nD) → (b : Ref sig .tc) → Buf (Elt Ideal) ((c : Thread nD τ).loc b))

/-- Window 0's block at point `t` is rows `512 t …` of the pooled features. -/
theorem iblk1_0_apply (c : Dev nD) (t : Fin cfg1.N) (p : Fin 512) (j : Fin 256) (r : Fin 4096) (hr : r.val = t.val * 512 + p.val) :
    (iblk1 V c 0 t : Vec Ideal S512x256 .f32) (ix2 p j) = (V c main_v9 : S4096x256.Idx → EReal) (ix2 r j) := by
  obtain ⟨e0, e1, -⟩ := idx_facts1 t
  unfold iblk1
  rw [View.read_apply]
  show V c main_v9 _ = V c main_v9 _
  refine congrArg _ (funext fun a => Fin.ext ?_)
  match a with
  | ⟨0, _⟩ => show win1_0.index t (0 : Fin 2) * 512 + 1 * p.val = r.val; rw [e0, hr]; omega
  | ⟨1, _⟩ => show win1_0.index t (1 : Fin 2) * 256 + 1 * j.val = j.val; rw [e1]; omega

/-- Window 1's block at point `t` is rows `512 t …` of the input features. -/
theorem iblk1_1_apply (c : Dev nD) (t : Fin cfg1.N) (p : Fin 512) (j : Fin 128) (r : Fin 4096) (hr : r.val = t.val * 512 + p.val) :
    (iblk1 V c 1 t : Vec Ideal S512x128 .f32) (ix2 p j) = (V c main_arg2 : S4096x128.Idx → EReal) (ix2 r j) := by
  obtain ⟨-, -, e0, e1, -⟩ := idx_facts1 t
  unfold iblk1
  rw [View.read_apply]
  show V c main_arg2 _ = V c main_arg2 _
  refine congrArg _ (funext fun a => Fin.ext ?_)
  match a with
  | ⟨0, _⟩ => show win1_1.index t (0 : Fin 2) * 512 + 1 * p.val = r.val; rw [e0, hr]; omega
  | ⟨1, _⟩ => show win1_1.index t (1 : Fin 2) * 128 + 1 * j.val = j.val; rw [e1]; omega

/-- Window 2's block is the first weight matrix whole. -/
theorem iblk1_2_apply (c : Dev nD) (t : Fin cfg1.N) (a : Fin 256) (b : Fin 256) :
    (iblk1 V c 2 t : Vec Ideal S256x256 .f32) (ix2 a b) = (V c main_arg5 : S256x256.Idx → EReal) (ix2 a b) := by
  obtain ⟨-, -, -, -, e0, e1, -⟩ := idx_facts1 t
  unfold iblk1
  rw [View.read_apply]
  show V c main_arg5 _ = V c main_arg5 _
  refine congrArg _ (funext fun x => Fin.ext ?_)
  match x with
  | ⟨0, _⟩ => show win1_2.index t (0 : Fin 2) * 256 + 1 * a.val = a.val; rw [e0]; omega
  | ⟨1, _⟩ => show win1_2.index t (1 : Fin 2) * 256 + 1 * b.val = b.val; rw [e1]; omega

/-- Window 3's block is the first bias vector whole. -/
theorem iblk1_3_apply (c : Dev nD) (t : Fin cfg1.N) (b : Fin 256) :
    (iblk1 V c 3 t : Vec Ideal S256 .f32) (ix1 b) = (V c main_arg6 : S256.Idx → EReal) (ix1 b) := by
  obtain ⟨-, -, -, -, -, -, e0, -⟩ := idx_facts1 t
  unfold iblk1
  rw [View.read_apply]
  show V c main_arg6 _ = V c main_arg6 _
  refine congrArg _ (funext fun x => Fin.ext ?_)
  match x with
  | ⟨0, _⟩ => show win1_3.index t (0 : Fin 1) * 256 + 1 * b.val = b.val; rw [e0]; omega

/-- Window 4's block is the second weight matrix whole. -/
theorem iblk1_4_apply (c : Dev nD) (t : Fin cfg1.N) (a : Fin 128) (b : Fin 256) :
    (iblk1 V c 4 t : Vec Ideal S128x256 .f32) (ix2 a b) = (V c main_arg3 : S128x256.Idx → EReal) (ix2 a b) := by
  obtain ⟨-, -, -, -, -, -, -, e0, e1, -⟩ := idx_facts1 t
  unfold iblk1
  rw [View.read_apply]
  show V c main_arg3 _ = V c main_arg3 _
  refine congrArg _ (funext fun x => Fin.ext ?_)
  match x with
  | ⟨0, _⟩ => show win1_4.index t (0 : Fin 2) * 128 + 1 * a.val = a.val; rw [e0]; omega
  | ⟨1, _⟩ => show win1_4.index t (1 : Fin 2) * 256 + 1 * b.val = b.val; rw [e1]; omega

/-- Window 5's block is the second bias vector whole. -/
theorem iblk1_5_apply (c : Dev nD) (t : Fin cfg1.N) (b : Fin 256) :
    (iblk1 V c 5 t : Vec Ideal S256 .f32) (ix1 b) = (V c main_arg4 : S256.Idx → EReal) (ix1 b) := by
  obtain ⟨-, -, -, -, -, -, -, -, -, e0, -⟩ := idx_facts1 t
  unfold iblk1
  rw [View.read_apply]
  show V c main_arg4 _ = V c main_arg4 _
  refine congrArg _ (funext fun x => Fin.ext ?_)
  match x with
  | ⟨0, _⟩ => show win1_5.index t (0 : Fin 1) * 256 + 1 * b.val = b.val; rw [e0]; omega

/-! ## What a point writes back, and the array -/

/-- Point `t` writes back block `t` of the projection of the entry arrays. -/
theorem flushed1_eq (c : Dev nD) (t : Fin cfg1.N) :
    (dat1 (F := Ideal) V c).flushed 6 t = ((cfg1.win 6).blk t).view.read (Elt Ideal)
      (Cert.Spec.proj (V c main_v9) (V c main_arg2) (V c main_arg5) (V c main_arg6) (V c main_arg3) (V c main_arg4)) := by
  show (cfg1.win 6).cut (grid1.coords t) ((dat1 V c).after 6 t) = _
  rw [after1_6]
  unfold out1_6
  rw [View.canon_unit_zero hz2]
  simp only [View.ld_unit_zero (S := S512x256) hz2, View.ld_unit_zero (S := S512x128) hz2, View.ld_unit_zero (S := S256x256) hz2, View.ld_unit_zero (S := S256) hz1, View.ld_unit_zero (S := S128x256) hz2]
  have hN : cfg1.N = 8 := N_1
  have ht : t.val < 8 := hN ▸ t.isLt
  obtain ⟨-, -, -, -, -, -, -, -, -, -, e0, e1⟩ := idx_facts1 t
  funext y
  obtain ⟨p, q, rfl⟩ : ∃ (p : Fin 512) (q : Fin 256), y = ix2 p q := ⟨y 0, y 1, eq_ix2 y⟩
  have hp : p.val < 512 := p.isLt
  have hr : t.val * 512 + p.val < 4096 := by omega
  refine (projPay_apply (iblk1 V c 0 t) (iblk1 V c 1 t) (iblk1 V c 2 t) (iblk1 V c 4 t) (iblk1 V c 3 t) (iblk1 V c 5 t) p q).trans ?_
  rw [View.read_apply]
  have hemb : ((cfg1.win 6).blk t).view.emb (ix2 p q) = (ix2 (⟨t.val * 512 + p.val, hr⟩ : Fin 4096) q : S4096x256.Idx) := by
    funext a; apply Fin.ext
    match a with
    | ⟨0, _⟩ => show win1_6.index t (0 : Fin 2) * 512 + 1 * p.val = t.val * 512 + p.val; rw [e0]; omega
    | ⟨1, _⟩ => show win1_6.index t (1 : Fin 2) * 256 + 1 * q.val = q.val; rw [e1]; omega
  show _ = Cert.Spec.proj (V c main_v9) (V c main_arg2) (V c main_arg5) (V c main_arg6) (V c main_arg3) (V c main_arg4) (((cfg1.win 6).blk t).view.emb (ix2 p q))
  rw [hemb]
  unfold Cert.Spec.proj
  simp only [iblk1_0_apply V c t p _ ⟨t.val * 512 + p.val, hr⟩ rfl, iblk1_1_apply V c t p _ ⟨t.val * 512 + p.val, hr⟩ rfl, iblk1_2_apply, iblk1_3_apply, iblk1_4_apply, iblk1_5_apply]

/-- THE ARRAY after region 1: the projection of the entry arrays. -/
theorem value1 (c : Dev nD) :
    (dat1 (F := Ideal) V c).arrAt 6 cfg1.N
      = Cert.Spec.proj (V c main_v9) (V c main_arg2) (V c main_arg5) (V c main_arg6) (V c main_arg3) (V c main_arg4) :=
  (dat1 (F := Ideal) V c).arrAt_eq_of_cover 6 _ (fun t _ => flushed1_eq V c t) fun i => by
    have hN : cfg1.N = 8 := N_1
    have hi0 : (i 0).val < 4096 := (i 0).isLt
    have hi1 : (i 1).val < 256 := (i 1).isLt
    let t : Fin cfg1.N := ⟨(i 0).val / 512, by rw [hN]; omega⟩
    obtain ⟨-, -, -, -, -, -, -, -, -, -, e0, e1⟩ := idx_facts1 t
    refine ⟨t, flush1_6 t, ?_⟩
    show i ∈ ((View.whole main_v30).slice (win1_6.rect t)).set
    rw [View.set_slice_whole, Rect.mem_set_unit]
    intro a
    match a with
    | ⟨0, _⟩ => show win1_6.index t (0 : Fin 2) * 512 ≤ (i 0).val ∧ (i 0).val < win1_6.index t (0 : Fin 2) * 512 + 512
                rw [e0]; show (i 0).val / 512 * 512 ≤ (i 0).val ∧ (i 0).val < (i 0).val / 512 * 512 + 512; omega
    | ⟨1, _⟩ => show win1_6.index t (1 : Fin 2) * 256 ≤ (i 1).val ∧ (i 1).val < win1_6.index t (1 : Fin 2) * 256 + 256
                rw [e1]; omega

end Cert.KernelIdeal.HandValue

end
-- ==== Proof.KI.Value2.lean ====
import proofs.«137111_j70342974374329_2_alg».proof.Proof.KI.Region2
import proofs.«137111_j70342974374329_2_alg».proof.Proof.KI.Payloads
import proofs.«137111_j70342974374329_2_alg».proof.Proof.Spec
import Idealize.ShloMosaic.Lib.Pipeline.Value

/-!
# Region 2 at the extended reals: one message-passing layer as one array

Each grid point `t` writes rows `512 t … 512 t + 511` of the output. Row `r`, column `k` of what it writes is
`max (((Σ_j g[r,j]·ws[j,k]) + Σ_j (Σ_s A[r,s]·g[s,j])·wn[j,k]) + b[k]) 0`: row `r` of the adjacency against ALL the
node features (the window that stages the feature array whole), row `r` of the features themselves (the window that
stages the same array in 512-row blocks), the two weight matrices and the bias. The eight blocks tile the 4096 rows,
so the array after the region is that function.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## Where a block sits in its array -/

/-- The printed index maps over the eight points: the row-blocked windows are at block row `t`, column block 0; the
    whole-array windows at block 0. -/
theorem idx_facts2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 1) = 0
    ∧ win2_6.index t (0 : Fin 2) = t.val
    ∧ win2_6.index t (1 : Fin 2) = 0 :=
  (by decide +kernel : ∀ t : Fin grid2.N, _)

variable (V : (c : Dev nD) → (b : Ref sig .tc) → Buf (Elt Ideal) ((c : Thread nD τ).loc b))

/-- Window 0's block at point `t` is rows `512 t …` of the adjacency. -/
theorem iblk2_0_apply (c : Dev nD) (t : Fin cfg2.N) (p : Fin 512) (j : Fin 4096) (r : Fin 4096) (hr : r.val = t.val * 512 + p.val) :
    (iblk2 V c 0 t : Vec Ideal S512x4096 .bf16) (ix2 p j) = (V c main_v29 : S4096x4096.Idx → EReal) (ix2 r j) := by
  obtain ⟨e0, e1, -⟩ := idx_facts2 t
  unfold iblk2
  rw [View.read_apply]
  show V c main_v29 _ = V c main_v29 _
  refine congrArg _ (funext fun a => Fin.ext ?_)
  match a with
  | ⟨0, _⟩ => show win2_0.index t (0 : Fin 2) * 512 + 1 * p.val = r.val; rw [e0, hr]; omega
  | ⟨1, _⟩ => show win2_0.index t (1 : Fin 2) * 4096 + 1 * j.val = j.val; rw [e1]; omega

/-- Window 1's block at point `t` is rows `512 t …` of the node features. -/
theorem iblk2_1_apply (c : Dev nD) (t : Fin cfg2.N) (p : Fin 512) (j : Fin 256) (r : Fin 4096) (hr : r.val = t.val * 512 + p.val) :
    (iblk2 V c 1 t : Vec Ideal S512x256 .bf16) (ix2 p j) = (V c main_v30 : S4096x256.Idx → EReal) (ix2 r j) := by
  obtain ⟨-, -, e0, e1, -⟩ := idx_facts2 t
  unfold iblk2
  rw [View.read_apply]
  show V c main_v30 _ = V c main_v30 _
  refine congrArg _ (funext fun a => Fin.ext ?_)
  match a with
  | ⟨0, _⟩ => show win2_1.index t (0 : Fin 2) * 512 + 1 * p.val = r.val; rw [e0, hr]; omega
  | ⟨1, _⟩ => show win2_1.index t (1 : Fin 2) * 256 + 1 * j.val = j.val; rw [e1]; omega

/-- Window 2's block is the node features whole. -/
theorem iblk2_2_apply (c : Dev nD) (t : Fin cfg2.N) (a : Fin 4096) (b : Fin 256) :
    (iblk2 V c 2 t : Vec Ideal S4096x256 .bf16) (ix2 a b) = (V c main_v30 : S4096x256.Idx → EReal) (ix2 a b) := by
  obtain ⟨-, -, -, -, e0, e1, -⟩ := idx_facts2 t
  unfold iblk2
  rw [View.read_apply]
  show V c main_v30 _ = V c main_v30 _
  refine congrArg _ (funext fun x => Fin.ext ?_)
  match x with
  | ⟨0, _⟩ => show win2_2.index t (0 : Fin 2) * 4096 + 1 * a.val = a.val; rw [e0]; omega
  | ⟨1, _⟩ => show win2_2.index t (1 : Fin 2) * 256 + 1 * b.val = b.val; rw [e1]; omega

/-- Window 3's block is the self weights whole. -/
theorem iblk2_3_apply (c : Dev nD) (t : Fin cfg2.N) (a : Fin 256) (b : Fin 256) :
    (iblk2 V c 3 t : Vec Ideal S256x256 .f32) (ix2 a b) = (V c main_v32 : S256x256.Idx → EReal) (ix2 a b) := by
  obtain ⟨-, -, -, -, -, -, e0, e1, -⟩ := idx_facts2 t
  unfold iblk2
  rw [View.read_apply]
  show V c main_v32 _ = V c main_v32 _
  refine congrArg _ (funext fun x => Fin.ext ?_)
  match x with
  | ⟨0, _⟩ => show win2_3.index t (0 : Fin 2) * 256 + 1 * a.val = a.val; rw [e0]; omega
  | ⟨1, _⟩ => show win2_3.index t (1 : Fin 2) * 256 + 1 * b.val = b.val; rw [e1]; omega

/-- Window 4's block is the neighbour weights whole. -/
theorem iblk2_4_apply (c : Dev nD) (t : Fin cfg2.N) (a : Fin 256) (b : Fin 256) :
    (iblk2 V c 4 t : Vec Ideal S256x256 .f32) (ix2 a b) = (V c main_v34 : S256x256.Idx → EReal) (ix2 a b) := by
  obtain ⟨-, -, -, -, -, -, -, -, e0, e1, -⟩ := idx_facts2 t
  unfold iblk2
  rw [View.read_apply]
  show V c main_v34 _ = V c main_v34 _
  refine congrArg _ (funext fun x => Fin.ext ?_)
  match x with
  | ⟨0, _⟩ => show win2_4.index t (0 : Fin 2) * 256 + 1 * a.val = a.val; rw [e0]; omega
  | ⟨1, _⟩ => show win2_4.index t (1 : Fin 2) * 256 + 1 * b.val = b.val; rw [e1]; omega

/-- Window 5's block is the bias vector whole. -/
theorem iblk2_5_apply (c : Dev nD) (t : Fin cfg2.N) (b : Fin 256) :
    (iblk2 V c 5 t : Vec Ideal S256 .f32) (ix1 b) = (V c main_v36 : S256.Idx → EReal) (ix1 b) := by
  obtain ⟨-, -, -, -, -, -, -, -, -, -, e0, -⟩ := idx_facts2 t
  unfold iblk2
  rw [View.read_apply]
  show V c main_v36 _ = V c main_v36 _
  refine congrArg _ (funext fun x => Fin.ext ?_)
  match x with
  | ⟨0, _⟩ => show win2_5.index t (0 : Fin 1) * 256 + 1 * b.val = b.val; rw [e0]; omega

/-! ## What a point writes back, and the array -/

/-- Point `t` writes back block `t` of the layer of the entry arrays. -/
theorem flushed2_eq (c : Dev nD) (t : Fin cfg2.N) :
    (dat2 (F := Ideal) V c).flushed 6 t = ((cfg2.win 6).blk t).view.read (Elt Ideal)
      (Cert.Spec.layer (V c main_v29) (V c main_v30) (V c main_v32) (V c main_v34) (V c main_v36)) := by
  show (cfg2.win 6).cut (grid2.coords t) ((dat2 V c).after 6 t) = _
  rw [after2_6]
  unfold out2_6
  rw [View.canon_unit_zero hz2]
  simp only [View.ld_unit_zero (S := S512x4096) hz2, View.ld_unit_zero (S := S512x256) hz2, View.ld_unit_zero (S := S4096x256) hz2, View.ld_unit_zero (S := S256x256) hz2, View.ld_unit_zero (S := S256) hz1]
  have hN : cfg2.N = 8 := N_2
  have ht : t.val < 8 := hN ▸ t.isLt
  obtain ⟨-, -, -, -, -, -, -, -, -, -, -, e0, e1⟩ := idx_facts2 t
  funext y
  obtain ⟨p, q, rfl⟩ : ∃ (p : Fin 512) (q : Fin 256), y = ix2 p q := ⟨y 0, y 1, eq_ix2 y⟩
  have hp : p.val < 512 := p.isLt
  have hr : t.val * 512 + p.val < 4096 := by omega
  refine (mpPay2_apply (iblk2 V c 0 t) (iblk2 V c 2 t) (iblk2 V c 1 t) (iblk2 V c 3 t) (iblk2 V c 4 t) (iblk2 V c 5 t) p q).trans ?_
  rw [View.read_apply]
  have hemb : ((cfg2.win 6).blk t).view.emb (ix2 p q) = (ix2 (⟨t.val * 512 + p.val, hr⟩ : Fin 4096) q : S4096x256.Idx) := by
    funext a; apply Fin.ext
    match a with
    | ⟨0, _⟩ => show win2_6.index t (0 : Fin 2) * 512 + 1 * p.val = t.val * 512 + p.val; rw [e0]; omega
    | ⟨1, _⟩ => show win2_6.index t (1 : Fin 2) * 256 + 1 * q.val = q.val; rw [e1]; omega
  show _ = Cert.Spec.layer (V c main_v29) (V c main_v30) (V c main_v32) (V c main_v34) (V c main_v36) (((cfg2.win 6).blk t).view.emb (ix2 p q))
  rw [hemb]
  unfold Cert.Spec.layer
  simp only [iblk2_0_apply V c t p _ ⟨t.val * 512 + p.val, hr⟩ rfl, iblk2_1_apply V c t p _ ⟨t.val * 512 + p.val, hr⟩ rfl, iblk2_2_apply, iblk2_3_apply, iblk2_4_apply, iblk2_5_apply]

/-- THE ARRAY after region 2: the layer of the entry arrays. -/
theorem value2 (c : Dev nD) :
    (dat2 (F := Ideal) V c).arrAt 6 cfg2.N
      = Cert.Spec.layer (V c main_v29) (V c main_v30) (V c main_v32) (V c main_v34) (V c main_v36) :=
  (dat2 (F := Ideal) V c).arrAt_eq_of_cover 6 _ (fun t _ => flushed2_eq V c t) fun i => by
    have hN : cfg2.N = 8 := N_2
    have hi0 : (i 0).val < 4096 := (i 0).isLt
    have hi1 : (i 1).val < 256 := (i 1).isLt
    let t : Fin cfg2.N := ⟨(i 0).val / 512, by rw [hN]; omega⟩
    obtain ⟨-, -, -, -, -, -, -, -, -, -, -, e0, e1⟩ := idx_facts2 t
    refine ⟨t, flush2_6 t, ?_⟩
    show i ∈ ((View.whole main_v37).slice (win2_6.rect t)).set
    rw [View.set_slice_whole, Rect.mem_set_unit]
    intro a
    match a with
    | ⟨0, _⟩ => show win2_6.index t (0 : Fin 2) * 512 ≤ (i 0).val ∧ (i 0).val < win2_6.index t (0 : Fin 2) * 512 + 512
                rw [e0]; show (i 0).val / 512 * 512 ≤ (i 0).val ∧ (i 0).val < (i 0).val / 512 * 512 + 512; omega
    | ⟨1, _⟩ => show win2_6.index t (1 : Fin 2) * 256 ≤ (i 1).val ∧ (i 1).val < win2_6.index t (1 : Fin 2) * 256 + 256
                rw [e1]; omega

end Cert.KernelIdeal.HandValue

end
-- ==== Proof.KI.Value3.lean ====
import proofs.«137111_j70342974374329_2_alg».proof.Proof.KI.Region3
import proofs.«137111_j70342974374329_2_alg».proof.Proof.KI.Payloads
import proofs.«137111_j70342974374329_2_alg».proof.Proof.Spec
import Idealize.ShloMosaic.Lib.Pipeline.Value

/-!
# Region 3 at the extended reals: one message-passing layer as one array

Each grid point `t` writes rows `512 t … 512 t + 511` of the output. Row `r`, column `k` of what it writes is
`max (((Σ_j g[r,j]·ws[j,k]) + Σ_j (Σ_s A[r,s]·g[s,j])·wn[j,k]) + b[k]) 0`: row `r` of the adjacency against ALL the
node features (the window that stages the feature array whole), row `r` of the features themselves (the window that
stages the same array in 512-row blocks), the two weight matrices and the bias. The eight blocks tile the 4096 rows,
so the array after the region is that function.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## Where a block sits in its array -/

/-- The printed index maps over the eight points: the row-blocked windows are at block row `t`, column block 0; the
    whole-array windows at block 0. -/
theorem idx_facts3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 1) = 0
    ∧ win3_6.index t (0 : Fin 2) = t.val
    ∧ win3_6.index t (1 : Fin 2) = 0 :=
  (by decide +kernel : ∀ t : Fin grid3.N, _)

variable (V : (c : Dev nD) → (b : Ref sig .tc) → Buf (Elt Ideal) ((c : Thread nD τ).loc b))

/-- Window 0's block at point `t` is rows `512 t …` of the adjacency. -/
theorem iblk3_0_apply (c : Dev nD) (t : Fin cfg3.N) (p : Fin 512) (j : Fin 4096) (r : Fin 4096) (hr : r.val = t.val * 512 + p.val) :
    (iblk3 V c 0 t : Vec Ideal S512x4096 .bf16) (ix2 p j) = (V c main_v29 : S4096x4096.Idx → EReal) (ix2 r j) := by
  obtain ⟨e0, e1, -⟩ := idx_facts3 t
  unfold iblk3
  rw [View.read_apply]
  show V c main_v29 _ = V c main_v29 _
  refine congrArg _ (funext fun a => Fin.ext ?_)
  match a with
  | ⟨0, _⟩ => show win3_0.index t (0 : Fin 2) * 512 + 1 * p.val = r.val; rw [e0, hr]; omega
  | ⟨1, _⟩ => show win3_0.index t (1 : Fin 2) * 4096 + 1 * j.val = j.val; rw [e1]; omega

/-- Window 1's block at point `t` is rows `512 t …` of the node features. -/
theorem iblk3_1_apply (c : Dev nD) (t : Fin cfg3.N) (p : Fin 512) (j : Fin 256) (r : Fin 4096) (hr : r.val = t.val * 512 + p.val) :
    (iblk3 V c 1 t : Vec Ideal S512x256 .bf16) (ix2 p j) = (V c main_v37 : S4096x256.Idx → EReal) (ix2 r j) := by
  obtain ⟨-, -, e0, e1, -⟩ := idx_facts3 t
  unfold iblk3
  rw [View.read_apply]
  show V c main_v37 _ = V c main_v37 _
  refine congrArg _ (funext fun a => Fin.ext ?_)
  match a with
  | ⟨0, _⟩ => show win3_1.index t (0 : Fin 2) * 512 + 1 * p.val = r.val; rw [e0, hr]; omega
  | ⟨1, _⟩ => show win3_1.index t (1 : Fin 2) * 256 + 1 * j.val = j.val; rw [e1]; omega

/-- Window 2's block is the node features whole. -/
theorem iblk3_2_apply (c : Dev nD) (t : Fin cfg3.N) (a : Fin 4096) (b : Fin 256) :
    (iblk3 V c 2 t : Vec Ideal S4096x256 .bf16) (ix2 a b) = (V c main_v37 : S4096x256.Idx → EReal) (ix2 a b) := by
  obtain ⟨-, -, -, -, e0, e1, -⟩ := idx_facts3 t
  unfold iblk3
  rw [View.read_apply]
  show V c main_v37 _ = V c main_v37 _
  refine congrArg _ (funext fun x => Fin.ext ?_)
  match x with
  | ⟨0, _⟩ => show win3_2.index t (0 : Fin 2) * 4096 + 1 * a.val = a.val; rw [e0]; omega
  | ⟨1, _⟩ => show win3_2.index t (1 : Fin 2) * 256 + 1 * b.val = b.val; rw [e1]; omega

/-- Window 3's block is the self weights whole. -/
theorem iblk3_3_apply (c : Dev nD) (t : Fin cfg3.N) (a : Fin 256) (b : Fin 256) :
    (iblk3 V c 3 t : Vec Ideal S256x256 .f32) (ix2 a b) = (V c main_v39 : S256x256.Idx → EReal) (ix2 a b) := by
  obtain ⟨-, -, -, -, -, -, e0, e1, -⟩ := idx_facts3 t
  unfold iblk3
  rw [View.read_apply]
  show V c main_v39 _ = V c main_v39 _
  refine congrArg _ (funext fun x => Fin.ext ?_)
  match x with
  | ⟨0, _⟩ => show win3_3.index t (0 : Fin 2) * 256 + 1 * a.val = a.val; rw [e0]; omega
  | ⟨1, _⟩ => show win3_3.index t (1 : Fin 2) * 256 + 1 * b.val = b.val; rw [e1]; omega

/-- Window 4's block is the neighbour weights whole. -/
theorem iblk3_4_apply (c : Dev nD) (t : Fin cfg3.N) (a : Fin 256) (b : Fin 256) :
    (iblk3 V c 4 t : Vec Ideal S256x256 .f32) (ix2 a b) = (V c main_v41 : S256x256.Idx → EReal) (ix2 a b) := by
  obtain ⟨-, -, -, -, -, -, -, -, e0, e1, -⟩ := idx_facts3 t
  unfold iblk3
  rw [View.read_apply]
  show V c main_v41 _ = V c main_v41 _
  refine congrArg _ (funext fun x => Fin.ext ?_)
  match x with
  | ⟨0, _⟩ => show win3_4.index t (0 : Fin 2) * 256 + 1 * a.val = a.val; rw [e0]; omega
  | ⟨1, _⟩ => show win3_4.index t (1 : Fin 2) * 256 + 1 * b.val = b.val; rw [e1]; omega

/-- Window 5's block is the bias vector whole. -/
theorem iblk3_5_apply (c : Dev nD) (t : Fin cfg3.N) (b : Fin 256) :
    (iblk3 V c 5 t : Vec Ideal S256 .f32) (ix1 b) = (V c main_v43 : S256.Idx → EReal) (ix1 b) := by
  obtain ⟨-, -, -, -, -, -, -, -, -, -, e0, -⟩ := idx_facts3 t
  unfold iblk3
  rw [View.read_apply]
  show V c main_v43 _ = V c main_v43 _
  refine congrArg _ (funext fun x => Fin.ext ?_)
  match x with
  | ⟨0, _⟩ => show win3_5.index t (0 : Fin 1) * 256 + 1 * b.val = b.val; rw [e0]; omega

/-! ## What a point writes back, and the array -/

/-- Point `t` writes back block `t` of the layer of the entry arrays. -/
theorem flushed3_eq (c : Dev nD) (t : Fin cfg3.N) :
    (dat3 (F := Ideal) V c).flushed 6 t = ((cfg3.win 6).blk t).view.read (Elt Ideal)
      (Cert.Spec.layer (V c main_v29) (V c main_v37) (V c main_v39) (V c main_v41) (V c main_v43)) := by
  show (cfg3.win 6).cut (grid3.coords t) ((dat3 V c).after 6 t) = _
  rw [after3_6]
  unfold out3_6
  rw [View.canon_unit_zero hz2]
  simp only [View.ld_unit_zero (S := S512x4096) hz2, View.ld_unit_zero (S := S512x256) hz2, View.ld_unit_zero (S := S4096x256) hz2, View.ld_unit_zero (S := S256x256) hz2, View.ld_unit_zero (S := S256) hz1]
  have hN : cfg3.N = 8 := N_3
  have ht : t.val < 8 := hN ▸ t.isLt
  obtain ⟨-, -, -, -, -, -, -, -, -, -, -, e0, e1⟩ := idx_facts3 t
  funext y
  obtain ⟨p, q, rfl⟩ : ∃ (p : Fin 512) (q : Fin 256), y = ix2 p q := ⟨y 0, y 1, eq_ix2 y⟩
  have hp : p.val < 512 := p.isLt
  have hr : t.val * 512 + p.val < 4096 := by omega
  refine (mpPay3_apply (iblk3 V c 0 t) (iblk3 V c 2 t) (iblk3 V c 1 t) (iblk3 V c 3 t) (iblk3 V c 4 t) (iblk3 V c 5 t) p q).trans ?_
  rw [View.read_apply]
  have hemb : ((cfg3.win 6).blk t).view.emb (ix2 p q) = (ix2 (⟨t.val * 512 + p.val, hr⟩ : Fin 4096) q : S4096x256.Idx) := by
    funext a; apply Fin.ext
    match a with
    | ⟨0, _⟩ => show win3_6.index t (0 : Fin 2) * 512 + 1 * p.val = t.val * 512 + p.val; rw [e0]; omega
    | ⟨1, _⟩ => show win3_6.index t (1 : Fin 2) * 256 + 1 * q.val = q.val; rw [e1]; omega
  show _ = Cert.Spec.layer (V c main_v29) (V c main_v37) (V c main_v39) (V c main_v41) (V c main_v43) (((cfg3.win 6).blk t).view.emb (ix2 p q))
  rw [hemb]
  unfold Cert.Spec.layer
  simp only [iblk3_0_apply V c t p _ ⟨t.val * 512 + p.val, hr⟩ rfl, iblk3_1_apply V c t p _ ⟨t.val * 512 + p.val, hr⟩ rfl, iblk3_2_apply, iblk3_3_apply, iblk3_4_apply, iblk3_5_apply]

/-- THE ARRAY after region 3: the layer of the entry arrays. -/
theorem value3 (c : Dev nD) :
    (dat3 (F := Ideal) V c).arrAt 6 cfg3.N
      = Cert.Spec.layer (V c main_v29) (V c main_v37) (V c main_v39) (V c main_v41) (V c main_v43) :=
  (dat3 (F := Ideal) V c).arrAt_eq_of_cover 6 _ (fun t _ => flushed3_eq V c t) fun i => by
    have hN : cfg3.N = 8 := N_3
    have hi0 : (i 0).val < 4096 := (i 0).isLt
    have hi1 : (i 1).val < 256 := (i 1).isLt
    let t : Fin cfg3.N := ⟨(i 0).val / 512, by rw [hN]; omega⟩
    obtain ⟨-, -, -, -, -, -, -, -, -, -, -, e0, e1⟩ := idx_facts3 t
    refine ⟨t, flush3_6 t, ?_⟩
    show i ∈ ((View.whole main_v44).slice (win3_6.rect t)).set
    rw [View.set_slice_whole, Rect.mem_set_unit]
    intro a
    match a with
    | ⟨0, _⟩ => show win3_6.index t (0 : Fin 2) * 512 ≤ (i 0).val ∧ (i 0).val < win3_6.index t (0 : Fin 2) * 512 + 512
                rw [e0]; show (i 0).val / 512 * 512 ≤ (i 0).val ∧ (i 0).val < (i 0).val / 512 * 512 + 512; omega
    | ⟨1, _⟩ => show win3_6.index t (1 : Fin 2) * 256 ≤ (i 1).val ∧ (i 1).val < win3_6.index t (1 : Fin 2) * 256 + 256
                rw [e1]; omega

end Cert.KernelIdeal.HandValue

end
-- ==== Proof.KI.Net.lean ====
import proofs.«137111_j70342974374329_2_alg».proof.Proof.KI.Run
import proofs.«137111_j70342974374329_2_alg».proof.Proof.KI.Value0
import proofs.«137111_j70342974374329_2_alg».proof.Proof.KI.Value1
import proofs.«137111_j70342974374329_2_alg».proof.Proof.KI.Value2
import proofs.«137111_j70342974374329_2_alg».proof.Proof.KI.Value3

/-!
# The idealized kernel's result is the network of what its host stretches compute

Each region's output array is its stage of the network applied to the arrays the region found; a buffer no item in
between writes is read through the fold unchanged. Composed: the result is `Cert.Spec.net` of the pooled features and
the membership matrix the first host stretch computes, the argument arrays, and the weight slices the later stretches cut.
-/

noncomputable section

namespace Cert.KernelIdeal.HandValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ)

/-- The adjacency, as region 0 leaves it. -/
theorem o0_eq (c : Dev nD) : o0 m c = Cert.Spec.adj (W1 m c main_v28) := value0 (B1 m) c

theorem W2_keep (c : Dev nD) (b : Ref sig .tc) (hb : b ≠ main_v29) : W2 m c b = W1 m c b := W2_of_ne m c b hb
theorem W1_arg (c : Dev nD) (b : Ref sig .tc) (hb : b ∉ hostOps0_W) : W1 m c b = m ((c : Thread nD τ).loc b) :=
  (Gen.V1_of m c b hb).trans rfl

/-- The projected features, as region 1 leaves them. -/
theorem o1_eq (c : Dev nD) : o1 m c = Cert.Spec.proj (W1 m c main_v9) (m ((c : Thread nD τ).loc main_arg2)) (m ((c : Thread nD τ).loc main_arg5))
    (m ((c : Thread nD τ).loc main_arg6)) (m ((c : Thread nD τ).loc main_arg3)) (m ((c : Thread nD τ).loc main_arg4)) := by
  refine (value1 (B2 m) c).trans ?_
  show Cert.Spec.proj (W2 m c main_v9) (W2 m c main_arg2) (W2 m c main_arg5) (W2 m c main_arg6) (W2 m c main_arg3) (W2 m c main_arg4) = _
  rw [W2_keep m c main_v9 (by decide), W2_keep m c main_arg2 (by decide), W2_keep m c main_arg5 (by decide), W2_keep m c main_arg6 (by decide),
    W2_keep m c main_arg3 (by decide), W2_keep m c main_arg4 (by decide),
    W1_arg m c main_arg2 (by decide), W1_arg m c main_arg5 (by decide), W1_arg m c main_arg6 (by decide), W1_arg m c main_arg3 (by decide), W1_arg m c main_arg4 (by decide)]

theorem W4_keep (c : Dev nD) (b : Ref sig .tc) (hb : b ∉ hostOps2_W) : W4 m c b = W3 m c b :=
  StableHlo.after_of_writes_sub hostOps2 _ hostOps2_writes hb
theorem W3_keep (c : Dev nD) (b : Ref sig .tc) (hb : b ≠ main_v30) : W3 m c b = W2 m c b := W3_of_ne m c b hb
theorem W6_keep (c : Dev nD) (b : Ref sig .tc) (hb : b ∉ hostOps3_W) : W6 m c b = W5 m c b :=
  StableHlo.after_of_writes_sub hostOps3 _ hostOps3_writes hb
theorem W5_keep (c : Dev nD) (b : Ref sig .tc) (hb : b ≠ main_v37) : W5 m c b = W4 m c b := W5_of_ne m c b hb

theorem W4_v29 (c : Dev nD) : W4 m c main_v29 = o0 m c :=
  (W4_keep m c main_v29 (by decide)).trans ((W3_keep m c main_v29 (by decide)).trans (W2_out m c))
theorem W4_v30 (c : Dev nD) : W4 m c main_v30 = o1 m c :=
  (W4_keep m c main_v30 (by decide)).trans (W3_out m c)

/-- The first layer's features, as region 2 leaves them. -/
theorem o2_eq (c : Dev nD) : o2 m c = Cert.Spec.layer (o0 m c) (o1 m c) (W4 m c main_v32) (W4 m c main_v34) (W4 m c main_v36) := by
  refine (value2 (B4 m) c).trans ?_
  show Cert.Spec.layer (W4 m c main_v29) (W4 m c main_v30) (W4 m c main_v32) (W4 m c main_v34) (W4 m c main_v36) = _
  rw [W4_v29, W4_v30]

theorem W6_v29 (c : Dev nD) : W6 m c main_v29 = o0 m c :=
  (W6_keep m c main_v29 (by decide)).trans ((W5_keep m c main_v29 (by decide)).trans (W4_v29 m c))
theorem W6_v37 (c : Dev nD) : W6 m c main_v37 = o2 m c :=
  (W6_keep m c main_v37 (by decide)).trans (W5_out m c)

/-- The result, as region 3 leaves it. -/
theorem o3_eq (c : Dev nD) : o3 m c = Cert.Spec.layer (o0 m c) (o2 m c) (W6 m c main_v39) (W6 m c main_v41) (W6 m c main_v43) := by
  refine (value3 (B6 m) c).trans ?_
  show Cert.Spec.layer (W6 m c main_v29) (W6 m c main_v37) (W6 m c main_v39) (W6 m c main_v41) (W6 m c main_v43) = _
  rw [W6_v29, W6_v37]

/-- The result is the network of the host stretches' values. -/
theorem o3_net (c : Dev nD) : o3 m c = Cert.Spec.net (W1 m c main_v9) (W1 m c main_v28) (m ((c : Thread nD τ).loc main_arg2))
    (m ((c : Thread nD τ).loc main_arg3)) (m ((c : Thread nD τ).loc main_arg4)) (m ((c : Thread nD τ).loc main_arg5)) (m ((c : Thread nD τ).loc main_arg6))
    (W4 m c main_v32) (W4 m c main_v34) (W4 m c main_v36) (W6 m c main_v39) (W6 m c main_v41) (W6 m c main_v43) := by
  rw [o3_eq, o2_eq, o1_eq, o0_eq]; rfl

/-- An argument is read through the fold unchanged up to the second and third host stretches. -/
theorem W3_arg (c : Dev nD) (b : Ref sig .tc) (h1 : b ≠ main_v30) (h2 : b ≠ main_v29) (h0 : b ∉ hostOps0_W) : W3 m c b = m ((c : Thread nD τ).loc b) :=
  (W3_keep m c b h1).trans ((W2_keep m c b h2).trans (W1_arg m c b h0))
theorem W5_arg (c : Dev nD) (b : Ref sig .tc) (h5 : b ≠ main_v37) (h4 : b ∉ hostOps2_W) (h1 : b ≠ main_v30) (h2 : b ≠ main_v29) (h0 : b ∉ hostOps0_W) :
    W5 m c b = m ((c : Thread nD τ).loc b) :=
  (W5_keep m c b h5).trans ((W4_keep m c b h4).trans (W3_arg m c b h1 h2 h0))

end Cert.KernelIdeal.HandValue

end
-- ==== Proof.RefOps.lean ====
import proofs.«137111_j70342974374329_2_alg».proof.Proof.Gen.ReferenceIdeal
import proofs.«137111_j70342974374329_2_alg».proof.Proof.Spec
import proofs.«137111_j70342974374329_2_alg».proof.Proof.LibMatProd
import Idealize.ShloMosaic.Lib.Pipeline.Value
import Idealize.ShloMosaic.PureOps.Ideal.Laws

/-!
# The reference's contractions and broadcasts read at an index

Over the extended reals each of the reference's four contractions is the matrix product's sum over the contracted
coordinate, `Σ_k x[r,k]·w[k,q]`; a transpose reads its operand at the swapped index; a bias broadcast along the rows
reads the bias at the column; a broadcast scalar reads the scalar.
-/

noncomputable section

open scoped BigOperators

namespace Cert.ReferenceIdeal.RefValue

open Cert.ReferenceIdeal Cert.ReferenceIdeal.Gen Idealize.ShloMosaic Idealize.ShloMosaic.ValueIdx

/-- The 256-wide contraction at (r, q): `Σ_{k<256} g[r,k]·w[k,q]`. -/
theorem dot256_apply (g : FVec Ideal S4096x256 .f32) (w : FVec Ideal S256x256 .f32) (i : S4096x256.Idx) :
    Host.dotGeneral (F := Ideal) dot_S4096x256_S256x256_S4096x256_1_0_0_1_n_n none g w i
      = ∑ k : Fin 256, g (ix2 (i 0) k) * w (ix2 k (i 1)) := by
  simp only [Host.dotGeneral]
  rw [Ideal.dotGeneral_apply]
  refine Cert.Gcn.Dense.sum_contr_eq_prod dot_S4096x256_S256x256_S4096x256_1_0_0_1_n_n rfl rfl ?_ ?_ ?_ ?_ g w i
  · intro i q
    unfold DotDims.lhsIdx
    rw [dif_neg (show ¬(0 : Fin S4096x256.rank) ∈ dot_S4096x256_S256x256_S4096x256_1_0_0_1_n_n.lhsBatch by decide),
      dif_pos (show (0 : Fin S4096x256.rank) ∈ dot_S4096x256_S256x256_S4096x256_1_0_0_1_n_n.lhsNonContracting by decide)]
    rfl
  · exact fun i q => dot_S4096x256_S256x256_S4096x256_1_0_0_1_n_n.lhsIdx_val_of_single rfl i q
  · exact fun i q => dot_S4096x256_S256x256_S4096x256_1_0_0_1_n_n.rhsIdx_val_of_single rfl i q
  · intro i q
    unfold DotDims.rhsIdx
    rw [dif_neg (show ¬(1 : Fin S256x256.rank) ∈ dot_S4096x256_S256x256_S4096x256_1_0_0_1_n_n.rhsBatch by decide),
      dif_pos (show (1 : Fin S256x256.rank) ∈ dot_S4096x256_S256x256_S4096x256_1_0_0_1_n_n.rhsNonContracting by decide)]
    rfl

/-- The 128-wide contraction at (r, q): `Σ_{k<128} f[r,k]·w[k,q]`. -/
theorem dot128_apply (g : FVec Ideal S4096x128 .f32) (w : FVec Ideal S128x256 .f32) (i : S4096x256.Idx) :
    Host.dotGeneral (F := Ideal) dot_S4096x128_S128x256_S4096x256_1_0_0_1_n_n none g w i
      = ∑ k : Fin 128, g (ix2 (i 0) k) * w (ix2 k (i 1)) := by
  simp only [Host.dotGeneral]
  rw [Ideal.dotGeneral_apply]
  refine Cert.Gcn.Dense.sum_contr_eq_prod dot_S4096x128_S128x256_S4096x256_1_0_0_1_n_n rfl rfl ?_ ?_ ?_ ?_ g w i
  · intro i q
    unfold DotDims.lhsIdx
    rw [dif_neg (show ¬(0 : Fin S4096x128.rank) ∈ dot_S4096x128_S128x256_S4096x256_1_0_0_1_n_n.lhsBatch by decide),
      dif_pos (show (0 : Fin S4096x128.rank) ∈ dot_S4096x128_S128x256_S4096x256_1_0_0_1_n_n.lhsNonContracting by decide)]
    rfl
  · exact fun i q => dot_S4096x128_S128x256_S4096x256_1_0_0_1_n_n.lhsIdx_val_of_single rfl i q
  · exact fun i q => dot_S4096x128_S128x256_S4096x256_1_0_0_1_n_n.rhsIdx_val_of_single rfl i q
  · intro i q
    unfold DotDims.rhsIdx
    rw [dif_neg (show ¬(1 : Fin S128x256.rank) ∈ dot_S4096x128_S128x256_S4096x256_1_0_0_1_n_n.rhsBatch by decide),
      dif_pos (show (1 : Fin S128x256.rank) ∈ dot_S4096x128_S128x256_S4096x256_1_0_0_1_n_n.rhsNonContracting by decide)]
    rfl

/-- The contraction over the groups at (r, q): `Σ_{s<4096} A[r,s]·g[s,q]`. -/
theorem dot4096_apply (g : FVec Ideal S4096x4096 .f32) (w : FVec Ideal S4096x256 .f32) (i : S4096x256.Idx) :
    Host.dotGeneral (F := Ideal) dot_S4096x4096_S4096x256_S4096x256_1_0_0_1_n_n none g w i
      = ∑ k : Fin 4096, g (ix2 (i 0) k) * w (ix2 k (i 1)) := by
  simp only [Host.dotGeneral]
  rw [Ideal.dotGeneral_apply]
  refine Cert.Gcn.Dense.sum_contr_eq_prod dot_S4096x4096_S4096x256_S4096x256_1_0_0_1_n_n rfl rfl ?_ ?_ ?_ ?_ g w i
  · intro i q
    unfold DotDims.lhsIdx
    rw [dif_neg (show ¬(0 : Fin S4096x4096.rank) ∈ dot_S4096x4096_S4096x256_S4096x256_1_0_0_1_n_n.lhsBatch by decide),
      dif_pos (show (0 : Fin S4096x4096.rank) ∈ dot_S4096x4096_S4096x256_S4096x256_1_0_0_1_n_n.lhsNonContracting by decide)]
    rfl
  · exact fun i q => dot_S4096x4096_S4096x256_S4096x256_1_0_0_1_n_n.lhsIdx_val_of_single rfl i q
  · exact fun i q => dot_S4096x4096_S4096x256_S4096x256_1_0_0_1_n_n.rhsIdx_val_of_single rfl i q
  · intro i q
    unfold DotDims.rhsIdx
    rw [dif_neg (show ¬(1 : Fin S4096x256.rank) ∈ dot_S4096x4096_S4096x256_S4096x256_1_0_0_1_n_n.rhsBatch by decide),
      dif_pos (show (1 : Fin S4096x256.rank) ∈ dot_S4096x4096_S4096x256_S4096x256_1_0_0_1_n_n.rhsNonContracting by decide)]
    rfl

/-- The contraction over the atoms at (r, s): `Σ_{n<16384} x[r,n]·y[n,s]`. -/
theorem dot16384_apply (g : FVec Ideal S4096x16384 .f32) (w : FVec Ideal S16384x4096 .f32) (i : S4096x4096.Idx) :
    Host.dotGeneral (F := Ideal) dot_S4096x16384_S16384x4096_S4096x4096_1_0_0_1_n_n none g w i
      = ∑ k : Fin 16384, g (ix2 (i 0) k) * w (ix2 k (i 1)) := by
  simp only [Host.dotGeneral]
  rw [Ideal.dotGeneral_apply]
  refine Cert.Gcn.Dense.sum_contr_eq_prod dot_S4096x16384_S16384x4096_S4096x4096_1_0_0_1_n_n rfl rfl ?_ ?_ ?_ ?_ g w i
  · intro i q
    unfold DotDims.lhsIdx
    rw [dif_neg (show ¬(0 : Fin S4096x16384.rank) ∈ dot_S4096x16384_S16384x4096_S4096x4096_1_0_0_1_n_n.lhsBatch by decide),
      dif_pos (show (0 : Fin S4096x16384.rank) ∈ dot_S4096x16384_S16384x4096_S4096x4096_1_0_0_1_n_n.lhsNonContracting by decide)]
    rfl
  · exact fun i q => dot_S4096x16384_S16384x4096_S4096x4096_1_0_0_1_n_n.lhsIdx_val_of_single rfl i q
  · exact fun i q => dot_S4096x16384_S16384x4096_S4096x4096_1_0_0_1_n_n.rhsIdx_val_of_single rfl i q
  · intro i q
    unfold DotDims.rhsIdx
    rw [dif_neg (show ¬(1 : Fin S16384x4096.rank) ∈ dot_S4096x16384_S16384x4096_S4096x4096_1_0_0_1_n_n.rhsBatch by decide),
      dif_pos (show (1 : Fin S16384x4096.rank) ∈ dot_S4096x16384_S16384x4096_S4096x4096_1_0_0_1_n_n.rhsNonContracting by decide)]
    rfl

/-- The transpose of a 4096 × 16384 array at (n, s) is the array at (s, n). -/
theorem transpose_apply_ns (M : FVec Ideal S4096x16384 .f32) (n : Fin 16384) (s : Fin 4096) :
    transpose S16384x4096 [1, 0] M transposes_S4096x16384_S16384x4096_1_0 (ix2 n s) = M (ix2 s n) :=
  transpose_apply [1, 0] M transposes_S4096x16384_S16384x4096_1_0 (ix2 n s) (ix2 s n) (fun b => match b with
    | ⟨0, _⟩ => rfl
    | ⟨1, _⟩ => rfl)

/-- A bias of 256 entries broadcast along the 4096 rows reads, at (r, q), the bias at q. -/
theorem rowbias_apply (b : FVec Ideal S256 .f32) (i : S4096x256.Idx) :
    broadcastInDim S4096x256 ![0, 1] bcast_S1x256_S4096x256_0_1 (broadcastInDim S1x256 ![1] bcast_S256_S1x256_1 b) i
      = b (ix1 (i 1)) := by
  refine (broadcastInDim_apply _ bcast_S1x256_S4096x256_0_1 _ i (ix2 (0 : Fin 1) (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])).trans ?_
  exact broadcastInDim_apply _ bcast_S256_S1x256_1 b (ix2 (0 : Fin 1) (i 1)) (ix1 (i 1)) (fun a => match a with
    | ⟨0, _⟩ => by show (i 1).val = if (256 : Nat) = 1 then 0 else (i 1).val; rw [if_neg (by decide)])

/-- The product of the membership matrix with its transpose at (r, s) is the inner product of its rows r and s. -/
theorem overlap_apply (M : FVec Ideal S4096x16384 .f32) (i : S4096x4096.Idx) :
    Host.dotGeneral (F := Ideal) dot_S4096x16384_S16384x4096_S4096x4096_1_0_0_1_n_n none M
        (transpose S16384x4096 [1, 0] M transposes_S4096x16384_S16384x4096_1_0) i
      = Cert.Spec.overlap M (i 0) (i 1) := by
  rw [dot16384_apply]
  exact Finset.sum_congr rfl fun n _ => congrArg (M (ix2 (i 0) n) * ·) (transpose_apply_ns M n (i 1))

end Cert.ReferenceIdeal.RefValue

end
-- ==== Proof.RefProj.lean ====
import proofs.«137111_j70342974374329_2_alg».proof.Proof.RefOps

/-!
# The reference's input projection is the specification's

Read at an index (r, k), the reference's projection of a pooled array `p` and the group features `f` is
`((Σ_j p[r,j]·wa[j,k] + ba[k]) + Σ_j f[r,j]·win[j,k]) + bin[k]`: the two contractions are sums over the contracted
coordinate, each bias is broadcast along the rows, and the sums are taken in the order the specification writes them.
-/

noncomputable section

open scoped BigOperators

namespace Cert.ReferenceIdeal.RefValue

open Cert.ReferenceIdeal Cert.ReferenceIdeal.Gen Idealize.ShloMosaic Idealize.ShloMosaic.ValueIdx

/-- The reference's projection term of a pooled array, the features, the two weight matrices and the two biases is the
    specification's projection. -/
theorem proj_raw (p : FVec Ideal S4096x256 .f32) (f : FVec Ideal S4096x128 .f32) (wa : FVec Ideal S256x256 .f32)
    (ba : FVec Ideal S256 .f32) (win : FVec Ideal S128x256 .f32) (bin : FVec Ideal S256 .f32) :
    addf (addf (addf (Host.dotGeneral (F := Ideal) dot_S4096x256_S256x256_S4096x256_1_0_0_1_n_n none p wa) (broadcastInDim S4096x256 ![0, 1] bcast_S1x256_S4096x256_0_1 (broadcastInDim S1x256 ![1] bcast_S256_S1x256_1 ba)))
        (Host.dotGeneral (F := Ideal) dot_S4096x128_S128x256_S4096x256_1_0_0_1_n_n none f win)) (broadcastInDim S4096x256 ![0, 1] bcast_S1x256_S4096x256_0_1 (broadcastInDim S1x256 ![1] bcast_S256_S1x256_1 bin))
      = Cert.Spec.proj p f wa ba win bin := by
  funext i
  simp only [addf_apply, dot256_apply, dot128_apply]
  rw [rowbias_apply ba i, rowbias_apply bin i]
  rfl

end Cert.ReferenceIdeal.RefValue

end
-- ==== Proof.RefAdj.lean ====
import proofs.«137111_j70342974374329_2_alg».proof.Proof.RefOps

/-!
# The reference's adjacency is the specification's

At (r, s) the reference multiplies the indicator that rows r and s of the membership matrix have a positive inner
product by one minus the indicator that r = s. Both indicators are 0 or 1, so on the diagonal the product is
`x · (1 - 1) = 0` and off it `x · (1 - 0) = x`: the specification's adjacency. Rows and columns are below 4096, so their
32-bit words are equal exactly when they are.
-/

noncomputable section

open scoped BigOperators

namespace Cert.ReferenceIdeal.RefValue

open Cert.ReferenceIdeal Cert.ReferenceIdeal.Gen Idealize.ShloMosaic Idealize.ShloMosaic.ValueIdx

/-- Two naturals below 4096 have equal 32-bit words exactly when they are equal. -/
theorem word_eq_iff (a b : Nat) (ha : a < 4096) (hb : b < 4096) :
    IntOp.cmpi .eq (IntOp.addi (BitVec.ofNat 32 a) 0#32) (BitVec.ofNat 32 b) = BitVec.ofBool (decide (a = b)) := by
  have h : BitVec.ofNat 32 a = BitVec.ofNat 32 b ↔ a = b := by
    constructor
    · intro h
      have h' := congrArg BitVec.toNat h
      rw [BitVec.toNat_ofNat, BitVec.toNat_ofNat, Nat.mod_eq_of_lt (by omega), Nat.mod_eq_of_lt (by omega)] at h'
      exact h'
    · rintro rfl; rfl
  show BitVec.ofBool (BitVec.ofNat 32 a + 0#32 == BitVec.ofNat 32 b) = _
  rw [BitVec.add_zero]
  by_cases hab : a = b
  · subst hab; simp
  · have hne : (BitVec.ofNat 32 a == BitVec.ofNat 32 b) = false := beq_eq_false_iff_ne.mpr fun e => hab (h.mp e)
    rw [hne, decide_eq_false hab]

/-- The indicator of a positive number times one minus the indicator of a proposition: 0 where the proposition holds,
    the first indicator elsewhere. -/
theorem adj_scalar (s : Ideal .f32) (e : Prop) [Decidable e] :
    FloatOps.mulf (F := Ideal) (FloatOps.uitofp (F := Ideal) .f32 (FloatOps.cmpf (F := Ideal) .ogt s (FloatOps.ofBits (F := Ideal) .f32 0x00000000#32)))
      (FloatOps.subf (F := Ideal) (FloatOps.ofBits (F := Ideal) .f32 0x3F800000#32) (FloatOps.uitofp (F := Ideal) .f32 (BitVec.ofBool (decide e))))
    = if e then 0 else if 0 < s then 1 else 0 := by
  have h1 : Ideal.ofBits .f32 0x3F800000#32 = 1 := IdealRules.sign_bit.ideal_onePat .f32
  simp only [Ideal.mulf_def, Ideal.subf_def, Ideal.ofBits_def, Ideal.cmpf_def, Ideal.cmp, Ideal.ofBits_zero_f32, h1]
  show (((BitVec.ofBool (decide (0 < s))).toNat : ℝ) : EReal) * (1 - (((BitVec.ofBool (decide e)).toNat : ℝ) : EReal)) = _
  have h11 : (1 : EReal) - 1 = 0 := by rw [← EReal.coe_one, ← EReal.coe_sub, sub_self, EReal.coe_zero]
  by_cases he : e <;> by_cases hs : (0 : EReal) < s <;> simp [he, hs, h11]

/-- The reference's adjacency term of a membership matrix is the specification's adjacency. -/
theorem adj_raw (M : FVec Ideal S4096x16384 .f32) :
    mulf (uitofp .f32 (cmpf .ogt (Host.dotGeneral (F := Ideal) dot_S4096x16384_S16384x4096_S4096x4096_1_0_0_1_n_n none M
          (transpose S16384x4096 [1, 0] M transposes_S4096x16384_S16384x4096_1_0))
        (broadcastInDim S4096x4096 ![] bcast_S_S4096x4096 (constant (F := Ideal) S_ .f32 0x00000000#32))))
      (subf (broadcastInDim S4096x4096 ![] bcast_S_S4096x4096 (constant (F := Ideal) S_ .f32 0x3F800000#32))
        (uitofp .f32 (cmpi .eq (addi (iotaInDim S4096x4096 32 0) (broadcastInDim S4096x4096 ![] bcast_S_S4096x4096 (constantI S_ 32 0#32)))
          (iotaInDim S4096x4096 32 1))))
      = Cert.Spec.adj M := by
  funext i
  show FloatOps.mulf (F := Ideal) (FloatOps.uitofp (F := Ideal) .f32 (FloatOps.cmpf (F := Ideal) .ogt
        (Host.dotGeneral (F := Ideal) dot_S4096x16384_S16384x4096_S4096x4096_1_0_0_1_n_n none M
          (transpose S16384x4096 [1, 0] M transposes_S4096x16384_S16384x4096_1_0) i)
        (FloatOps.ofBits (F := Ideal) .f32 0x00000000#32)))
      (FloatOps.subf (F := Ideal) (FloatOps.ofBits (F := Ideal) .f32 0x3F800000#32) (FloatOps.uitofp (F := Ideal) .f32
        (IntOp.cmpi .eq (IntOp.addi (BitVec.ofNat 32 (i 0).val) 0#32) (BitVec.ofNat 32 (i 1).val)))) = _
  rw [overlap_apply, word_eq_iff _ _ (i 0).isLt (i 1).isLt]
  exact adj_scalar _ _

end Cert.ReferenceIdeal.RefValue

end
-- ==== Proof.RefLayer.lean ====
import proofs.«137111_j70342974374329_2_alg».proof.Proof.RefOps

/-!
# One of the reference's message-passing layers is the specification's

At (r, k) a layer is `max (((Σ_j g[r,j]·ws[j,k]) + Σ_j (Σ_s A[r,s]·g[s,j])·wn[j,k]) + b[k]) 0`: three contractions read as
sums over the contracted coordinate, the bias broadcast along the rows, and the maximum with the zero array.
-/

noncomputable section

open scoped BigOperators

namespace Cert.ReferenceIdeal.RefValue

open Cert.ReferenceIdeal Cert.ReferenceIdeal.Gen Idealize.ShloMosaic Idealize.ShloMosaic.ValueIdx

/-- The zero array reads 0 everywhere. -/
theorem zero_splat_apply (i : S4096x256.Idx) :
    broadcastInDim S4096x256 ![] bcast_S_S4096x256 (constant (F := Ideal) S_ .f32 0x00000000#32) i = 0 :=
  show Ideal.ofBits .f32 0x00000000#32 = 0 from Ideal.ofBits_zero_f32

/-- The reference's layer term of an adjacency, the incoming features, the two weight matrices and the bias is the
    specification's layer. -/
theorem layer_raw (A : FVec Ideal S4096x4096 .f32) (g : FVec Ideal S4096x256 .f32) (ws wn : FVec Ideal S256x256 .f32)
    (b : FVec Ideal S256 .f32) :
    maximumf (addf (addf (Host.dotGeneral (F := Ideal) dot_S4096x256_S256x256_S4096x256_1_0_0_1_n_n none g ws)
          (Host.dotGeneral (F := Ideal) dot_S4096x256_S256x256_S4096x256_1_0_0_1_n_n none
            (Host.dotGeneral (F := Ideal) dot_S4096x4096_S4096x256_S4096x256_1_0_0_1_n_n none A g) wn))
        (broadcastInDim S4096x256 ![0, 1] bcast_S1x256_S4096x256_0_1 (broadcastInDim S1x256 ![1] bcast_S256_S1x256_1 b)))
      (broadcastInDim S4096x256 ![] bcast_S_S4096x256 (constant (F := Ideal) S_ .f32 0x00000000#32))
      = Cert.Spec.layer A g ws wn b := by
  funext i
  simp only [maximumf_apply, addf_apply, dot256_apply, dot4096_apply]
  rw [rowbias_apply b i, zero_splat_apply i]
  rfl

end Cert.ReferenceIdeal.RefValue

end
-- ==== Proof.RefNet.lean ====
import proofs.«137111_j70342974374329_2_alg».proof.Proof.RefProj
import proofs.«137111_j70342974374329_2_alg».proof.Proof.RefAdj
import proofs.«137111_j70342974374329_2_alg».proof.Proof.RefLayer

/-!
# The reference's composed term is the specification's network

The reference computes, from its ten arguments: the pooled array (each group's sixteen gathered atom rows, negative
indices wrapped, summed and divided by 16); the membership matrix (zeros with a one scattered at each group's atoms);
the input projection; the adjacency; and two message-passing layers over the layer-0 and layer-1 slices of the stacked
weights and biases. The pooled array, the membership matrix and the slices are kept as named functions of the
arguments; in terms of them the composed term is the specification's network.
-/

noncomputable section

open scoped BigOperators

namespace Cert.ReferenceIdeal.RefValue

open Cert.ReferenceIdeal Cert.ReferenceIdeal.Gen Idealize.ShloMosaic Idealize.ShloMosaic.ValueIdx

/-- The pooled array: each group's sixteen atom rows (a negative index wrapped by 16384), summed from zero and divided by 16. -/
def pooled (x : FVec Ideal S16384x256 .f32) (gi : IVec S4096x16 32) : FVec Ideal S4096x256 .f32 :=
  Host.divf (F := Ideal) (Host.reduceAdd (F := Ideal) (Host.gather gather_S16384x256_S4096x16x1_S4096x16x256_2_0_n_n_0_2_1256 x (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))) (constant (F := Ideal) S_ .f32 0x00000000#32) reducesTo_S4096x16x256_S4096x256_d1 h_S_) (broadcastInDim S4096x256 ![] bcast_S_S4096x256 (constant (F := Ideal) S_ .f32 0x41800000#32))

/-- The membership matrix: zeros, with a one scattered at (row, index) for each of a group's sixteen indices (negative ones wrapped). -/
def member (gi : IVec S4096x16 32) : FVec Ideal S4096x16384 .f32 :=
  Host.scatter scatter_S4096x16384_S4096x16x2_S4096x16_n_01_01_2 (fun _ b => b) (broadcastInDim S4096x16384 ![] bcast_S_S4096x16384 (constant (F := Ideal) S_ .f32 0x00000000#32)) (concatenate S4096x16x2 2 [⟨S4096x16x1, (broadcastInDim S4096x16x1 ![0, 1] bcast_S4096x16_S4096x16x1_0_1 (broadcastInDim S4096x16 ![0, 1] bcast_S4096x1_S4096x16_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x16x1, (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))⟩] concatenates_S4096x16x1_S4096x16x1_S4096x16x2_d2) (broadcastInDim S4096x16 ![] bcast_S_S4096x16 (constant (F := Ideal) S_ .f32 0x3F800000#32))

/-- Layer 0 of a stacked pair of weight matrices. -/
def wslice0 (w : FVec Ideal S2x256x256 .f32) : FVec Ideal S256x256 .f32 :=
  shapeCast _ (extractStridedSlice S1x256x256 ![0, 0, 0] w slices_S2x256x256_S1x256x256_0_0_0) shapeCasts_S1x256x256_S256x256
/-- Layer 1 of a stacked pair of weight matrices. -/
def wslice1 (w : FVec Ideal S2x256x256 .f32) : FVec Ideal S256x256 .f32 :=
  shapeCast _ (extractStridedSlice S1x256x256 ![1, 0, 0] w slices_S2x256x256_S1x256x256_1_0_0) shapeCasts_S1x256x256_S256x256
/-- Layer 0 of a stacked pair of biases. -/
def bslice0 (b : FVec Ideal S2x256 .f32) : FVec Ideal S256 .f32 :=
  shapeCast _ (extractStridedSlice S1x256 ![0, 0] b slices_S2x256_S1x256_0_0) shapeCasts_S1x256_S256
/-- Layer 1 of a stacked pair of biases. -/
def bslice1 (b : FVec Ideal S2x256 .f32) : FVec Ideal S256 .f32 :=
  shapeCast _ (extractStridedSlice S1x256 ![1, 0] b slices_S2x256_S1x256_1_0) shapeCasts_S1x256_S256

/-- The reference's projection term. -/
def projT (p : FVec Ideal S4096x256 .f32) (f : FVec Ideal S4096x128 .f32) (wa : FVec Ideal S256x256 .f32)
    (ba : FVec Ideal S256 .f32) (win : FVec Ideal S128x256 .f32) (bin : FVec Ideal S256 .f32) : FVec Ideal S4096x256 .f32 :=
  addf (addf (addf (Host.dotGeneral (F := Ideal) dot_S4096x256_S256x256_S4096x256_1_0_0_1_n_n none p wa) (broadcastInDim S4096x256 ![0, 1] bcast_S1x256_S4096x256_0_1 (broadcastInDim S1x256 ![1] bcast_S256_S1x256_1 ba)))
    (Host.dotGeneral (F := Ideal) dot_S4096x128_S128x256_S4096x256_1_0_0_1_n_n none f win)) (broadcastInDim S4096x256 ![0, 1] bcast_S1x256_S4096x256_0_1 (broadcastInDim S1x256 ![1] bcast_S256_S1x256_1 bin))
theorem projT_eq (p : FVec Ideal S4096x256 .f32) (f : FVec Ideal S4096x128 .f32) (wa : FVec Ideal S256x256 .f32)
    (ba : FVec Ideal S256 .f32) (win : FVec Ideal S128x256 .f32) (bin : FVec Ideal S256 .f32) :
    projT p f wa ba win bin = Cert.Spec.proj p f wa ba win bin := proj_raw p f wa ba win bin

/-- The reference's adjacency term. -/
def adjT (M : FVec Ideal S4096x16384 .f32) : FVec Ideal S4096x4096 .f32 :=
  mulf (uitofp .f32 (cmpf .ogt (Host.dotGeneral (F := Ideal) dot_S4096x16384_S16384x4096_S4096x4096_1_0_0_1_n_n none M
          (transpose S16384x4096 [1, 0] M transposes_S4096x16384_S16384x4096_1_0))
        (broadcastInDim S4096x4096 ![] bcast_S_S4096x4096 (constant (F := Ideal) S_ .f32 0x00000000#32))))
      (subf (broadcastInDim S4096x4096 ![] bcast_S_S4096x4096 (constant (F := Ideal) S_ .f32 0x3F800000#32))
        (uitofp .f32 (cmpi .eq (addi (iotaInDim S4096x4096 32 0) (broadcastInDim S4096x4096 ![] bcast_S_S4096x4096 (constantI S_ 32 0#32)))
          (iotaInDim S4096x4096 32 1))))
theorem adjT_eq (M : FVec Ideal S4096x16384 .f32) : adjT M = Cert.Spec.adj M := adj_raw M

/-- The reference's layer term. -/
def layerT (A : FVec Ideal S4096x4096 .f32) (g : FVec Ideal S4096x256 .f32) (ws wn : FVec Ideal S256x256 .f32)
    (b : FVec Ideal S256 .f32) : FVec Ideal S4096x256 .f32 :=
  maximumf (addf (addf (Host.dotGeneral (F := Ideal) dot_S4096x256_S256x256_S4096x256_1_0_0_1_n_n none g ws)
          (Host.dotGeneral (F := Ideal) dot_S4096x256_S256x256_S4096x256_1_0_0_1_n_n none
            (Host.dotGeneral (F := Ideal) dot_S4096x4096_S4096x256_S4096x256_1_0_0_1_n_n none A g) wn))
        (broadcastInDim S4096x256 ![0, 1] bcast_S1x256_S4096x256_0_1 (broadcastInDim S1x256 ![1] bcast_S256_S1x256_1 b)))
      (broadcastInDim S4096x256 ![] bcast_S_S4096x256 (constant (F := Ideal) S_ .f32 0x00000000#32))
theorem layerT_eq (A : FVec Ideal S4096x4096 .f32) (g : FVec Ideal S4096x256 .f32) (ws wn : FVec Ideal S256x256 .f32)
    (b : FVec Ideal S256 .f32) : layerT A g ws wn b = Cert.Spec.layer A g ws wn b := layer_raw A g ws wn b

/-- The reference's composed term of its ten arguments. -/
def refNet (x : FVec Ideal S16384x256 .f32) (gi : IVec S4096x16 32) (gf : FVec Ideal S4096x128 .f32)
    (win : FVec Ideal S128x256 .f32) (bin : FVec Ideal S256 .f32) (wa : FVec Ideal S256x256 .f32) (ba : FVec Ideal S256 .f32)
    (wself wneigh : FVec Ideal S2x256x256 .f32) (bmp : FVec Ideal S2x256 .f32) : FVec Ideal S4096x256 .f32 :=
  layerT (adjT (member gi))
    (layerT (adjT (member gi)) (projT (pooled x gi) gf wa ba win bin) (wslice0 wself) (wslice0 wneigh) (bslice0 bmp))
    (wslice1 wself) (wslice1 wneigh) (bslice1 bmp)

/-- The composed term is the specification's network of the pooled array, the membership matrix and the slices. -/
theorem refNet_eq (x : FVec Ideal S16384x256 .f32) (gi : IVec S4096x16 32) (gf : FVec Ideal S4096x128 .f32)
    (win : FVec Ideal S128x256 .f32) (bin : FVec Ideal S256 .f32) (wa : FVec Ideal S256x256 .f32) (ba : FVec Ideal S256 .f32)
    (wself wneigh : FVec Ideal S2x256x256 .f32) (bmp : FVec Ideal S2x256 .f32) :
    refNet x gi gf win bin wa ba wself wneigh bmp
      = Cert.Spec.net (pooled x gi) (member gi) gf win bin wa ba (wslice0 wself) (wslice0 wneigh) (bslice0 bmp)
          (wslice1 wself) (wslice1 wneigh) (bslice1 bmp) := by
  unfold refNet Cert.Spec.net
  rw [projT_eq, adjT_eq, layerT_eq, layerT_eq]

set_option maxRecDepth 8192 in
/-- The composed term written out over the reference's own operations. -/
theorem refNet_unfold (x : FVec Ideal S16384x256 .f32) (gi : IVec S4096x16 32) (gf : FVec Ideal S4096x128 .f32)
    (win : FVec Ideal S128x256 .f32) (bin : FVec Ideal S256 .f32) (wa : FVec Ideal S256x256 .f32) (ba : FVec Ideal S256 .f32)
    (wself wneigh : FVec Ideal S2x256x256 .f32) (bmp : FVec Ideal S2x256 .f32) :
    refNet x gi gf win bin wa ba wself wneigh bmp
      = maximumf (addf (addf (Host.dotGeneral (F := Ideal) dot_S4096x256_S256x256_S4096x256_1_0_0_1_n_n none (maximumf (addf (addf (Host.dotGeneral (F := Ideal) dot_S4096x256_S256x256_S4096x256_1_0_0_1_n_n none (addf (addf (addf (Host.dotGeneral (F := Ideal) dot_S4096x256_S256x256_S4096x256_1_0_0_1_n_n none (Host.divf (F := Ideal) (Host.reduceAdd (F := Ideal) (Host.gather gather_S16384x256_S4096x16x1_S4096x16x256_2_0_n_n_0_2_1256 x (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))) (constant (F := Ideal) S_ .f32 0x00000000#32) reducesTo_S4096x16x256_S4096x256_d1 h_S_) (broadcastInDim S4096x256 ![] bcast_S_S4096x256 (constant (F := Ideal) S_ .f32 0x41800000#32))) wa) (broadcastInDim S4096x256 ![0, 1] bcast_S1x256_S4096x256_0_1 (broadcastInDim S1x256 ![1] bcast_S256_S1x256_1 ba))) (Host.dotGeneral (F := Ideal) dot_S4096x128_S128x256_S4096x256_1_0_0_1_n_n none gf win)) (broadcastInDim S4096x256 ![0, 1] bcast_S1x256_S4096x256_0_1 (broadcastInDim S1x256 ![1] bcast_S256_S1x256_1 bin))) (shapeCast _ (extractStridedSlice S1x256x256 ![0, 0, 0] wself slices_S2x256x256_S1x256x256_0_0_0) shapeCasts_S1x256x256_S256x256)) (Host.dotGeneral (F := Ideal) dot_S4096x256_S256x256_S4096x256_1_0_0_1_n_n none (Host.dotGeneral (F := Ideal) dot_S4096x4096_S4096x256_S4096x256_1_0_0_1_n_n none (mulf (uitofp .f32 (cmpf .ogt (Host.dotGeneral (F := Ideal) dot_S4096x16384_S16384x4096_S4096x4096_1_0_0_1_n_n none (Host.scatter scatter_S4096x16384_S4096x16x2_S4096x16_n_01_01_2 (fun _ b => b) (broadcastInDim S4096x16384 ![] bcast_S_S4096x16384 (constant (F := Ideal) S_ .f32 0x00000000#32)) (concatenate S4096x16x2 2 [⟨S4096x16x1, (broadcastInDim S4096x16x1 ![0, 1] bcast_S4096x16_S4096x16x1_0_1 (broadcastInDim S4096x16 ![0, 1] bcast_S4096x1_S4096x16_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x16x1, (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))⟩] concatenates_S4096x16x1_S4096x16x1_S4096x16x2_d2) (broadcastInDim S4096x16 ![] bcast_S_S4096x16 (constant (F := Ideal) S_ .f32 0x3F800000#32))) (transpose S16384x4096 [1, 0] (Host.scatter scatter_S4096x16384_S4096x16x2_S4096x16_n_01_01_2 (fun _ b => b) (broadcastInDim S4096x16384 ![] bcast_S_S4096x16384 (constant (F := Ideal) S_ .f32 0x00000000#32)) (concatenate S4096x16x2 2 [⟨S4096x16x1, (broadcastInDim S4096x16x1 ![0, 1] bcast_S4096x16_S4096x16x1_0_1 (broadcastInDim S4096x16 ![0, 1] bcast_S4096x1_S4096x16_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x16x1, (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))⟩] concatenates_S4096x16x1_S4096x16x1_S4096x16x2_d2) (broadcastInDim S4096x16 ![] bcast_S_S4096x16 (constant (F := Ideal) S_ .f32 0x3F800000#32))) transposes_S4096x16384_S16384x4096_1_0)) (broadcastInDim S4096x4096 ![] bcast_S_S4096x4096 (constant (F := Ideal) S_ .f32 0x00000000#32)))) (subf (broadcastInDim S4096x4096 ![] bcast_S_S4096x4096 (constant (F := Ideal) S_ .f32 0x3F800000#32)) (uitofp .f32 (cmpi .eq (addi (iotaInDim S4096x4096 32 0) (broadcastInDim S4096x4096 ![] bcast_S_S4096x4096 (constantI S_ 32 0#32))) (iotaInDim S4096x4096 32 1))))) (addf (addf (addf (Host.dotGeneral (F := Ideal) dot_S4096x256_S256x256_S4096x256_1_0_0_1_n_n none (Host.divf (F := Ideal) (Host.reduceAdd (F := Ideal) (Host.gather gather_S16384x256_S4096x16x1_S4096x16x256_2_0_n_n_0_2_1256 x (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))) (constant (F := Ideal) S_ .f32 0x00000000#32) reducesTo_S4096x16x256_S4096x256_d1 h_S_) (broadcastInDim S4096x256 ![] bcast_S_S4096x256 (constant (F := Ideal) S_ .f32 0x41800000#32))) wa) (broadcastInDim S4096x256 ![0, 1] bcast_S1x256_S4096x256_0_1 (broadcastInDim S1x256 ![1] bcast_S256_S1x256_1 ba))) (Host.dotGeneral (F := Ideal) dot_S4096x128_S128x256_S4096x256_1_0_0_1_n_n none gf win)) (broadcastInDim S4096x256 ![0, 1] bcast_S1x256_S4096x256_0_1 (broadcastInDim S1x256 ![1] bcast_S256_S1x256_1 bin)))) (shapeCast _ (extractStridedSlice S1x256x256 ![0, 0, 0] wneigh slices_S2x256x256_S1x256x256_0_0_0) shapeCasts_S1x256x256_S256x256))) (broadcastInDim S4096x256 ![0, 1] bcast_S1x256_S4096x256_0_1 (broadcastInDim S1x256 ![1] bcast_S256_S1x256_1 (shapeCast _ (extractStridedSlice S1x256 ![0, 0] bmp slices_S2x256_S1x256_0_0) shapeCasts_S1x256_S256)))) (broadcastInDim S4096x256 ![] bcast_S_S4096x256 (constant (F := Ideal) S_ .f32 0x00000000#32))) (shapeCast _ (extractStridedSlice S1x256x256 ![1, 0, 0] wself slices_S2x256x256_S1x256x256_1_0_0) shapeCasts_S1x256x256_S256x256)) (Host.dotGeneral (F := Ideal) dot_S4096x256_S256x256_S4096x256_1_0_0_1_n_n none (Host.dotGeneral (F := Ideal) dot_S4096x4096_S4096x256_S4096x256_1_0_0_1_n_n none (mulf (uitofp .f32 (cmpf .ogt (Host.dotGeneral (F := Ideal) dot_S4096x16384_S16384x4096_S4096x4096_1_0_0_1_n_n none (Host.scatter scatter_S4096x16384_S4096x16x2_S4096x16_n_01_01_2 (fun _ b => b) (broadcastInDim S4096x16384 ![] bcast_S_S4096x16384 (constant (F := Ideal) S_ .f32 0x00000000#32)) (concatenate S4096x16x2 2 [⟨S4096x16x1, (broadcastInDim S4096x16x1 ![0, 1] bcast_S4096x16_S4096x16x1_0_1 (broadcastInDim S4096x16 ![0, 1] bcast_S4096x1_S4096x16_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x16x1, (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))⟩] concatenates_S4096x16x1_S4096x16x1_S4096x16x2_d2) (broadcastInDim S4096x16 ![] bcast_S_S4096x16 (constant (F := Ideal) S_ .f32 0x3F800000#32))) (transpose S16384x4096 [1, 0] (Host.scatter scatter_S4096x16384_S4096x16x2_S4096x16_n_01_01_2 (fun _ b => b) (broadcastInDim S4096x16384 ![] bcast_S_S4096x16384 (constant (F := Ideal) S_ .f32 0x00000000#32)) (concatenate S4096x16x2 2 [⟨S4096x16x1, (broadcastInDim S4096x16x1 ![0, 1] bcast_S4096x16_S4096x16x1_0_1 (broadcastInDim S4096x16 ![0, 1] bcast_S4096x1_S4096x16_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x16x1, (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))⟩] concatenates_S4096x16x1_S4096x16x1_S4096x16x2_d2) (broadcastInDim S4096x16 ![] bcast_S_S4096x16 (constant (F := Ideal) S_ .f32 0x3F800000#32))) transposes_S4096x16384_S16384x4096_1_0)) (broadcastInDim S4096x4096 ![] bcast_S_S4096x4096 (constant (F := Ideal) S_ .f32 0x00000000#32)))) (subf (broadcastInDim S4096x4096 ![] bcast_S_S4096x4096 (constant (F := Ideal) S_ .f32 0x3F800000#32)) (uitofp .f32 (cmpi .eq (addi (iotaInDim S4096x4096 32 0) (broadcastInDim S4096x4096 ![] bcast_S_S4096x4096 (constantI S_ 32 0#32))) (iotaInDim S4096x4096 32 1))))) (maximumf (addf (addf (Host.dotGeneral (F := Ideal) dot_S4096x256_S256x256_S4096x256_1_0_0_1_n_n none (addf (addf (addf (Host.dotGeneral (F := Ideal) dot_S4096x256_S256x256_S4096x256_1_0_0_1_n_n none (Host.divf (F := Ideal) (Host.reduceAdd (F := Ideal) (Host.gather gather_S16384x256_S4096x16x1_S4096x16x256_2_0_n_n_0_2_1256 x (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))) (constant (F := Ideal) S_ .f32 0x00000000#32) reducesTo_S4096x16x256_S4096x256_d1 h_S_) (broadcastInDim S4096x256 ![] bcast_S_S4096x256 (constant (F := Ideal) S_ .f32 0x41800000#32))) wa) (broadcastInDim S4096x256 ![0, 1] bcast_S1x256_S4096x256_0_1 (broadcastInDim S1x256 ![1] bcast_S256_S1x256_1 ba))) (Host.dotGeneral (F := Ideal) dot_S4096x128_S128x256_S4096x256_1_0_0_1_n_n none gf win)) (broadcastInDim S4096x256 ![0, 1] bcast_S1x256_S4096x256_0_1 (broadcastInDim S1x256 ![1] bcast_S256_S1x256_1 bin))) (shapeCast _ (extractStridedSlice S1x256x256 ![0, 0, 0] wself slices_S2x256x256_S1x256x256_0_0_0) shapeCasts_S1x256x256_S256x256)) (Host.dotGeneral (F := Ideal) dot_S4096x256_S256x256_S4096x256_1_0_0_1_n_n none (Host.dotGeneral (F := Ideal) dot_S4096x4096_S4096x256_S4096x256_1_0_0_1_n_n none (mulf (uitofp .f32 (cmpf .ogt (Host.dotGeneral (F := Ideal) dot_S4096x16384_S16384x4096_S4096x4096_1_0_0_1_n_n none (Host.scatter scatter_S4096x16384_S4096x16x2_S4096x16_n_01_01_2 (fun _ b => b) (broadcastInDim S4096x16384 ![] bcast_S_S4096x16384 (constant (F := Ideal) S_ .f32 0x00000000#32)) (concatenate S4096x16x2 2 [⟨S4096x16x1, (broadcastInDim S4096x16x1 ![0, 1] bcast_S4096x16_S4096x16x1_0_1 (broadcastInDim S4096x16 ![0, 1] bcast_S4096x1_S4096x16_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x16x1, (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))⟩] concatenates_S4096x16x1_S4096x16x1_S4096x16x2_d2) (broadcastInDim S4096x16 ![] bcast_S_S4096x16 (constant (F := Ideal) S_ .f32 0x3F800000#32))) (transpose S16384x4096 [1, 0] (Host.scatter scatter_S4096x16384_S4096x16x2_S4096x16_n_01_01_2 (fun _ b => b) (broadcastInDim S4096x16384 ![] bcast_S_S4096x16384 (constant (F := Ideal) S_ .f32 0x00000000#32)) (concatenate S4096x16x2 2 [⟨S4096x16x1, (broadcastInDim S4096x16x1 ![0, 1] bcast_S4096x16_S4096x16x1_0_1 (broadcastInDim S4096x16 ![0, 1] bcast_S4096x1_S4096x16_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x16x1, (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))⟩] concatenates_S4096x16x1_S4096x16x1_S4096x16x2_d2) (broadcastInDim S4096x16 ![] bcast_S_S4096x16 (constant (F := Ideal) S_ .f32 0x3F800000#32))) transposes_S4096x16384_S16384x4096_1_0)) (broadcastInDim S4096x4096 ![] bcast_S_S4096x4096 (constant (F := Ideal) S_ .f32 0x00000000#32)))) (subf (broadcastInDim S4096x4096 ![] bcast_S_S4096x4096 (constant (F := Ideal) S_ .f32 0x3F800000#32)) (uitofp .f32 (cmpi .eq (addi (iotaInDim S4096x4096 32 0) (broadcastInDim S4096x4096 ![] bcast_S_S4096x4096 (constantI S_ 32 0#32))) (iotaInDim S4096x4096 32 1))))) (addf (addf (addf (Host.dotGeneral (F := Ideal) dot_S4096x256_S256x256_S4096x256_1_0_0_1_n_n none (Host.divf (F := Ideal) (Host.reduceAdd (F := Ideal) (Host.gather gather_S16384x256_S4096x16x1_S4096x16x256_2_0_n_n_0_2_1256 x (broadcastInDim S4096x16x1 ![0, 1] bcast_S4096x16_S4096x16x1_0_1 (select (cmpi .slt gi (broadcastInDim S4096x16 ![] bcast_S_S4096x16 (constantI S_ 32 0#32))) (addi gi (broadcastInDim S4096x16 ![] bcast_S_S4096x16 (constantI S_ 32 16384#32))) gi))) (constant (F := Ideal) S_ .f32 0x00000000#32) reducesTo_S4096x16x256_S4096x256_d1 h_S_) (broadcastInDim S4096x256 ![] bcast_S_S4096x256 (constant (F := Ideal) S_ .f32 0x41800000#32))) wa) (broadcastInDim S4096x256 ![0, 1] bcast_S1x256_S4096x256_0_1 (broadcastInDim S1x256 ![1] bcast_S256_S1x256_1 ba))) (Host.dotGeneral (F := Ideal) dot_S4096x128_S128x256_S4096x256_1_0_0_1_n_n none gf win)) (broadcastInDim S4096x256 ![0, 1] bcast_S1x256_S4096x256_0_1 (broadcastInDim S1x256 ![1] bcast_S256_S1x256_1 bin)))) (shapeCast _ (extractStridedSlice S1x256x256 ![0, 0, 0] wneigh slices_S2x256x256_S1x256x256_0_0_0) shapeCasts_S1x256x256_S256x256))) (broadcastInDim S4096x256 ![0, 1] bcast_S1x256_S4096x256_0_1 (broadcastInDim S1x256 ![1] bcast_S256_S1x256_1 (shapeCast _ (extractStridedSlice S1x256 ![0, 0] bmp slices_S2x256_S1x256_0_0) shapeCasts_S1x256_S256)))) (broadcastInDim S4096x256 ![] bcast_S_S4096x256 (constant (F := Ideal) S_ .f32 0x00000000#32)))) (shapeCast _ (extractStridedSlice S1x256x256 ![1, 0, 0] wneigh slices_S2x256x256_S1x256x256_1_0_0) shapeCasts_S1x256x256_S256x256))) (broadcastInDim S4096x256 ![0, 1] bcast_S1x256_S4096x256_0_1 (broadcastInDim S1x256 ![1] bcast_S256_S1x256_1 (shapeCast _ (extractStridedSlice S1x256 ![1, 0] bmp slices_S2x256_S1x256_1_0) shapeCasts_S1x256_S256)))) (broadcastInDim S4096x256 ![] bcast_S_S4096x256 (constant (F := Ideal) S_ .f32 0x00000000#32)) := rfl

end Cert.ReferenceIdeal.RefValue

end
-- ==== Proof.Bridge.lean ====
import proofs.«137111_j70342974374329_2_alg».proof.Proof.Gen.KernelIdeal.Launch
import proofs.«137111_j70342974374329_2_alg».proof.Proof.RefNet
import Idealize.ShloMosaic.Lib.StableHlo.Run

/-!
# The kernel program's host operations compute the reference's host prefix

Before its first region the kernel program gathers and averages each group's atom rows and scatters the membership
matrix; between its regions it slices the stacked weights and biases. These are the same operations, on the same
arguments, as the reference's: the pooled array, the membership matrix and the layer-0 and layer-1 slices. The
membership matrix is written in a sixteen-bit float format here and in the thirty-two-bit one there; over the
extended reals both formats' patterns of zero and of one denote 0 and 1, so the two arrays are equal.
-/

noncomputable section

namespace Cert.KernelIdeal.HandValue

open Cert.KernelIdeal Cert.KernelIdeal.Gen Idealize.ShloMosaic Idealize.ShloMosaic.TcCoe Idealize.ShloMosaic.StableHlo

/-- The sixteen-bit zero pattern and the thirty-two-bit one denote the same extended real. -/
theorem zero_bf16_f32 : Ideal.ofBits .bf16 0x0000#16 = Ideal.ofBits .f32 0x00000000#32 :=
  (IdealRules.sign_bit.ideal_zero .bf16).trans (IdealRules.sign_bit.ideal_zero .f32).symm
/-- The sixteen-bit pattern of one and the thirty-two-bit one denote the same extended real. -/
theorem one_bf16_f32 : Ideal.ofBits .bf16 0x3F80#16 = Ideal.ofBits .f32 0x3F800000#32 :=
  (IdealRules.sign_bit.ideal_onePat .bf16).trans (IdealRules.sign_bit.ideal_onePat .f32).symm

/-- After the second stretch of host operations the layer-0 self weights are the reference's slice. -/
theorem host2_ws (W : Valuation τ sig (Elt Ideal)) :
    StableHlo.after (hostOps2 (F := Ideal)) W main_v32 = Cert.ReferenceIdeal.RefValue.wslice0 (W main_arg7) := by
  dsimp only [hostOps2]
  after_results
  rfl
/-- … the layer-0 neighbour weights … -/
theorem host2_wn (W : Valuation τ sig (Elt Ideal)) :
    StableHlo.after (hostOps2 (F := Ideal)) W main_v34 = Cert.ReferenceIdeal.RefValue.wslice0 (W main_arg8) := by
  dsimp only [hostOps2]
  after_results
  rfl
/-- … and the layer-0 bias. -/
theorem host2_b (W : Valuation τ sig (Elt Ideal)) :
    StableHlo.after (hostOps2 (F := Ideal)) W main_v36 = Cert.ReferenceIdeal.RefValue.bslice0 (W main_arg9) := by
  dsimp only [hostOps2]
  after_results
  rfl

/-- After the third stretch of host operations the layer-1 self weights are the reference's slice. -/
theorem host3_ws (W : Valuation τ sig (Elt Ideal)) :
    StableHlo.after (hostOps3 (F := Ideal)) W main_v39 = Cert.ReferenceIdeal.RefValue.wslice1 (W main_arg7) := by
  dsimp only [hostOps3]
  after_results
  rfl
/-- … the layer-1 neighbour weights … -/
theorem host3_wn (W : Valuation τ sig (Elt Ideal)) :
    StableHlo.after (hostOps3 (F := Ideal)) W main_v41 = Cert.ReferenceIdeal.RefValue.wslice1 (W main_arg8) := by
  dsimp only [hostOps3]
  after_results
  rfl
/-- … and the layer-1 bias. -/
theorem host3_b (W : Valuation τ sig (Elt Ideal)) :
    StableHlo.after (hostOps3 (F := Ideal)) W main_v43 = Cert.ReferenceIdeal.RefValue.bslice1 (W main_arg9) := by
  dsimp only [hostOps3]
  after_results
  rfl

set_option maxRecDepth 8192 in
/-- After the first stretch of host operations the pooled array is the reference's. -/
theorem host0_pooled (W : Valuation τ sig (Elt Ideal)) :
    StableHlo.after (hostOps0 (F := Ideal)) W main_v9 = Cert.ReferenceIdeal.RefValue.pooled (W main_arg0) (W main_arg1) := by
  dsimp only [hostOps0]
  after_results_simp
  rfl

set_option maxRecDepth 8192 in
/-- After the first stretch of host operations the membership matrix is the reference's: the same scatter of ones
    into zeros, the zero and the one written in the other float format. -/
theorem host0_member (W : Valuation τ sig (Elt Ideal)) :
    StableHlo.after (hostOps0 (F := Ideal)) W main_v28 = Cert.ReferenceIdeal.RefValue.member (W main_arg1) := by
  dsimp only [hostOps0]
  after_results_simp
  have h0 : (constant (F := Ideal) S_ .bf16 0x0000#16 : S_.Idx → EReal) = constant (F := Ideal) S_ .f32 0x00000000#32 :=
    funext fun _ => zero_bf16_f32
  have h1 : (constant (F := Ideal) S_ .bf16 0x3F80#16 : S_.Idx → EReal) = constant (F := Ideal) S_ .f32 0x3F800000#32 :=
    funext fun _ => one_bf16_f32
  rw [h0, h1]
  rfl

end Cert.KernelIdeal.HandValue

end
-- ==== Proof.RefFinal.lean ====
import proofs.«137111_j70342974374329_2_alg».proof.Proof.RefRunP
import proofs.«137111_j70342974374329_2_alg».proof.Proof.RefNet

/-!
# The reference's run ends at the specification's network

Every weakly fair execution of the reference terminates with its result array at the composed term of its
operations; that term is the specification's network of the pooled array, the membership matrix, the features, the
projection's weights and biases and the layer-0 and layer-1 slices, all read off the arguments as the program found them.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 8192 in
/-- The run's composed term for the result is the reference's composed term of the ten arguments. -/
theorem res_eq_refNet (m : (ℓ : Loc nD τ sig) → Buf (Elt Ideal) ℓ) (c : Dev nD) :
    Cert.ReferenceIdeal.Value.res_main_v79 (F := Ideal) m c
      = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v79; rfl

/-- The reference's composed term of its ten arguments is the specification's network. -/
theorem result_eq (x : FVec Ideal S16384x256 .f32) (gi : IVec S4096x16 32) (gf : FVec Ideal S4096x128 .f32)
    (win : FVec Ideal S128x256 .f32) (bin : FVec Ideal S256 .f32) (wa : FVec Ideal S256x256 .f32) (ba : FVec Ideal S256 .f32)
    (wself wneigh : FVec Ideal S2x256x256 .f32) (bmp : FVec Ideal S2x256 .f32) :
    refNet x gi gf win bin wa ba wself wneigh bmp
      = Cert.Spec.net (pooled x gi) (member gi) gf win bin wa ba (wslice0 wself) (wslice0 wneigh) (bslice0 bmp)
          (wslice1 wself) (wslice1 wneigh) (bslice1 bmp) :=
  refNet_eq x gi gf win bin wa ba wself wneigh bmp

/-- The run's composed term for the result is the specification's network of the arguments' launch contents. -/
theorem res_eq (m : (ℓ : Loc nD τ sig) → Buf (Elt Ideal) ℓ) (c : Dev nD) :
    Cert.ReferenceIdeal.Value.res_main_v79 (F := Ideal) m c
      = Cert.Spec.net (pooled (m ((c.tc : Thread nD τ).loc main_arg0)) (m ((c.tc : Thread nD τ).loc main_arg1))) (member (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        (wslice0 (m ((c.tc : Thread nD τ).loc main_arg7))) (wslice0 (m ((c.tc : Thread nD τ).loc main_arg8))) (bslice0 (m ((c.tc : Thread nD τ).loc main_arg9))) (wslice1 (m ((c.tc : Thread nD τ).loc main_arg7))) (wslice1 (m ((c.tc : Thread nD τ).loc main_arg8))) (bslice1 (m ((c.tc : Thread nD τ).loc main_arg9))) :=
  (res_eq_refNet m c).trans (refNet_eq _ _ _ _ _ _ _ _ _ _)

/-- Every weakly fair execution of the reference terminates with its result at the specification's network of the
    arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v79)
        = Cert.Spec.net (pooled (m ((c.tc : Thread nD τ).loc main_arg0)) (m ((c.tc : Thread nD τ).loc main_arg1))) (member (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        (wslice0 (m ((c.tc : Thread nD τ).loc main_arg7))) (wslice0 (m ((c.tc : Thread nD τ).loc main_arg8))) (bslice0 (m ((c.tc : Thread nD τ).loc main_arg9))) (wslice1 (m ((c.tc : Thread nD τ).loc main_arg7))) (wslice1 (m ((c.tc : Thread nD τ).loc main_arg8))) (bslice1 (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (res_eq m c), (h c).2⟩)
    (Cert.ReferenceIdeal.Value.run (F := Ideal) m ρ)

end Cert.ReferenceIdeal.RefValue

end
-- ==== Proof.lean ====
/-
  The claim: the three programs run to the end, nothing faulting, with their argument arrays unchanged; the idealized kernel
  is the kernel's own text read over the extended reals (no operation was rewritten); and, over the extended reals, the
  idealized kernel and the idealized reference end with equal results.

  The network, for 4096 groups of 16 atoms with 256 hidden features: the groups' mean-pooled atom embeddings and the group
  features are projected to the hidden width; two groups are adjacent when they share an atom (the membership matrix M has a
  positive inner product between their rows) and are not the same group; two message-passing layers follow,
  max (((g W_self) + ((A g) W_neigh)) + b) 0.

  The kernel computes M Mᵀ tile by tile, accumulating sixteen partial products of 1024 columns each in a scratch buffer, and
  thresholds the finished tile with its diagonal zeroed; the reference takes the whole product, thresholds it and multiplies
  by one minus the identity. Over the extended reals the two agree: a sum of 16384 terms is the sum of its sixteen blocks
  (only commutativity and associativity of addition), and an entry that is 0 or 1 times (1 − 1) is 0, times (1 − 0) is itself.
  Every other stage is the same formula on both sides, a change of float format being the identity there.
-/
import proofs.«137111_j70342974374329_2_alg».proof.Defs
import proofs.«137111_j70342974374329_2_alg».proof.Proof.Gen.Kernel
import proofs.«137111_j70342974374329_2_alg».proof.Proof.Gen.KernelIdeal
import proofs.«137111_j70342974374329_2_alg».proof.Proof.Gen.ReferenceIdeal
import proofs.«137111_j70342974374329_2_alg».proof.Proof.Gen.Pre_finite_inputs
import proofs.«137111_j70342974374329_2_alg».proof.Proof.K.Run
import proofs.«137111_j70342974374329_2_alg».proof.Proof.KI.Net
import proofs.«137111_j70342974374329_2_alg».proof.Proof.Bridge
import proofs.«137111_j70342974374329_2_alg».proof.Proof.RefFinal
import Idealize.ShloMosaic.Adequacy
import Idealize.ShloMosaic.Init

noncomputable section

namespace Cert.Proof

open Idealize.ShloMosaic Idealize.ShloMosaic.TcCoe Idealize.SL.Sem

/-- The kernel's frame: its run, the result forgotten. -/
theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run (F := Bits) m ρ)

/-- The idealized kernel's frame. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run (F := Ideal) m ρ)

/-- The reference's frame. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

open Cert.KernelIdeal Cert.KernelIdeal.Gen Cert.KernelIdeal.Hand Cert.KernelIdeal.HandValue in
/-- The kernel's host stretches compute the reference's host prefix, so the network both sides state is one term. -/
theorem net_eq (m : (ℓ : Loc nD τ sig) → Buf (Elt Ideal) ℓ) (c : Dev nD) :
    o3 m c = Cert.Spec.net (Cert.ReferenceIdeal.RefValue.pooled (m ((c : Thread nD τ).loc main_arg0)) (m ((c : Thread nD τ).loc main_arg1)))
      (Cert.ReferenceIdeal.RefValue.member (m ((c : Thread nD τ).loc main_arg1)))
      (m ((c : Thread nD τ).loc main_arg2)) (m ((c : Thread nD τ).loc main_arg3)) (m ((c : Thread nD τ).loc main_arg4))
      (m ((c : Thread nD τ).loc main_arg5)) (m ((c : Thread nD τ).loc main_arg6))
      (Cert.ReferenceIdeal.RefValue.wslice0 (m ((c : Thread nD τ).loc main_arg7))) (Cert.ReferenceIdeal.RefValue.wslice0 (m ((c : Thread nD τ).loc main_arg8)))
      (Cert.ReferenceIdeal.RefValue.bslice0 (m ((c : Thread nD τ).loc main_arg9)))
      (Cert.ReferenceIdeal.RefValue.wslice1 (m ((c : Thread nD τ).loc main_arg7))) (Cert.ReferenceIdeal.RefValue.wslice1 (m ((c : Thread nD τ).loc main_arg8)))
      (Cert.ReferenceIdeal.RefValue.bslice1 (m ((c : Thread nD τ).loc main_arg9))) := by
  rw [o3_net]
  have e9 : W1 m c main_v9 = _ := host0_pooled (Gen.V0 m c)
  have e28 : W1 m c main_v28 = _ := host0_member (Gen.V0 m c)
  have e32 : W4 m c main_v32 = _ := host2_ws (W3 m c)
  have e34 : W4 m c main_v34 = _ := host2_wn (W3 m c)
  have e36 : W4 m c main_v36 = _ := host2_b (W3 m c)
  have e39 : W6 m c main_v39 = _ := host3_ws (W5 m c)
  have e41 : W6 m c main_v41 = _ := host3_wn (W5 m c)
  have e43 : W6 m c main_v43 = _ := host3_b (W5 m c)
  rw [e9, e28, e32, e34, e36, e39, e41, e43,
    W3_arg m c main_arg7 (by decide) (by decide) (by decide), W3_arg m c main_arg8 (by decide) (by decide) (by decide), W3_arg m c main_arg9 (by decide) (by decide) (by decide),
    W5_arg m c main_arg7 (by decide) (by decide) (by decide) (by decide) (by decide), W5_arg m c main_arg8 (by decide) (by decide) (by decide) (by decide) (by decide),
    W5_arg m c main_arg9 (by decide) (by decide) (by decide) (by decide) (by decide)]

/-- Over the extended reals the two programs end with equal results. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Hand.o3 m c, Cert.KernelIdeal.Hand.run (F := Ideal) m ρ, ?_⟩
  refine (θ_run Cert.ReferenceIdeal.defs _ _).mono (fun _ h c => ⟨(h c).1.trans ?_, (h c).2⟩) (Cert.ReferenceIdeal.RefValue.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (net_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
